-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x128 : Shape := ⟨3, ![64, 64, 128]⟩
abbrev S_ : Shape := ⟨0, ![]⟩

class Facts : Prop where
  bcast_S_S64x64x128 : S_.BroadcastsInDim S64x64x128 (![] : Fin 0 → Fin S64x64x128.rank)
  reducesTo_S64x64x128_S_d0_1_2 : S64x64x128.ReducesTo [0, 1, 2] S_
  h_S_ : 0 < S_.numel

variable [Facts]

def fn {F : FTy → Type} [FloatOps F] (main_arg0 : FVec F S64x64x128 .f32) (main_arg1 : FVec F S64x64x128 .f32) : IVec S_ 1 :=
  let main_v0 : FVec F S64x64x128 .f32 := Host.absf main_arg0
  let main_cst : FVec F S_ .f32 := constant S_ .f32 0x7F800000#32
  let main_v1 : FVec F S64x64x128 .f32 := broadcastInDim S64x64x128 ![] bcast_S_S64x64x128 main_cst
  let main_v2 : IVec S64x64x128 1 := cmpf .olt main_v0 main_v1
  let main_c : IVec S_ 1 := constantI S_ 1 1#1
  let main_v3 : IVec S_ 1 := (fun x v => Host.reduce IntOp.andi x v reducesTo_S64x64x128_S_d0_1_2 h_S_) main_v2 main_c
  let main_v4 : FVec F S64x64x128 .f32 := Host.absf main_arg1
  let main_cst_0 : FVec F S_ .f32 := constant S_ .f32 0x7F800000#32
  let main_v5 : FVec F S64x64x128 .f32 := broadcastInDim S64x64x128 ![] bcast_S_S64x64x128 main_cst_0
  let main_v6 : IVec S64x64x128 1 := cmpf .olt main_v4 main_v5
  let main_c_1 : IVec S_ 1 := constantI S_ 1 1#1
  let main_v7 : IVec S_ 1 := (fun x v => Host.reduce IntOp.andi x v reducesTo_S64x64x128_S_d0_1_2 h_S_) main_v6 main_c_1
  let main_v8 : IVec S_ 1 := andi main_v3 main_v7
  main_v8
-- ==== Kernel.lean ====
abbrev S64x64x128 : Shape := ⟨3, ![64, 64, 128]⟩
abbrev S_ : Shape := ⟨0, ![]⟩
abbrev S64x64 : Shape := ⟨2, ![64, 64]⟩
abbrev S64x64x1 : Shape := ⟨3, ![64, 64, 1]⟩
abbrev S128x64x128 : Shape := ⟨3, ![128, 64, 128]⟩
abbrev S8192x128 : Shape := ⟨2, ![8192, 128]⟩
abbrev S8192x1 : Shape := ⟨2, ![8192, 1]⟩
abbrev S512x128 : Shape := ⟨2, ![512, 128]⟩
abbrev S512x1 : Shape := ⟨2, ![512, 1]⟩
abbrev S128x512 : Shape := ⟨2, ![128, 512]⟩
abbrev S512x512 : Shape := ⟨2, ![512, 512]⟩
abbrev S1x512 : Shape := ⟨2, ![1, 512]⟩
abbrev S512 : Shape := ⟨1, ![512]⟩
abbrev S128x64 : Shape := ⟨2, ![128, 64]⟩

abbrev nBuf : Space → Nat
  | .hbm => 42
  | .vmem => 10
  | .smem => 0
  | _ => 0

abbrev bufTy : (tb : Table) → Fin (tcTables nBuf tb) → BufTy
  | .hbm, ⟨0, _⟩ => ⟨S64x64x128, .f32⟩
  | .hbm, ⟨1, _⟩ => ⟨S64x64x128, .f32⟩
  | .hbm, ⟨2, _⟩ => ⟨S64x64x128, .f32⟩
  | .hbm, ⟨3, _⟩ => ⟨S_, .f32⟩
  | .hbm, ⟨4, _⟩ => ⟨S64x64, .f32⟩
  | .hbm, ⟨5, _⟩ => ⟨S64x64x1, .f32⟩
  | .hbm, ⟨6, _⟩ => ⟨S64x64x1, .f32⟩
  | .hbm, ⟨7, _⟩ => ⟨S_, .f32⟩
  | .hbm, ⟨8, _⟩ => ⟨S64x64x1, .f32⟩
  | .hbm, ⟨9, _⟩ => ⟨S64x64x1, .f32⟩
  | .hbm, ⟨10, _⟩ => ⟨S64x64x128, .f32⟩
  | .hbm, ⟨11, _⟩ => ⟨S64x64x128, .f32⟩
  | .hbm, ⟨12, _⟩ => ⟨S64x64x128, .f32⟩
  | .hbm, ⟨13, _⟩ => ⟨S_, .f32⟩
  | .hbm, ⟨14, _⟩ => ⟨S64x64, .f32⟩
  | .hbm, ⟨15, _⟩ => ⟨S64x64x1, .f32⟩
  | .hbm, ⟨16, _⟩ => ⟨S64x64x1, .f32⟩
  | .hbm, ⟨17, _⟩ => ⟨S_, .f32⟩
  | .hbm, ⟨18, _⟩ => ⟨S64x64x1, .f32⟩
  | .hbm, ⟨19, _⟩ => ⟨S64x64x1, .f32⟩
  | .hbm, ⟨20, _⟩ => ⟨S64x64x128, .f32⟩
  | .hbm, ⟨21, _⟩ => ⟨S64x64x128, .f32⟩
  | .hbm, ⟨22, _⟩ => ⟨S128x64x128, .f32⟩
  | .hbm, ⟨23, _⟩ => ⟨S8192x128, .f32⟩
  | .hbm, ⟨24, _⟩ => ⟨S8192x128, .bf16⟩
  | .hbm, ⟨25, _⟩ => ⟨S8192x1, .f32⟩
  | .hbm, ⟨26, _⟩ => ⟨S8192x1, .f32⟩
  | .hbm, ⟨27, _⟩ => ⟨S128x64, .f32⟩
  | .hbm, ⟨28, _⟩ => ⟨S128x64, .f32⟩
  | .hbm, ⟨29, _⟩ => ⟨S64x64x128, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S128x64, .f32⟩
  | .hbm, ⟨37, _⟩ => ⟨S128x64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | _, _ => ⟨S64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v85 : BitVec 1 := Scalar.cmpi .eq arg1 c15_i32
  let v86 : BitVec 32 := Scalar.extui v85
  let c0_i32_28 : BitVec 32 := 0#32
  let v87 : BitVec 1 := Scalar.cmpi .ne v86 c0_i32_28
  v87

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S64x64x128_S64x64_d2 : S64x64x128.ReducesTo [2] S64x64
  h_S_ : 0 < S_.numel
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S64x64x1_S64x64x128_0_1_2 : S64x64x1.BroadcastsInDim S64x64x128 (![0, 1, 2] : Fin 3 → Fin S64x64x128.rank)
  concatenates_S64x64x128_S64x64x128_S128x64x128_d0 : Shape.Concatenates [S64x64x128, S64x64x128] S128x64x128 0
  shapeCasts_S128x64x128_S8192x128 : S128x64x128.ShapeCasts S8192x128
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S512x1_d0_w32 : S512x1.Iotas .tc 32 [0]
  natLt_1_32 : 1 < 32
  iota_S1x512_d1_w32 : S1x512.Iotas .tc 32 [1]
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  shapeCasts_S8192x1_S128x64 : S8192x1.ShapeCasts S128x64
  concatenates_S64x64_S64x64_S128x64_d0 : Shape.Concatenates [S64x64, S64x64] S128x64 0
  reducesTo_S128x64_S_d0_1 : S128x64.ReducesTo [0, 1] S_
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .bf16 = 32 ∨ (Rect.block (s := S8192x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .bf16 = 32 ∨ (Rect.block (s := S8192x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v12) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x64x128 : Shape := ⟨3, ![64, 64, 128]⟩
abbrev S_ : Shape := ⟨0, ![]⟩
abbrev S64x64 : Shape := ⟨2, ![64, 64]⟩
abbrev S64x64x1 : Shape := ⟨3, ![64, 64, 1]⟩
abbrev S128x64x128 : Shape := ⟨3, ![128, 64, 128]⟩
abbrev S128x64x128x64 : Shape := ⟨4, ![128, 64, 128, 64]⟩
abbrev S128x64 : Shape := ⟨2, ![128, 64]⟩
abbrev S128 : Shape := ⟨1, ![128]⟩
abbrev S128x1 : Shape := ⟨2, ![128, 1]⟩
abbrev S128x2 : Shape := ⟨2, ![128, 2]⟩
abbrev S128x64x64 : Shape := ⟨3, ![128, 64, 64]⟩
abbrev S64 : Shape := ⟨1, ![64]⟩
abbrev S64x1 : Shape := ⟨2, ![64, 1]⟩
abbrev S64x2 : Shape := ⟨2, ![64, 2]⟩

abbrev nBuf : Space → Nat
  | .hbm => 119
  | .vmem => 0
  | .smem => 0
  | _ => 0

abbrev bufTy : (tb : Table) → Fin (tcTables nBuf tb) → BufTy
  | .hbm, ⟨0, _⟩ => ⟨S64x64x128, .f32⟩
  | .hbm, ⟨1, _⟩ => ⟨S64x64x128, .f32⟩
  | .hbm, ⟨2, _⟩ => ⟨S64x64x128, .f32⟩
  | .hbm, ⟨3, _⟩ => ⟨S_, .f32⟩
  | .hbm, ⟨4, _⟩ => ⟨S64x64, .f32⟩
  | .hbm, ⟨5, _⟩ => ⟨S64x64x1, .f32⟩
  | .hbm, ⟨6, _⟩ => ⟨S64x64x1, .f32⟩
  | .hbm, ⟨7, _⟩ => ⟨S_, .f32⟩
  | .hbm, ⟨8, _⟩ => ⟨S64x64x1, .f32⟩
  | .hbm, ⟨9, _⟩ => ⟨S64x64x1, .f32⟩
  | .hbm, ⟨10, _⟩ => ⟨S64x64x128, .f32⟩
  | .hbm, ⟨11, _⟩ => ⟨S64x64x128, .f32⟩
  | .hbm, ⟨12, _⟩ => ⟨S64x64x128, .f32⟩
  | .hbm, ⟨13, _⟩ => ⟨S_, .f32⟩
  | .hbm, ⟨14, _⟩ => ⟨S64x64, .f32⟩
  | .hbm, ⟨15, _⟩ => ⟨S64x64x1, .f32⟩
  | .hbm, ⟨16, _⟩ => ⟨S64x64x1, .f32⟩
  | .hbm, ⟨17, _⟩ => ⟨S_, .f32⟩
  | .hbm, ⟨18, _⟩ => ⟨S64x64x1, .f32⟩
  | .hbm, ⟨19, _⟩ => ⟨S64x64x1, .f32⟩
  | .hbm, ⟨20, _⟩ => ⟨S64x64x128, .f32⟩
  | .hbm, ⟨21, _⟩ => ⟨S64x64x128, .f32⟩
  | .hbm, ⟨22, _⟩ => ⟨S128x64x128, .f32⟩
  | .hbm, ⟨23, _⟩ => ⟨S128x64x128x64, .f32⟩
  | .hbm, ⟨24, _⟩ => ⟨S128x64x128x64, .f32⟩
  | .hbm, ⟨25, _⟩ => ⟨S_, .f32⟩
  | .hbm, ⟨26, _⟩ => ⟨S128x64, .f32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S128x1, .i32⟩
  | .hbm, ⟨43, _⟩ => ⟨S128x1, .i32⟩
  | .hbm, ⟨44, _⟩ => ⟨S128x2, .i32⟩
  | .hbm, ⟨45, _⟩ => ⟨S128x64x64, .f32⟩
  | .hbm, ⟨46, _⟩ => ⟨S_, .f32⟩
  | .hbm, ⟨47, _⟩ => ⟨S128x64, .f32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S128, .i32⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i1⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S_, .i32⟩
  | .hbm, ⟨66, _⟩ => ⟨S_, .i1⟩
  | .hbm, ⟨67, _⟩ => ⟨S128, .i1⟩
  | .hbm, ⟨68, _⟩ => ⟨S128, .i1⟩
  | .hbm, ⟨69, _⟩ => ⟨S128, .i1⟩
  | .hbm, ⟨70, _⟩ => ⟨S128, .i32⟩
  | .hbm, ⟨71, _⟩ => ⟨S128, .i32⟩
  | .hbm, ⟨72, _⟩ => ⟨S128, .i32⟩
  | .hbm, ⟨73, _⟩ => ⟨S_, .i32⟩
  | .hbm, ⟨74, _⟩ => ⟨S128, .i32⟩
  | .hbm, ⟨75, _⟩ => ⟨S128, .i1⟩
  | .hbm, ⟨76, _⟩ => ⟨S_, .i32⟩
  | .hbm, ⟨77, _⟩ => ⟨S128, .i32⟩
  | .hbm, ⟨78, _⟩ => ⟨S128, .i32⟩
  | .hbm, ⟨79, _⟩ => ⟨S128, .i32⟩
  | .hbm, ⟨80, _⟩ => ⟨S_, .i32⟩
  | .hbm, ⟨81, _⟩ => ⟨S128, .i32⟩
  | .hbm, ⟨82, _⟩ => ⟨S128, .i1⟩
  | .hbm, ⟨83, _⟩ => ⟨S_, .i32⟩
  | .hbm, ⟨84, _⟩ => ⟨S128, .i32⟩
  | .hbm, ⟨85, _⟩ => ⟨S128, .i32⟩
  | .hbm, ⟨86, _⟩ => ⟨S128, .i32⟩
  | .hbm, ⟨87, _⟩ => ⟨S128x1, .i32⟩
  | .hbm, ⟨88, _⟩ => ⟨S128x1, .i32⟩
  | .hbm, ⟨89, _⟩ => ⟨S128x2, .i32⟩
  | .hbm, ⟨90, _⟩ => ⟨S128x64x64, .f32⟩
  | .hbm, ⟨91, _⟩ => ⟨S64, .i32⟩
  | .hbm, ⟨92, _⟩ => ⟨S64, .i32⟩
  | .hbm, ⟨93, _⟩ => ⟨S_, .i32⟩
  | .hbm, ⟨94, _⟩ => ⟨S64, .i32⟩
  | .hbm, ⟨95, _⟩ => ⟨S64, .i1⟩
  | .hbm, ⟨96, _⟩ => ⟨S_, .i32⟩
  | .hbm, ⟨97, _⟩ => ⟨S64, .i32⟩
  | .hbm, ⟨98, _⟩ => ⟨S64, .i32⟩
  | .hbm, ⟨99, _⟩ => ⟨S64, .i32⟩
  | .hbm, ⟨100, _⟩ => ⟨S_, .i32⟩
  | .hbm, ⟨101, _⟩ => ⟨S64, .i32⟩
  | .hbm, ⟨102, _⟩ => ⟨S64, .i1⟩
  | .hbm, ⟨103, _⟩ => ⟨S_, .i32⟩
  | .hbm, ⟨104, _⟩ => ⟨S64, .i32⟩
  | .hbm, ⟨105, _⟩ => ⟨S64, .i32⟩
  | .hbm, ⟨106, _⟩ => ⟨S64, .i32⟩
  | .hbm, ⟨107, _⟩ => ⟨S64x1, .i32⟩
  | .hbm, ⟨108, _⟩ => ⟨S64x1, .i32⟩
  | .hbm, ⟨109, _⟩ => ⟨S64x2, .i32⟩
  | .hbm, ⟨110, _⟩ => ⟨S128x64, .f32⟩
  | .hbm, ⟨111, _⟩ => ⟨S128x64, .f32⟩
  | .hbm, ⟨112, _⟩ => ⟨S128x64, .f32⟩
  | .hbm, ⟨113, _⟩ => ⟨S128x64, .f32⟩
  | .hbm, ⟨114, _⟩ => ⟨S128x64, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v32 : Ref sig .tc := ⟨.hbm, 72, rfl⟩
abbrev main_c_8 : Ref sig .tc := ⟨.hbm, 73, rfl⟩
abbrev main_v33 : Ref sig .tc := ⟨.hbm, 74, rfl⟩
abbrev main_v34 : Ref sig .tc := ⟨.hbm, 75, rfl⟩
abbrev main_c_9 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_10 : Ref sig .tc := ⟨.hbm, 80, rfl⟩
abbrev main_v38 : Ref sig .tc := ⟨.hbm, 81, rfl⟩
abbrev main_v39 : Ref sig .tc := ⟨.hbm, 82, rfl⟩
abbrev main_c_11 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_call3_v0 : Ref sig .tc := ⟨.hbm, 91, rfl⟩
abbrev main_call3_v1 : Ref sig .tc := ⟨.hbm, 92, rfl⟩
abbrev main_call3_c : Ref sig .tc := ⟨.hbm, 93, rfl⟩
abbrev main_call3_v2 : Ref sig .tc := ⟨.hbm, 94, rfl⟩
abbrev main_call3_v3 : Ref sig .tc := ⟨.hbm, 95, rfl⟩
abbrev main_call3_c_0 : Ref sig .tc := ⟨.hbm, 96, rfl⟩
abbrev main_call3_v4 : Ref sig .tc := ⟨.hbm, 97, rfl⟩
abbrev main_call3_v5 : Ref sig .tc := ⟨.hbm, 98, rfl⟩
abbrev main_call3_v6 : Ref sig .tc := ⟨.hbm, 99, rfl⟩
abbrev main_call3_c_1 : Ref sig .tc := ⟨.hbm, 100, rfl⟩
abbrev main_call3_v7 : Ref sig .tc := ⟨.hbm, 101, rfl⟩
abbrev main_call3_v8 : Ref sig .tc := ⟨.hbm, 102, rfl⟩
abbrev main_call3_c_2 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_cst_12 : Ref sig .tc := ⟨.hbm, 115, rfl⟩
abbrev main_v52 : Ref sig .tc := ⟨.hbm, 116, rfl⟩
abbrev main_cst_13 : Ref sig .tc := ⟨.hbm, 117, rfl⟩
abbrev main_v53 : Ref sig .tc := ⟨.hbm, 118, rfl⟩

abbrev nD : Nat := 1
abbrev τ : Topo := Topo.v7x

variable {F : FTy → Type} [FloatOps F]

class Facts₀ : Prop where
  reducesTo_S64x64x128_S64x64_d2 : S64x64x128.ReducesTo [2] S64x64
  h_S_ : 0 < S_.numel
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S64x64x1_S64x64x128_0_1_2 : S64x64x1.BroadcastsInDim S64x64x128 (![0, 1, 2] : Fin 3 → Fin S64x64x128.rank)
  concatenates_S64x64x128_S64x64x128_S128x64x128_d0 : Shape.Concatenates [S64x64x128, S64x64x128] S128x64x128 0
  reducesTo_S128x64x128x64_S128x64_d2_3 : S128x64x128x64.ReducesTo [2, 3] S128x64
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  reducesTo_S128x64x64_S128x64_d2 : S128x64x64.ReducesTo [2] S128x64
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  reducesTo_S128x64_S_d0_1 : S128x64.ReducesTo [0, 1] S_
  dot_S128x64x128_S128x64x128_S128x64x128x64_2_2_01_01_n_n_wf : DotDims.WF S128x64x128 S128x64x128 S128x64x128x64 [2] [2] [0, 1] [0, 1] [] []
  gather_S128x64x128x64_S128x2_S128x64x64_12_02_n_n_02_1_164164_wf : GatherDims.WF S128x64x128x64 S128x2 S128x64x64 [1, 2] [0, 2] [] [0, 2] [] 1 ![1, 64, 1, 64]
  gather_S128x64x64_S64x2_S128x64_0_12_n_n_12_1_12811_wf : GatherDims.WF S128x64x64 S64x2 S128x64 [0] [1, 2] [] [1, 2] [] 1 ![128, 1, 1]

variable [Facts₀]

def dot_S128x64x128_S128x64x128_S128x64x128x64_2_2_01_01_n_n : DotDims S128x64x128 S128x64x128 S128x64x128x64 where
  lhsContracting := [2]
  rhsContracting := [2]
  lhsNonContracting := [0, 1]
  rhsNonContracting := [0, 1]
  lhsBatch := []
  rhsBatch := []
  wf := dot_S128x64x128_S128x64x128_S128x64x128x64_2_2_01_01_n_n_wf
def gather_S128x64x128x64_S128x2_S128x64x64_12_02_n_n_02_1_164164 : GatherDims S128x64x128x64 S128x2 S128x64x64 where
  offsetDims := [1, 2]
  collapsedSliceDims := [0, 2]
  operandBatchingDims := []
  startIndicesBatchingDims := []
  startIndexMap := [0, 2]
  indexVectorDim := 1
  sliceSizes := ![1, 64, 1, 64]
  wf := gather_S128x64x128x64_S128x2_S128x64x64_12_02_n_n_02_1_164164_wf
def gather_S128x64x64_S64x2_S128x64_0_12_n_n_12_1_12811 : GatherDims S128x64x64 S64x2 S128x64 where
  offsetDims := [0]
  collapsedSliceDims := [1, 2]
  operandBatchingDims := []
  startIndicesBatchingDims := []
  startIndexMap := [1, 2]
  indexVectorDim := 1
  sliceSizes := ![128, 1, 1]
  wf := gather_S128x64x64_S64x2_S128x64_0_12_n_n_12_1_12811_wf

class Facts : Prop extends Facts₀ where

variable [Facts]
-- ==== Proof.Kernel.KerSpec.lean ====
/-
  What the kernel leaves in its two scratch accumulators, as functions of the flattened feature matrix,
  written over the body's arithmetic (the skeleton's payloads) and generic in the float instance.

  The grid is 16 × 16: point `n` has row tile `n / 16` and column tile `n % 16`; a tile is 512 rows of the
  8192 × 128 matrix `A`. At a point the body forms `exp (Q · Kᵀ)` for the row tile `Q` and the column tile `K`,
  adds each row's sum to the first accumulator and the sum of the entries whose row and column lie in the
  same 64-row group to the second; both accumulators restart from zero whenever the column tile is 0, and
  are copied out when it is 15.
-/
import proofs.«161518_j12833362280505_1_alg».proof.Proof.Gen.Kernel.Skeleton
import Idealize.ShloMosaic.Lib.ValueIdx

noncomputable section

namespace Cert.Kernel.KerSpec

open Idealize.ShloMosaic Idealize.ShloMosaic.ValueIdx Cert.Kernel Cert.Kernel.Gen

variable {F : FTy → Type} [FloatOps F]

/-- Tile `b` of the matrix: its rows `512 b … 512 b + 511`. -/
def blk (A : Vec F S8192x128 .bf16) (b : Nat) : Vec F S512x128 .bf16 :=
  fun y => A (ix2 (⟨(b * 512 + (y 0).val) % 8192, Nat.mod_lt _ (by decide)⟩ : Fin 8192) (⟨(y 1).val, idx2_lt1 y⟩ : Fin 128))

/-- The grid coordinates of point `n`. -/
def coordsN (n : Nat) : grid0.Coords := grid0.coords ⟨n % grid0.N, Nat.mod_lt _ (by decide)⟩

/-- The value both accumulators restart from. -/
def zeroTot : FVec F S512x1 .f32 := k0_pay2
def zeroPos : FVec F S512x1 .f32 := k0_pay3

/-- One point's update of the row-sum accumulator: `acc + rowsum (exp (q · kᵀ))`. -/
def stepTot (q k : Vec F S512x128 .bf16) (acc : Vec F S512x1 .f32) : FVec F S512x1 .f32 :=
  k0_pay7 (k0_pay4 q k) acc

/-- One point's update of the same-group accumulator at grid coordinates `i`:
    `acc + rowsum (where (row group = column group) (exp (q · kᵀ)) 0)`. -/
def stepPos (i : grid0.Coords) (q k : Vec F S512x128 .bf16) (acc : Vec F S512x1 .f32) : FVec F S512x1 .f32 :=
  k0_pay1 (k0_pay8 (k0_pay4 q k) (k0_pay5 i) (iota .tc S1x512 32 [1] iota_S1x512_d1_w32) (k0_pay6 i) acc)

/-- The row-sum accumulator after point `n`. -/
def accTot (A : Vec F S8192x128 .bf16) : Nat → FVec F S512x1 .f32
  | 0 => stepTot (blk A 0) (blk A 0) zeroTot
  | n + 1 => stepTot (blk A ((n + 1) / 16)) (blk A ((n + 1) % 16)) (if (n + 1) % 16 = 0 then zeroTot else accTot A n)

/-- The same-group accumulator after point `n`. -/
def accPos (A : Vec F S8192x128 .bf16) : Nat → FVec F S512x1 .f32
  | 0 => stepPos (coordsN 0) (blk A 0) (blk A 0) zeroPos
  | n + 1 => stepPos (coordsN (n + 1)) (blk A ((n + 1) / 16)) (blk A ((n + 1) % 16)) (if (n + 1) % 16 = 0 then zeroPos else accPos A n)

/-- The first result array: row `R` holds the row-sum accumulator of `R`'s tile after its last column tile. -/
def out0 (A : Vec F S8192x128 .bf16) : Vec F S8192x1 .f32 :=
  fun y => accTot A (((y 0).val / 512) * 16 + 15) (ix2 (⟨(y 0).val % 512, Nat.mod_lt _ (by decide)⟩ : Fin 512) (0 : Fin 1))

/-- The second result array, likewise from the same-group accumulator. -/
def out1 (A : Vec F S8192x128 .bf16) : Vec F S8192x1 .f32 :=
  fun y => accPos A (((y 0).val / 512) * 16 + 15) (ix2 (⟨(y 0).val % 512, Nat.mod_lt _ (by decide)⟩ : Fin 512) (0 : Fin 1))

end Cert.Kernel.KerSpec

end
-- ==== Proof.Kernel.Runs.lean ====
/-
  What the three cases of the kernel body share: the two branch conditions of the body as propositions over the grid
  coordinates and their closed forms over the 256 grid points (the column tile is the point modulo 16: the first
  branch is taken when it is 0, the second when it is 15), where the two result windows are idle, and names for
  the staging and scratch buffers.
-/
import proofs.«161518_j12833362280505_1_alg».proof.Proof.Gen.Kernel.Launch
import proofs.«161518_j12833362280505_1_alg».proof.Proof.Gen.Kernel.Skeleton
import proofs.«161518_j12833362280505_1_alg».proof.Proof.Gen.Kernel.Points
import proofs.«161518_j12833362280505_1_alg».proof.Proof.Kernel.KerSpec
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition: the column tile is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch's condition: the column tile is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The two result windows are idle, and not written back, exactly where the column tile is not 15. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-- Each window's current staging buffer at point `t`, as the pipeline passes it to the body, and its wholeness. -/
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
/-- The two scratch accumulators: whole scoped buffers of the kernel's own. -/
abbrev scM0_0 : Memref sig .tc .vmem S512x1 .f32 := Memref.whole cc0_scratch0
abbrev scM0_1 : Memref sig .tc .vmem S512x1 .f32 := Memref.whole cc0_scratch1

end Cert.Kernel.KF

end
-- ==== Proof.Kernel.RunA.lean ====
/-
  The kernel body run whole in the case where the column tile is 0: both accumulators are first reset to zero. On whole buffers — the two input blocks at their
  contents, the accumulators at anything, the result windows' buffers handed back untouched — the body
  runs to the continuation with the inputs as they were and each buffer it stored into at its stores, given as pieces
  (last store first); the pieces are found by the run itself.
-/
import proofs.«161518_j12833362280505_1_alg».proof.Proof.Kernel.Runs

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 x1 : Vec F S512x128 .bf16) :
    Σ' (LS0 : List (View.Piece (Elt F) S512x1 .f32)), { LS1 : List (View.Piece (Elt F) S512x1 .f32) //
      ∀ (xi2 xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__sim_sum_kernel i arg2 harg2 arg3 harg3 arg4 harg4 arg5 harg5 arg6 harg6 arg7 harg7) K } := by
  refine ⟨?_, ?_, fun xi2 xi3 E K => ?run⟩
  case run =>
    simp only [cc0__sim_sum_kernel_eq_skeleton]; unfold cc0__sim_sum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.KF

end
-- ==== Proof.Kernel.RunB.lean ====
/-
  The kernel body run whole in the case where the column tile is neither 0 nor 15. On whole buffers — the two input blocks at their
  contents, the accumulators at the contents the point before left, the result windows' buffers handed back untouched — the body
  runs to the continuation with the inputs as they were and each buffer it stored into at its stores, given as pieces
  (last store first); the pieces are found by the run itself.
-/
import proofs.«161518_j12833362280505_1_alg».proof.Proof.Kernel.RunA

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 x1 : Vec F S512x128 .bf16) (xs0 xs1 : Vec F S512x1 .f32) :
    Σ' (LS0 : List (View.Piece (Elt F) S512x1 .f32)), { LS1 : List (View.Piece (Elt F) S512x1 .f32) //
      ∀ (xi2 xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__sim_sum_kernel i arg2 harg2 arg3 harg3 arg4 harg4 arg5 harg5 arg6 harg6 arg7 harg7) K } := by
  refine ⟨?_, ?_, fun xi2 xi3 E K => ?run⟩
  case run =>
    simp only [cc0__sim_sum_kernel_eq_skeleton]; unfold cc0__sim_sum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.KF

end
-- ==== Proof.Kernel.RunC.lean ====
/-
  The kernel body run whole in the case where the column tile is 15: after the update both accumulators are copied into the result windows' buffers. On whole buffers — the two input blocks at their
  contents, the accumulators at the contents the point before left, the result windows' buffers at anything — the body
  runs to the continuation with the inputs as they were and each buffer it stored into at its stores, given as pieces
  (last store first); the pieces are found by the run itself.
-/
import proofs.«161518_j12833362280505_1_alg».proof.Proof.Kernel.RunB

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 : Vec F S512x128 .bf16) (xs0 xs1 : Vec F S512x1 .f32) :
    Σ' (L2 : List (View.Piece (Elt F) S512x1 .f32)) (L3 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__sim_sum_kernel i arg2 harg2 arg3 harg3 arg4 harg4 arg5 harg5 arg6 harg6 arg7 harg7) K } := by
  refine ⟨?_, ?_, ?_, ?_, fun E K => ?run⟩
  case run =>
    simp only [cc0__sim_sum_kernel_eq_skeleton]; unfold cc0__sim_sum_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.KF

end
-- ==== Proof.Kernel.Pieces.lean ====
/-
  What each case of the body leaves in the two accumulators (and, in the last case, in the two result windows'
  buffers), read back from the stores the runs found: one step of each accumulator, as KerSpec states it over the
  body's arithmetic. A store through the whole buffer, last, leaves its payload; a load of what one such store
  left reads the payload back.
-/
import proofs.«161518_j12833362280505_1_alg».proof.Proof.Kernel.RunC
import Idealize.ShloMosaic.Lib.Pipeline.Value

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A view through which a buffer's pieces are read back (the choice does not matter once the pieces cover). -/
abbrev VS : View sig .tc .vmem S512x1 .f32 := scM0_0.view

/-! ## Case A -/

theorem scoverA0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) (y : S512x1.Idx) : ∃ pc ∈ (kernelRun0_A (F := F) c i arg2 harg2 arg3 harg3 arg4 harg4 arg5 harg5 arg6 harg6 arg7 harg7 hc0 hc1 x0 x1).1, y ∈ pc.1.set :=
  View.cover_of_tiledL (kernelRun0_A (F := F) c i arg2 harg2 arg3 harg3 arg4 harg4 arg5 harg5 arg6 harg6 arg7 harg7 hc0 hc1 x0 x1).1 S512x1.size (by sl_kernel_rfl) y
theorem scoverA1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) (y : S512x1.Idx) : ∃ pc ∈ (kernelRun0_A (F := F) c i arg2 harg2 arg3 harg3 arg4 harg4 arg5 harg5 arg6 harg6 arg7 harg7 hc0 hc1 x0 x1).2.1, y ∈ pc.1.set :=
  View.cover_of_tiledL (kernelRun0_A (F := F) c i arg2 harg2 arg3 harg3 arg4 harg4 arg5 harg5 arg6 harg6 arg7 harg7 hc0 hc1 x0 x1).2.1 S512x1.size (by sl_kernel_rfl) y

/-- What the case leaves in the first accumulator: its stores read back. -/
def sA0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) : Vec F S512x1 .f32 := VS.read (Elt F) (VS.writes (Elt F) VS.junk (kernelRun0_A (F := F) c i arg2 harg2 arg3 harg3 arg4 harg4 arg5 harg5 arg6 harg6 arg7 harg7 hc0 hc1 x0 x1).1)
def sA1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) : Vec F S512x1 .f32 := VS.read (Elt F) (VS.writes (Elt F) VS.junk (kernelRun0_A (F := F) c i arg2 harg2 arg3 harg3 arg4 harg4 arg5 harg5 arg6 harg6 arg7 harg7 hc0 hc1 x0 x1).2.1)

/-- It is one step of the row-sum accumulator from zero. -/
theorem sA0_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) : sA0 c i arg2 harg2 arg3 harg3 arg4 harg4 arg5 harg5 arg6 harg6 arg7 harg7 hc0 hc1 x0 x1 = KerSpec.stepTot x0 x1 KerSpec.zeroTot := by
  unfold sA0
  rw [View.read_writes_eq_canon _ _ _ (scoverA0 c i arg2 harg2 arg3 harg3 arg4 harg4 arg5 harg5 arg6 harg6 arg7 harg7 hc0 hc1 x0 x1)]
  unfold kernelRun0_A
  dsimp only
  sl_unfold_words
  first | rw [View.canon_unit_zero hz] | rw [View.canon_cons_unit_zero (S := S512x1) hz]
  try simp only [View.readCov_unit_zero (S := S512x1) _ hz]
  unfold KerSpec.stepTot KerSpec.zeroTot
  simp only [View.readAt_eq_ld, harg2.read_unread, harg3.read_unread, harg6.read_unread, harg7.read_unread, View.ld_unit_zero (S := S512x1) hz, View.ld_unit_zero (S := S512x128) hz]
theorem sA1_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) : sA1 c i arg2 harg2 arg3 harg3 arg4 harg4 arg5 harg5 arg6 harg6 arg7 harg7 hc0 hc1 x0 x1 = KerSpec.stepPos i x0 x1 KerSpec.zeroPos := by
  unfold sA1
  rw [View.read_writes_eq_canon _ _ _ (scoverA1 c i arg2 harg2 arg3 harg3 arg4 harg4 arg5 harg5 arg6 harg6 arg7 harg7 hc0 hc1 x0 x1)]
  unfold kernelRun0_A
  dsimp only
  sl_unfold_words
  first | rw [View.canon_unit_zero hz] | rw [View.canon_cons_unit_zero (S := S512x1) hz]
  try simp only [View.readCov_unit_zero (S := S512x1) _ hz]
  unfold KerSpec.stepPos KerSpec.zeroPos
  simp only [View.readAt_eq_ld, harg2.read_unread, harg3.read_unread, harg6.read_unread, harg7.read_unread, View.ld_unit_zero (S := S512x1) hz, View.ld_unit_zero (S := S512x128) hz]

/-! ## Case B -/

theorem scoverB0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) (y : S512x1.Idx) : ∃ pc ∈ (kernelRun0_B (F := F) c i arg2 harg2 arg3 harg3 arg4 harg4 arg5 harg5 arg6 harg6 arg7 harg7 hc0 hc1 x0 x1 xs0 xs1).1, y ∈ pc.1.set :=
  View.cover_of_tiledL (kernelRun0_B (F := F) c i arg2 harg2 arg3 harg3 arg4 harg4 arg5 harg5 arg6 harg6 arg7 harg7 hc0 hc1 x0 x1 xs0 xs1).1 S512x1.size (by sl_kernel_rfl) y
theorem scoverB1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) (y : S512x1.Idx) : ∃ pc ∈ (kernelRun0_B (F := F) c i arg2 harg2 arg3 harg3 arg4 harg4 arg5 harg5 arg6 harg6 arg7 harg7 hc0 hc1 x0 x1 xs0 xs1).2.1, y ∈ pc.1.set :=
  View.cover_of_tiledL (kernelRun0_B (F := F) c i arg2 harg2 arg3 harg3 arg4 harg4 arg5 harg5 arg6 harg6 arg7 harg7 hc0 hc1 x0 x1 xs0 xs1).2.1 S512x1.size (by sl_kernel_rfl) y

/-- What the case leaves in the first accumulator: its stores read back. -/
def sB0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) : Vec F S512x1 .f32 := VS.read (Elt F) (VS.writes (Elt F) VS.junk (kernelRun0_B (F := F) c i arg2 harg2 arg3 harg3 arg4 harg4 arg5 harg5 arg6 harg6 arg7 harg7 hc0 hc1 x0 x1 xs0 xs1).1)
def sB1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) : Vec F S512x1 .f32 := VS.read (Elt F) (VS.writes (Elt F) VS.junk (kernelRun0_B (F := F) c i arg2 harg2 arg3 harg3 arg4 harg4 arg5 harg5 arg6 harg6 arg7 harg7 hc0 hc1 x0 x1 xs0 xs1).2.1)

/-- It is one step of the row-sum accumulator from what the point before left. -/
theorem sB0_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) : sB0 c i arg2 harg2 arg3 harg3 arg4 harg4 arg5 harg5 arg6 harg6 arg7 harg7 hc0 hc1 x0 x1 xs0 xs1 = KerSpec.stepTot x0 x1 xs0 := by
  unfold sB0
  rw [View.read_writes_eq_canon _ _ _ (scoverB0 c i arg2 harg2 arg3 harg3 arg4 harg4 arg5 harg5 arg6 harg6 arg7 harg7 hc0 hc1 x0 x1 xs0 xs1)]
  unfold kernelRun0_B
  dsimp only
  sl_unfold_words
  first | rw [View.canon_unit_zero hz] | rw [View.canon_cons_unit_zero (S := S512x1) hz]
  try simp only [View.readCov_unit_zero (S := S512x1) _ hz]
  unfold KerSpec.stepTot
  simp only [View.readAt_eq_ld, harg2.read_unread, harg3.read_unread, harg6.read_unread, harg7.read_unread, View.ld_unit_zero (S := S512x1) hz, View.ld_unit_zero (S := S512x128) hz]
theorem sB1_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) : sB1 c i arg2 harg2 arg3 harg3 arg4 harg4 arg5 harg5 arg6 harg6 arg7 harg7 hc0 hc1 x0 x1 xs0 xs1 = KerSpec.stepPos i x0 x1 xs1 := by
  unfold sB1
  rw [View.read_writes_eq_canon _ _ _ (scoverB1 c i arg2 harg2 arg3 harg3 arg4 harg4 arg5 harg5 arg6 harg6 arg7 harg7 hc0 hc1 x0 x1 xs0 xs1)]
  unfold kernelRun0_B
  dsimp only
  sl_unfold_words
  first | rw [View.canon_unit_zero hz] | rw [View.canon_cons_unit_zero (S := S512x1) hz]
  try simp only [View.readCov_unit_zero (S := S512x1) _ hz]
  unfold KerSpec.stepPos
  simp only [View.readAt_eq_ld, harg2.read_unread, harg3.read_unread, harg6.read_unread, harg7.read_unread, View.ld_unit_zero (S := S512x1) hz, View.ld_unit_zero (S := S512x128) hz]

/-! ## Case C -/

theorem scoverC0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) (y : S512x1.Idx) : ∃ pc ∈ (kernelRun0_C (F := F) c i arg2 harg2 arg3 harg3 arg4 harg4 arg5 harg5 arg6 harg6 arg7 harg7 hc0 hc1 x0 x1 xs0 xs1).2.2.1, y ∈ pc.1.set :=
  View.cover_of_tiledL (kernelRun0_C (F := F) c i arg2 harg2 arg3 harg3 arg4 harg4 arg5 harg5 arg6 harg6 arg7 harg7 hc0 hc1 x0 x1 xs0 xs1).2.2.1 S512x1.size (by sl_kernel_rfl) y
theorem scoverC1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) (y : S512x1.Idx) : ∃ pc ∈ (kernelRun0_C (F := F) c i arg2 harg2 arg3 harg3 arg4 harg4 arg5 harg5 arg6 harg6 arg7 harg7 hc0 hc1 x0 x1 xs0 xs1).2.2.2.1, y ∈ pc.1.set :=
  View.cover_of_tiledL (kernelRun0_C (F := F) c i arg2 harg2 arg3 harg3 arg4 harg4 arg5 harg5 arg6 harg6 arg7 harg7 hc0 hc1 x0 x1 xs0 xs1).2.2.2.1 S512x1.size (by sl_kernel_rfl) y

/-- What the case leaves in the first accumulator: its stores read back. -/
def sC0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : Vec F S512x1 .f32 := VS.read (Elt F) (VS.writes (Elt F) VS.junk (kernelRun0_C (F := F) c i arg2 harg2 arg3 harg3 arg4 harg4 arg5 harg5 arg6 harg6 arg7 harg7 hc0 hc1 x0 x1 xs0 xs1).2.2.1)
def sC1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : Vec F S512x1 .f32 := VS.read (Elt F) (VS.writes (Elt F) VS.junk (kernelRun0_C (F := F) c i arg2 harg2 arg3 harg3 arg4 harg4 arg5 harg5 arg6 harg6 arg7 harg7 hc0 hc1 x0 x1 xs0 xs1).2.2.2.1)

/-- It is one step of the row-sum accumulator from what the point before left. -/
theorem sC0_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : sC0 c i arg2 harg2 arg3 harg3 arg4 harg4 arg5 harg5 arg6 harg6 arg7 harg7 hc0 hc1 x0 x1 xs0 xs1 = KerSpec.stepTot x0 x1 xs0 := by
  unfold sC0
  rw [View.read_writes_eq_canon _ _ _ (scoverC0 c i arg2 harg2 arg3 harg3 arg4 harg4 arg5 harg5 arg6 harg6 arg7 harg7 hc0 hc1 x0 x1 xs0 xs1)]
  unfold kernelRun0_C
  dsimp only
  sl_unfold_words
  first | rw [View.canon_unit_zero hz] | rw [View.canon_cons_unit_zero (S := S512x1) hz]
  try simp only [View.readCov_unit_zero (S := S512x1) _ hz]
  unfold KerSpec.stepTot
  simp only [View.readAt_eq_ld, harg2.read_unread, harg3.read_unread, harg6.read_unread, harg7.read_unread, View.ld_unit_zero (S := S512x1) hz, View.ld_unit_zero (S := S512x128) hz]
theorem sC1_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : sC1 c i arg2 harg2 arg3 harg3 arg4 harg4 arg5 harg5 arg6 harg6 arg7 harg7 hc0 hc1 x0 x1 xs0 xs1 = KerSpec.stepPos i x0 x1 xs1 := by
  unfold sC1
  rw [View.read_writes_eq_canon _ _ _ (scoverC1 c i arg2 harg2 arg3 harg3 arg4 harg4 arg5 harg5 arg6 harg6 arg7 harg7 hc0 hc1 x0 x1 xs0 xs1)]
  unfold kernelRun0_C
  dsimp only
  sl_unfold_words
  first | rw [View.canon_unit_zero hz] | rw [View.canon_cons_unit_zero (S := S512x1) hz]
  try simp only [View.readCov_unit_zero (S := S512x1) _ hz]
  unfold KerSpec.stepPos
  simp only [View.readAt_eq_ld, harg2.read_unread, harg3.read_unread, harg6.read_unread, harg7.read_unread, View.ld_unit_zero (S := S512x1) hz, View.ld_unit_zero (S := S512x128) hz]

theorem coverC2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) (y : S512x1.Idx) : ∃ pc ∈ (kernelRun0_C (F := F) c i arg2 harg2 arg3 harg3 arg4 harg4 arg5 harg5 arg6 harg6 arg7 harg7 hc0 hc1 x0 x1 xs0 xs1).1, y ∈ pc.1.set :=
  View.cover_of_tiledL (kernelRun0_C (F := F) c i arg2 harg2 arg3 harg3 arg4 harg4 arg5 harg5 arg6 harg6 arg7 harg7 hc0 hc1 x0 x1 xs0 xs1).1 S512x1.size (by sl_kernel_rfl) y
theorem coverC3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) (y : S512x1.Idx) : ∃ pc ∈ (kernelRun0_C (F := F) c i arg2 harg2 arg3 harg3 arg4 harg4 arg5 harg5 arg6 harg6 arg7 harg7 hc0 hc1 x0 x1 xs0 xs1).2.1, y ∈ pc.1.set :=
  View.cover_of_tiledL (kernelRun0_C (F := F) c i arg2 harg2 arg3 harg3 arg4 harg4 arg5 harg5 arg6 harg6 arg7 harg7 hc0 hc1 x0 x1 xs0 xs1).2.1 S512x1.size (by sl_kernel_rfl) y

/-- What the case leaves in the two result windows' buffers: the accumulators just updated. -/
def oC2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : Vec F S512x1 .f32 := VS.read (Elt F) (VS.writes (Elt F) VS.junk (kernelRun0_C (F := F) c i arg2 harg2 arg3 harg3 arg4 harg4 arg5 harg5 arg6 harg6 arg7 harg7 hc0 hc1 x0 x1 xs0 xs1).1)
def oC3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : Vec F S512x1 .f32 := VS.read (Elt F) (VS.writes (Elt F) VS.junk (kernelRun0_C (F := F) c i arg2 harg2 arg3 harg3 arg4 harg4 arg5 harg5 arg6 harg6 arg7 harg7 hc0 hc1 x0 x1 xs0 xs1).2.1)

theorem oC2_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : oC2 c i arg2 harg2 arg3 harg3 arg4 harg4 arg5 harg5 arg6 harg6 arg7 harg7 hc0 hc1 x0 x1 xs0 xs1 = KerSpec.stepTot x0 x1 xs0 := by
  unfold oC2
  rw [View.read_writes_eq_canon _ _ _ (coverC2 c i arg2 harg2 arg3 harg3 arg4 harg4 arg5 harg5 arg6 harg6 arg7 harg7 hc0 hc1 x0 x1 xs0 xs1)]
  unfold kernelRun0_C
  dsimp only
  sl_unfold_words
  first | rw [View.canon_unit_zero hz] | rw [View.canon_cons_unit_zero (S := S512x1) hz]
  try simp only [View.readCov_unit_zero (S := S512x1) _ hz]
  unfold KerSpec.stepTot
  simp only [View.readAt_eq_ld, harg2.read_unread, harg3.read_unread, harg6.read_unread, harg7.read_unread, View.ld_unit_zero (S := S512x1) hz, View.ld_unit_zero (S := S512x128) hz]
theorem oC3_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : oC3 c i arg2 harg2 arg3 harg3 arg4 harg4 arg5 harg5 arg6 harg6 arg7 harg7 hc0 hc1 x0 x1 xs0 xs1 = KerSpec.stepPos i x0 x1 xs1 := by
  unfold oC3
  rw [View.read_writes_eq_canon _ _ _ (coverC3 c i arg2 harg2 arg3 harg3 arg4 harg4 arg5 harg5 arg6 harg6 arg7 harg7 hc0 hc1 x0 x1 xs0 xs1)]
  unfold kernelRun0_C
  dsimp only
  sl_unfold_words
  first | rw [View.canon_unit_zero hz] | rw [View.canon_cons_unit_zero (S := S512x1) hz]
  try simp only [View.readCov_unit_zero (S := S512x1) _ hz]
  unfold KerSpec.stepPos
  simp only [View.readAt_eq_ld, harg2.read_unread, harg3.read_unread, harg6.read_unread, harg7.read_unread, View.ld_unit_zero (S := S512x1) hz, View.ld_unit_zero (S := S512x128) hz]

end Cert.Kernel.KF

end
-- ==== Proof.Kernel.Body.lean ====
/-
  The proof data of the kernel region and the body obligation. The region finds the flattened feature matrix `A`
  in the one array both input windows read; at point `t` window 0 holds row tile `t / 16` and window 1 column tile
  `t % 16`. After point `t` the two scratch buffers hold `accTot A t` and `accPos A t` (KerSpec); the two result
  windows' buffers hold them too where the column tile is 15, and are handed back untouched elsewhere. The
  invariant between points carries the two scratch buffers at those contents (before the first point, at anything).
-/
import proofs.«161518_j12833362280505_1_alg».proof.Proof.Kernel.Pieces

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The feature matrix as the region finds it. -/
abbrev AM (c : Dev nD) : Vec F S8192x128 .bf16 := V c main_v12

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The blocks are the tiles -/

/-- Window 0's block index along the rows is the row tile, window 1's the column tile; both are 0 along the columns. -/
theorem idx0_0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx0_1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)

theorem iblk0_eq (c : Dev nD) (t : Fin cfg0.N) : iblk V c 0 t = KerSpec.blk (AM V c) (t.val / 16) := by
  funext y
  unfold iblk KerSpec.blk
  rw [View.read_apply]
  show V c main_v12 (((cfg0.win 0).blk t).view.emb y) = V c main_v12 _
  refine congrArg _ (funext fun a => Fin.ext ?_)
  have hN : t.val < 256 := lt_of_lt_of_eq t.isLt N_0
  have hy0 : (y 0).val < 512 := (y 0).isLt
  have hy1 : (y 1).val < 128 := (y 1).isLt
  obtain ⟨h0, h1⟩ := idx0_0 t
  match a with
  | ⟨0, _⟩ =>
    show win0_0.index t (0 : Fin 2) * 512 + 1 * (y 0).val = (t.val / 16 * 512 + (y 0).val) % 8192
    rw [h0]; omega
  | ⟨1, _⟩ =>
    show win0_0.index t (1 : Fin 2) * 128 + 1 * (y 1).val = (y 1).val
    rw [h1]; omega

theorem iblk1_eq (c : Dev nD) (t : Fin cfg0.N) : iblk V c 1 t = KerSpec.blk (AM V c) (t.val % 16) := by
  funext y
  unfold iblk KerSpec.blk
  rw [View.read_apply]
  show V c main_v12 (((cfg0.win 1).blk t).view.emb y) = V c main_v12 _
  refine congrArg _ (funext fun a => Fin.ext ?_)
  have hN : t.val < 256 := lt_of_lt_of_eq t.isLt N_0
  have hy0 : (y 0).val < 512 := (y 0).isLt
  have hy1 : (y 1).val < 128 := (y 1).isLt
  obtain ⟨h0, h1⟩ := idx0_1 t
  match a with
  | ⟨0, _⟩ =>
    show win0_1.index t (0 : Fin 2) * 512 + 1 * (y 0).val = (t.val % 16 * 512 + (y 0).val) % 8192
    rw [h0]; omega
  | ⟨1, _⟩ =>
    show win0_1.index t (1 : Fin 2) * 128 + 1 * (y 1).val = (y 1).val
    rw [h1]; omega

/-- The grid coordinates of point `t` as KerSpec spells them. -/
theorem coordsN_eq (t : Fin cfg0.N) : KerSpec.coordsN t.val = grid0.coords t := by
  unfold KerSpec.coordsN
  exact congrArg grid0.coords (Fin.ext (Nat.mod_eq_of_lt t.isLt))

/-- One step of each accumulator at point `n`, from what the point before left (zero when the column tile is 0). -/
theorem accTot_step (A : Vec F S8192x128 .bf16) (n : ℕ) :
    KerSpec.accTot A n = KerSpec.stepTot (KerSpec.blk A (n / 16)) (KerSpec.blk A (n % 16)) (if n % 16 = 0 then KerSpec.zeroTot else KerSpec.accTot A (n - 1)) := by
  cases n with
  | zero => rfl
  | succ n => rfl
theorem accPos_step (A : Vec F S8192x128 .bf16) (n : ℕ) :
    KerSpec.accPos A n = KerSpec.stepPos (KerSpec.coordsN n) (KerSpec.blk A (n / 16)) (KerSpec.blk A (n % 16)) (if n % 16 = 0 then KerSpec.zeroPos else KerSpec.accPos A (n - 1)) := by
  cases n with
  | zero => rfl
  | succ n => rfl

/-! ## The invariant and the proof data -/

/-- The invariant before position `n`: the two scratch buffers at anything before the first point, afterwards at
    what the point before left; the generator register at some state. -/
def PhiS (c : Dev nD) : ℕ → sProp 𝕄
  | 0 => iprop((∃ d, owns (c : Thread nD τ) scM0_0 fullShare d) ∗ (∃ d, owns (c : Thread nD τ) scM0_1 fullShare d) ∗ (∃ r, prngReg c r))
  | n + 1 => iprop(owns (c : Thread nD τ) scM0_0 fullShare (KerSpec.accTot (AM V c) n) ∗ owns (c : Thread nD τ) scM0_1 fullShare (KerSpec.accPos (AM V c) n) ∗ (∃ r, prngReg c r))

theorem PhiS_succ (c : Dev nD) (n : ℕ) :
    PhiS V c (n + 1) = iprop(owns (c : Thread nD τ) scM0_0 fullShare (KerSpec.accTot (AM V c) n) ∗ owns (c : Thread nD τ) scM0_1 fullShare (KerSpec.accPos (AM V c) n) ∗ (∃ r, prngReg c r)) := rfl

theorem PhiS_pos (c : Dev nD) (n : ℕ) (hz : n ≠ 0) :
    PhiS V c n = iprop(owns (c : Thread nD τ) scM0_0 fullShare (KerSpec.accTot (AM V c) (n - 1)) ∗ owns (c : Thread nD τ) scM0_1 fullShare (KerSpec.accPos (AM V c) (n - 1)) ∗ (∃ r, prngReg c r)) := by
  cases n with
  | zero => exact absurd rfl hz
  | succ n => rfl

/-- Whatever the position, the scratch buffers are held at some contents. -/
theorem PhiS_some (c : Dev nD) (n : ℕ) :
    PhiS V c n ⊢ iprop((∃ d, owns (c : Thread nD τ) scM0_0 fullShare d) ∗ (∃ d, owns (c : Thread nD τ) scM0_1 fullShare d) ∗ (∃ r, prngReg c r)) := by
  cases n with
  | zero => exact .rfl
  | succ n =>
    show iprop(owns (c : Thread nD τ) scM0_0 fullShare _ ∗ owns (c : Thread nD τ) scM0_1 fullShare _ ∗ (∃ r, prngReg c r)) ⊢ _
    iintro ⟨H0, H1, Hg⟩
    isplitl [H0]; · iexists _; iexact H0
    isplitl [H1]; · iexists _; iexact H1
    iexact Hg

/-- The proof data: the arrays as the region finds them; after point `t` the input windows' buffers at their blocks,
    the result windows' at the accumulators; the one input array held half and half by the two input windows. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => KerSpec.accTot (AM V c) t.val
    | ⟨3, _⟩ => KerSpec.accPos (AM V c) t.val
  Φ t := PhiS V c t.val
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by dsimp only [dat]
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = KerSpec.accTot (AM V c) t.val := by dsimp only [dat]
theorem after0_3 (c : Dev nD) (t : Fin cfg0.N) : (dat V c).after 3 t = KerSpec.accPos (AM V c) t.val := by dsimp only [dat]
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

theorem leaves0 (c : Dev nD) (t : Fin cfg0.N) : (dat V c).leavesExact 0 t = owns (c : Thread nD τ) (ms0_0 t) fullShare (iblk V c 0 t) := by
  unfold Dat.leavesExact; rw [liveAt0_0 t, after0_0]
theorem leaves1 (c : Dev nD) (t : Fin cfg0.N) : (dat V c).leavesExact 1 t = owns (c : Thread nD τ) (ms0_1 t) fullShare (iblk V c 1 t) := by
  unfold Dat.leavesExact; rw [liveAt0_1 t, after0_1]

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).owesAt () t.succ = (dat V c).owesAt () t.castSucc from rfl]
  rw [show (dat V c).Φ t.succ = PhiS V c (t.val + 1) from rfl, show (dat V c).Φ t.castSucc = PhiS V c t.val from rfl]
  rw [leaves0, leaves1, PhiS_succ]
  have hN : t.val < 256 := lt_of_lt_of_eq t.isLt (show cfg0.N = 256 from N_0)
  have hT := accTot_step (AM V c) t.val
  have hP := accPos_step (AM V c) t.val
  rw [← iblk0_eq V c t, ← iblk1_eq V c t] at hT hP
  rw [coordsN_eq t] at hP
  by_cases h0 : t.val % 16 = 0
  · have h1 : ¬t.val % 16 = 15 := by omega
    have hc0 := (hcond0_0 t).mpr h0
    have hc1 : ¬cond0_1 (grid0.coords t) := fun h => h1 ((hcond0_1 t).mp h)
    rw [Dat.leavesExact_idle (dat V c) 2 t (idleAt0_2 t hc1) (noFlush0_2 t hc1), Dat.leavesExact_idle (dat V c) 3 t (idleAt0_3 t hc1) (noFlush0_3 t hc1)]
    rw [if_pos h0] at hT hP
    show iprop(PhiS V c t.val ∗ _) ⊢ _
    refine (sep_mono (PhiS_some V c t.val) .rfl).trans ?_
    iintro ⟨⟨HS0, HS1, Hg⟩, Ho, ⟨%d0, H0⟩, ⟨%d1, H1⟩, ⟨%d2, H2⟩, ⟨%d3, H3⟩⟩
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk V c 0 t) (iblk V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%e0, HS0⟩, ⟨%e1, HS1⟩⟩
    isplitl [HS0 HS1 Hg]
    · isplitl [HS0]
      · unfold owns; iexists _; isplitr
        swap; · iexact HS0
        ipureintro
        exact (View.read_writes_of_cover _ _ _ _ _ (scoverA0 c _ _ _ _ _ _ _ _ _ _ _ _ _ _ _ _ _)).trans ((sA0_eq c _ _ _ _ _ _ _ _ _ _ _ _ _ hc0 hc1 _ _).trans hT.symm)
      isplitl [HS1]
      · unfold owns; iexists _; isplitr
        swap; · iexact HS1
        ipureintro
        exact (View.read_writes_of_cover _ _ _ _ _ (scoverA1 c _ _ _ _ _ _ _ _ _ _ _ _ _ _ _ _ _)).trans ((sA1_eq c _ _ _ _ _ _ _ _ _ _ _ _ _ hc0 hc1 _ _).trans hP.symm)
      iexact Hg
    isplitl [Ho]; · iexact Ho
    isplitl [H0]; · iexact H0
    isplitl [H1]; · iexact H1
    isplitl [H2]; · iexists _; iexact H2
    iexists _; iexact H3
  · have hz : t.val ≠ 0 := fun e => h0 (by rw [e])
    have hc0 : ¬cond0_0 (grid0.coords t) := fun h => h0 ((hcond0_0 t).mp h)
    rw [if_neg h0] at hT hP
    rw [PhiS_pos V c t.val hz]
    by_cases h1 : t.val % 16 = 15
    · have hc1 := (hcond0_1 t).mpr h1
      rw [show (dat V c).leavesExact 2 t = owns (c : Thread nD τ) (ms0_2 t) fullShare ((dat V c).after 2 t) from by
        unfold Dat.leavesExact; rw [liveAt0_2 t hc1], after0_2]
      rw [show (dat V c).leavesExact 3 t = owns (c : Thread nD τ) (ms0_3 t) fullShare ((dat V c).after 3 t) from by
        unfold Dat.leavesExact; rw [liveAt0_3 t hc1], after0_3]
      iintro ⟨⟨HS0, HS1, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk V c 0 t) (iblk V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%e0, HS0⟩, ⟨%e1, HS1⟩⟩
      isplitl [HS0 HS1 Hg]
      · isplitl [HS0]
        · unfold owns; iexists _; isplitr
          swap; · iexact HS0
          ipureintro
          exact (View.read_writes_of_cover _ _ _ _ _ (scoverC0 c _ _ _ _ _ _ _ _ _ _ _ _ _ _ _ _ _ _ _)).trans ((sC0_eq c _ _ _ _ _ _ _ _ _ _ _ _ _ hc0 hc1 _ _ _ _).trans hT.symm)
        isplitl [HS1]
        · unfold owns; iexists _; isplitr
          swap; · iexact HS1
          ipureintro
          exact (View.read_writes_of_cover _ _ _ _ _ (scoverC1 c _ _ _ _ _ _ _ _ _ _ _ _ _ _ _ _ _ _ _)).trans ((sC1_eq c _ _ _ _ _ _ _ _ _ _ _ _ _ hc0 hc1 _ _ _ _).trans hP.symm)
        iexact Hg
      isplitl [Ho]; · iexact Ho
      isplitl [H0]; · iexact H0
      isplitl [H1]; · iexact H1
      isplitl [H2]
      · unfold owns; iexists _; isplitr
        swap; · iexact H2
        ipureintro
        exact (View.read_writes_of_cover _ _ _ _ _ (coverC2 c _ _ _ _ _ _ _ _ _ _ _ _ _ _ _ _ _ _ _)).trans ((oC2_eq c _ _ _ _ _ _ _ _ _ _ _ _ _ hc0 hc1 _ _ _ _).trans hT.symm)
      unfold owns; iexists _; isplitr
      swap; · iexact H3
      ipureintro
      exact (View.read_writes_of_cover _ _ _ _ _ (coverC3 c _ _ _ _ _ _ _ _ _ _ _ _ _ _ _ _ _ _ _)).trans ((oC3_eq c _ _ _ _ _ _ _ _ _ _ _ _ _ hc0 hc1 _ _ _ _).trans hP.symm)
    · have hc1 : ¬cond0_1 (grid0.coords t) := fun h => h1 ((hcond0_1 t).mp h)
      rw [Dat.leavesExact_idle (dat V c) 2 t (idleAt0_2 t hc1) (noFlush0_2 t hc1), Dat.leavesExact_idle (dat V c) 3 t (idleAt0_3 t hc1) (noFlush0_3 t hc1)]
      iintro ⟨⟨HS0, HS1, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk V c 0 t) (iblk V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%e0, HS0⟩, ⟨%e1, HS1⟩⟩
      isplitl [HS0 HS1 Hg]
      · isplitl [HS0]
        · unfold owns; iexists _; isplitr
          swap; · iexact HS0
          ipureintro
          exact (View.read_writes_of_cover _ _ _ _ _ (scoverB0 c _ _ _ _ _ _ _ _ _ _ _ _ _ _ _ _ _ _ _)).trans ((sB0_eq c _ _ _ _ _ _ _ _ _ _ _ _ _ hc0 hc1 _ _ _ _).trans hT.symm)
        isplitl [HS1]
        · unfold owns; iexists _; isplitr
          swap; · iexact HS1
          ipureintro
          exact (View.read_writes_of_cover _ _ _ _ _ (scoverB1 c _ _ _ _ _ _ _ _ _ _ _ _ _ _ _ _ _ _ _)).trans ((sB1_eq c _ _ _ _ _ _ _ _ _ _ _ _ _ hc0 hc1 _ _ _ _).trans hP.symm)
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.KF

end
-- ==== Proof.Kernel.Arrays.lean ====
/-
  The kernel region's arrays against the device's held buffers. Both input windows read the one array holding the
  feature matrix, each at half of the full share; the two result windows have an array each, at the full share.
  The three buffers behind the four windows, held whole at the full share, are therefore the region's arrays: the
  feature matrix's points-to splits along the share into the two windows' halves, and the halves join back.
-/
import proofs.«161518_j12833362280505_1_alg».proof.Proof.Kernel.Body

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The buffer both input windows read. -/
abbrev r12 : DevRef τ sig := Proc.devRef .tc main_v12
/-- The first result window's buffer. -/
abbrev r130 : DevRef τ sig := Proc.devRef .tc main_v13_0
/-- The second result window's buffer. -/
abbrev r131 : DevRef τ sig := Proc.devRef .tc main_v13_1
/-- The three buffers behind the four windows. -/
abbrev T3 : Finset (DevRef τ sig) := ([r12, r130, r131] : List (DevRef τ sig)).toFinset

/-- Each of the three is an unscoped buffer of the TensorCore. -/
theorem T3_sub : T3 ⊆ Pipeline.ucRefs τ sig := by
  intro b hb
  have hb' : b = r12 ∨ b = r130 ∨ b = r131 := by simpa [T3] using hb
  rcases hb' with rfl | rfl | rfl
  · exact Finset.mem_filter.mpr ⟨StableHlo.devRef_mem_tcRefs _, by decide⟩
  · exact Finset.mem_filter.mpr ⟨StableHlo.devRef_mem_tcRefs _, by decide⟩
  · exact Finset.mem_filter.mpr ⟨StableHlo.devRef_mem_tcRefs _, by decide⟩

/-- The three buffers conjoined one by one. -/
theorem bigSep_T3 {M : Type} [URA M] (Φ : DevRef τ sig → sProp M) : bigSep T3 Φ = iprop(Φ r12 ∗ Φ r130 ∗ Φ r131) :=
  bigSep_eq_bigSepL [r12, r130, r131] (by decide) Φ

/-- A window's conjunct of the region's arrays is a plain points-to of the whole buffer behind it. -/
theorem win_pointsTo (c : Dev nD) (w : Fin cfg0.W) (q : PosShare TreeShare)
    (X : Buf (Elt F) ((cfg0.win w).arr.view.loc (c.tc : Thread nD τ))) :
    ((cfg0.win w).arr.view.loc (c.tc : Thread nD τ) ↦[(cfg0.win w).arr.view.set]{q} X : sProp 𝕄)
      = ((c.tc : Thread nD τ).loc (Pipeline.arrRef spec0 w) ↦{q} X) := by
  rw [(arr_whole0 w).set_eq_univ]

/-- The shares: the two input windows hold the halves of the full share, the result windows the full share. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl

section
variable (c : Dev nD) (W : Valuation τ sig (Elt F))
  (Fn : (w : Fin cfg0.W) → Buf (Elt F) ((cfg0.win w).arr.view.loc (c.tc : Thread nD τ)))
  (h0 : Fn 0 = W r12) (h1 : Fn 1 = W r12) (h2 : Fn 2 = W r130) (h3 : Fn 3 = W r131)

include h0 in
theorem conj_0 : ((cfg0.win 0).arr.view.loc (c.tc : Thread nD τ) ↦[(cfg0.win 0).arr.view.set]{(dat V c).share 0} Fn 0 : sProp 𝕄)
    = (((c.tc : Thread nD τ).1, r12) ↦{fullShare.left} W r12) := by
  rw [win_pointsTo, share_0, h0]

include h1 in
theorem conj_1 : ((cfg0.win 1).arr.view.loc (c.tc : Thread nD τ) ↦[(cfg0.win 1).arr.view.set]{(dat V c).share 1} Fn 1 : sProp 𝕄)
    = (((c.tc : Thread nD τ).1, r12) ↦{fullShare.right} W r12) := by
  rw [win_pointsTo, share_1, h1]

include h2 in
theorem conj_2 : ((cfg0.win 2).arr.view.loc (c.tc : Thread nD τ) ↦[(cfg0.win 2).arr.view.set]{(dat V c).share 2} Fn 2 : sProp 𝕄)
    = (((c.tc : Thread nD τ).1, r130) ↦{fullShare} W r130) := by
  rw [win_pointsTo, share_2, h2]

include h3 in
theorem conj_3 : ((cfg0.win 3).arr.view.loc (c.tc : Thread nD τ) ↦[(cfg0.win 3).arr.view.set]{(dat V c).share 3} Fn 3 : sProp 𝕄)
    = (((c.tc : Thread nD τ).1, r131) ↦{fullShare} W r131) := by
  rw [win_pointsTo, share_3, h3]

include h0 h1 h2 h3 in
/-- The three buffers held whole are the region's arrays: the feature matrix's full share splits into the two input
    windows' halves. -/
theorem arrays_of_held : (StableHlo.held (c.tc : Thread nD τ) T3 W : sProp 𝕄) ⊢ (dat V c).arrays Fn := by
  unfold StableHlo.held Dat.arrays
  rw [bigSep_T3, bigSep_W0]
  show iprop((((c.tc : Thread nD τ).1, r12) ↦{fullShare} W r12) ∗ (((c.tc : Thread nD τ).1, r130) ↦{fullShare} W r130)
    ∗ (((c.tc : Thread nD τ).1, r131) ↦{fullShare} W r131)) ⊢ iprop(((cfg0.win 0).arr.view.loc (c.tc : Thread nD τ) ↦[(cfg0.win 0).arr.view.set]{(dat V c).share 0} Fn 0)
    ∗ ((cfg0.win 1).arr.view.loc (c.tc : Thread nD τ) ↦[(cfg0.win 1).arr.view.set]{(dat V c).share 1} Fn 1)
    ∗ ((cfg0.win 2).arr.view.loc (c.tc : Thread nD τ) ↦[(cfg0.win 2).arr.view.set]{(dat V c).share 2} Fn 2)
    ∗ ((cfg0.win 3).arr.view.loc (c.tc : Thread nD τ) ↦[(cfg0.win 3).arr.view.set]{(dat V c).share 3} Fn 3))
  rw [conj_0 V c W Fn h0, conj_1 V c W Fn h1, conj_2 V c W Fn h2, conj_3 V c W Fn h3]
  iintro ⟨H12, H130, H131⟩
  ihave H := (pointsTo_share (PosShare.mem_left_op_right fullShare)).1 $$ H12
  icases H with ⟨Hl, Hr⟩
  isplitl [Hl]; · iexact Hl
  isplitl [Hr]; · iexact Hr
  isplitl [H130]; · iexact H130
  iexact H131

include h0 h1 h2 h3 in
/-- The region's arrays are the three buffers held whole: the two input windows' halves join into the feature
    matrix's full share. -/
theorem held_of_arrays : ((dat V c).arrays Fn : sProp 𝕄) ⊢ StableHlo.held (c.tc : Thread nD τ) T3 W := by
  unfold StableHlo.held Dat.arrays
  rw [bigSep_T3, bigSep_W0]
  show iprop(((cfg0.win 0).arr.view.loc (c.tc : Thread nD τ) ↦[(cfg0.win 0).arr.view.set]{(dat V c).share 0} Fn 0)
    ∗ ((cfg0.win 1).arr.view.loc (c.tc : Thread nD τ) ↦[(cfg0.win 1).arr.view.set]{(dat V c).share 1} Fn 1)
    ∗ ((cfg0.win 2).arr.view.loc (c.tc : Thread nD τ) ↦[(cfg0.win 2).arr.view.set]{(dat V c).share 2} Fn 2)
    ∗ ((cfg0.win 3).arr.view.loc (c.tc : Thread nD τ) ↦[(cfg0.win 3).arr.view.set]{(dat V c).share 3} Fn 3)) ⊢ iprop((((c.tc : Thread nD τ).1, r12) ↦{fullShare} W r12) ∗ (((c.tc : Thread nD τ).1, r130) ↦{fullShare} W r130)
    ∗ (((c.tc : Thread nD τ).1, r131) ↦{fullShare} W r131))
  rw [conj_0 V c W Fn h0, conj_1 V c W Fn h1, conj_2 V c W Fn h2, conj_3 V c W Fn h3]
  iintro ⟨Hl, Hr, H130, H131⟩
  isplitl [Hl Hr]
  · iapply (pointsTo_share (PosShare.mem_left_op_right fullShare)).2
    isplitl [Hl]; · iexact Hl
    iexact Hr
  isplitl [H130]; · iexact H130
  iexact H131

end

end Cert.Kernel.KF

end
-- ==== Proof.Kernel.Region.lean ====
/-
  The kernel program's run. @main is four stretches of host operations, the kernel region, and a last stretch of
  host operations. Between two items the core holds every unscoped buffer whole, at contents that follow @main: the
  launch memory, then each stretch's operations applied, and across the region the two result arrays replaced by
  what the write-backs leave. The region is entered by taking its three arrays out of those buffers — the one input
  array split into the two halves the two input windows hold — and left by putting them back.
-/
import proofs.«161518_j12833362280505_1_alg».proof.Proof.Kernel.Arrays
import Idealize.ShloMosaic.Lib.Pipeline.Regions
import Idealize.ShloMosaic.Lib.Pipeline.RegionsLoop

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The contents the region is entered at, read at the TensorCore's references. -/
abbrev V4 : (c : Dev nD) → (b : Ref sig .tc) → Buf (Elt F) ((c : Thread nD τ).loc b) := fun c b => W4 m ρ c b
/-- At the region's exit: the two result arrays at what the write-backs leave, every other buffer as entered. -/
def W5 (c : Dev nD) : Valuation τ sig (Elt F) :=
  Function.update (Function.update (W4 m ρ c) r130 ((dat (V4 m ρ) c).arrAt 2 cfg0.N)) r131 ((dat (V4 m ρ) c).arrAt 3 cfg0.N)
abbrev W6 : Dev nD → Valuation τ sig (Elt F) := fun c => StableHlo.after hostOps1 (W5 m ρ c)

theorem r130_ne_r131 : (r130 : DevRef τ sig) ≠ r131 := by decide
theorem r12_ne_r130 : (r12 : DevRef τ sig) ≠ r130 := by decide
theorem r12_ne_r131 : (r12 : DevRef τ sig) ≠ r131 := by decide

theorem W5_r131 (c : Dev nD) : W5 m ρ c r131 = (dat (V4 m ρ) c).arrAt 3 cfg0.N := by
  unfold W5; exact Function.update_self ..
theorem W5_r130 (c : Dev nD) : W5 m ρ c r130 = (dat (V4 m ρ) c).arrAt 2 cfg0.N := by
  unfold W5; rw [Function.update_of_ne r130_ne_r131]; exact Function.update_self ..
theorem W5_of_ne (c : Dev nD) (b : DevRef τ sig) (h0 : b ≠ r130) (h1 : b ≠ r131) : W5 m ρ c b = W4 m ρ c b := by
  unfold W5; rw [Function.update_of_ne h1, Function.update_of_ne h0]

/-- The input array is not written by the region. -/
theorem arrAt0 (c : Dev nD) : (dat (V4 m ρ) c).arrAt 0 cfg0.N = W5 m ρ c r12 :=
  ((dat (V4 m ρ) c).arrAt_in 0 rfl _).trans ((A_eq (V4 m ρ) c 0).trans (W5_of_ne m ρ c r12 r12_ne_r130 r12_ne_r131).symm)
theorem arrAt1 (c : Dev nD) : (dat (V4 m ρ) c).arrAt 1 cfg0.N = W5 m ρ c r12 :=
  ((dat (V4 m ρ) c).arrAt_in 1 rfl _).trans ((A_eq (V4 m ρ) c 1).trans (W5_of_ne m ρ c r12 r12_ne_r130 r12_ne_r131).symm)

/-! ## Entering and leaving the region -/

theorem entry_split (c : Dev nD) :
    (StableHlo.held (c : Thread nD τ) (Pipeline.ucRefs τ sig) (W4 m ρ c) : sProp 𝕄)
      ⊢ iprop((dat (V4 m ρ) c).arrays ((dat (V4 m ρ) c).arrAt · 0) ∗ StableHlo.held (c : Thread nD τ) (Pipeline.ucRefs τ sig \ T3) (W4 m ρ c)) := by
  rw [StableHlo.held_sub_split (c : Thread nD τ) T3_sub (W4 m ρ c)]
  exact sep_mono (arrays_of_held (V4 m ρ) c (W4 m ρ c) _ rfl rfl rfl rfl) .rfl

theorem exit_join (c : Dev nD) :
    (iprop((dat (V4 m ρ) c).arrays ((dat (V4 m ρ) c).arrAt · cfg0.N) ∗ StableHlo.held (c : Thread nD τ) (Pipeline.ucRefs τ sig \ T3) (W4 m ρ c)) : sProp 𝕄)
      ⊢ StableHlo.held (c : Thread nD τ) (Pipeline.ucRefs τ sig) (W5 m ρ c) := by
  rw [StableHlo.held_sub_split (c : Thread nD τ) T3_sub (W5 m ρ c)]
  refine sep_mono (held_of_arrays (V4 m ρ) c (W5 m ρ c) _ (arrAt0 m ρ c) (arrAt1 m ρ c) (W5_r130 m ρ c).symm (W5_r131 m ρ c).symm) (Entails.of_eq ?_)
  refine StableHlo.held_congr (c : Thread nD τ) fun b hb => ?_
  have hb' := (Finset.mem_sdiff.mp hb).2
  refine (W5_of_ne m ρ c b (fun e => hb' ?_) (fun e => hb' ?_)).symm
  · rw [e]; decide
  · rw [e]; decide

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem scoped_eq (c : Dev nD) :
    (Pipeline.scopedRest spec0 c : sProp 𝕄) = iprop((∃ d, owns (c : Thread nD τ) scM0_0 fullShare d) ∗ (∃ d, owns (c : Thread nD τ) scM0_1 fullShare d)) := by
  rw [scopedRest0_eq]; simp only [scM0_0, scM0_1, owns_whole]; try rfl

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := StableHlo.held (c : Thread nD τ) (Pipeline.ucRefs τ sig \ T3) (W4 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = iprop((∃ d, owns (c : Thread nD τ) scM0_0 fullShare d) ∗ (∃ d, owns (c : Thread nD τ) scM0_1 fullShare d) ∗ (∃ r, prngReg c r)) from rfl, scoped_eq]
    iintro ⟨Hp, -, ⟨H0, H1⟩⟩
    isplitl [H0]; · iexact H0
    isplitl [H1]; · iexact H1
    iexact Hp
  hout c := by
    rw [Pipeline.ownSems0_none, show (pdats m ρ 0 c).Φ (Fin.last _) = PhiS (V4 m ρ) c (Fin.last cfg0.N).val from rfl, scoped_eq]
    refine (PhiS_some (V4 m ρ) c _).trans ?_
    iintro ⟨H0, H1, Hp⟩
    isplitl [Hp]; · iexact Hp
    isplitr; · iempintro
    isplitl [H0]; · iexact H0
    iexact H1
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)) ]

theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

/-- The last item's thread state, regrouped: the buffers and the generator register beside the core owing nothing. -/
theorem last_chain (c : Dev nD) :
    (iprop(StableHlo.held (c : Thread nD τ) (Pipeline.ucRefs τ sig) (W6 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- Every weakly fair execution of @main from a memory with zero counters terminates, nothing faulting, and every
    final memory holds each unscoped buffer at the last contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Kernel.KF

end
-- ==== Proof.Kernel.KerTerm.lean ====
/-
  The kernel program's host operations as named terms: each definition applies exactly the printed
  operations, in the printed order, to its arguments. Rows of the two inputs are divided by their Euclidean
  norm (bounded below), the two normalised arrays are stacked, flattened to an 8192 x 128 matrix and rounded
  to bf16; after the kernel region its two result columns are reshaped to 128 x 64, the matching-pair term
  exp (fk . fs) is added, and the mean of -log (positives / total) is taken.
-/
import proofs.«161518_j12833362280505_1_alg».proof.Proof.Kernel.KerSpec

noncomputable section

namespace Cert.Kernel.KerTerm

open Idealize.ShloMosaic Cert.Kernel Cert.Kernel.Gen

variable {F : FTy → Type} [FloatOps F]

/-- A row divided by `max (sqrt (sum of squares)) 1e-12`: the value of %4 as a function of %arg0
    (and of %9 as a function of %arg1). -/
def nrm (x : FVec F S64x64x128 .f32) : FVec F S64x64x128 .f32 :=
  Host.divf x
    (broadcastInDim S64x64x128 ![0, 1, 2] bcast_S64x64x1_S64x64x128_0_1_2
      (maximumf
        (Host.sqrt
          (broadcastInDim S64x64x1 ![0, 1] bcast_S64x64_S64x64x1_0_1
            (Host.reduceAdd (mulf x x) (constant S_ .f32 0x00000000#32) reducesTo_S64x64x128_S64x64_d2 h_S_)))
        (broadcastInDim S64x64x1 ![] bcast_S_S64x64x1 (constant S_ .f32 0x2B8CBCCC#32))))

/-- The two arrays stacked along axis 0: %10. -/
def cat (a b : FVec F S64x64x128 .f32) : FVec F S128x64x128 .f32 :=
  concatenate S128x64x128 0 [⟨S64x64x128, a⟩, ⟨S64x64x128, b⟩] concatenates_S64x64x128_S64x64x128_S128x64x128_d0

/-- The stacked array as an 8192 x 128 matrix of bf16: %12. -/
def flat (f : FVec F S128x64x128 .f32) : Vec F S8192x128 .bf16 :=
  truncf .bf16 (shapeCast S8192x128 f shapeCasts_S128x64x128_S8192x128) bitsLt_bf16_f32

/-- exp of the dot product of matching rows, stacked with itself: %19. -/
def pos2 (fk fs : FVec F S64x64x128 .f32) : FVec F S128x64 .f32 :=
  concatenate S128x64 0
    [⟨S64x64, Host.exp (Host.reduceAdd (mulf fk fs) (constant S_ .f32 0x00000000#32) reducesTo_S64x64x128_S64x64_d2 h_S_)⟩,
     ⟨S64x64, Host.exp (Host.reduceAdd (mulf fk fs) (constant S_ .f32 0x00000000#32) reducesTo_S64x64x128_S64x64_d2 h_S_)⟩]
    concatenates_S64x64_S64x64_S128x64_d0

/-- From the region's two result columns and the matching-pair term to the loss: %14, %15, %20 … %25. -/
def tail (o0 o1 : Vec F S8192x1 .f32) (p2 : FVec F S128x64 .f32) : FVec F S_ .f32 :=
  Host.divf
    (Host.reduceAdd
      (Host.negf (Host.log (Host.divf
        (addf (shapeCast S128x64 o1 shapeCasts_S8192x1_S128x64) p2)
        (shapeCast S128x64 o0 shapeCasts_S8192x1_S128x64))))
      (constant S_ .f32 0x00000000#32) reducesTo_S128x64_S_d0_1 h_S_)
    (constant S_ .f32 0x46000000#32)

/-- The program's result as a function of its two arguments. -/
def out (a0 a1 : FVec F S64x64x128 .f32) : FVec F S_ .f32 :=
  let fk := nrm a0
  let fs := nrm a1
  let A := flat (cat fk fs)
  tail (KerSpec.out0 A) (KerSpec.out1 A) (pos2 fk fs)

end Cert.Kernel.KerTerm

end
-- ==== Proof.Kernel.HostVals.lean ====
/-
  What the program's host operations leave in the buffers, as the named terms: before the kernel region the two
  normalised inputs and the flattened bf16 matrix, after it the loss from the region's two result columns. No host
  operation writes an argument buffer.
-/
import proofs.«161518_j12833362280505_1_alg».proof.Proof.Kernel.KerTerm
import proofs.«161518_j12833362280505_1_alg».proof.Proof.Gen.Kernel.Launch

noncomputable section

namespace Cert.Kernel.KF

open Idealize.ShloMosaic Idealize.ShloMosaic.TcCoe Cert.Kernel Cert.Kernel.Gen

variable {F : FTy → Type} [FloatOps F]

/-- The buffers' contents after the four stretches of host operations that precede the kernel region. -/
abbrev pre4 (W : Valuation τ sig (Elt F)) : Valuation τ sig (Elt F) :=
  StableHlo.after hostOps0_3 (StableHlo.after hostOps0_2 (StableHlo.after hostOps0_1 (StableHlo.after hostOps0 W)))

theorem pre4_v4 (W : Valuation τ sig (Elt F)) :
    (pre4 W (Proc.devRef .tc main_v4) : FVec F S64x64x128 .f32) = KerTerm.nrm (W (Proc.devRef .tc main_arg0)) := by
  simp only [pre4, hostOps0, hostOps0_1, hostOps0_2, hostOps0_3]
  after_results <;> rfl

theorem pre4_v9 (W : Valuation τ sig (Elt F)) :
    (pre4 W (Proc.devRef .tc main_v9) : FVec F S64x64x128 .f32) = KerTerm.nrm (W (Proc.devRef .tc main_arg1)) := by
  simp only [pre4, hostOps0, hostOps0_1, hostOps0_2, hostOps0_3]
  after_results <;> rfl

theorem pre4_v12 (W : Valuation τ sig (Elt F)) :
    (pre4 W (Proc.devRef .tc main_v12) : Vec F S8192x128 .bf16)
      = KerTerm.flat (KerTerm.cat (KerTerm.nrm (W (Proc.devRef .tc main_arg0))) (KerTerm.nrm (W (Proc.devRef .tc main_arg1)))) := by
  simp only [pre4, hostOps0, hostOps0_1, hostOps0_2, hostOps0_3]
  after_results <;> rfl

theorem pre4_arg0 (W : Valuation τ sig (Elt F)) :
    pre4 W (Proc.devRef .tc main_arg0) = W (Proc.devRef .tc main_arg0) := by
  simp only [pre4, hostOps0, hostOps0_1, hostOps0_2, hostOps0_3]
  after_results <;> rfl

theorem pre4_arg1 (W : Valuation τ sig (Elt F)) :
    pre4 W (Proc.devRef .tc main_arg1) = W (Proc.devRef .tc main_arg1) := by
  simp only [pre4, hostOps0, hostOps0_1, hostOps0_2, hostOps0_3]
  after_results <;> rfl

theorem tail_v25 (W : Valuation τ sig (Elt F)) :
    (StableHlo.after hostOps1 W (Proc.devRef .tc main_v25) : FVec F S_ .f32)
      = KerTerm.tail (W (Proc.devRef .tc main_v13_0)) (W (Proc.devRef .tc main_v13_1))
          (KerTerm.pos2 (W (Proc.devRef .tc main_v4)) (W (Proc.devRef .tc main_v9))) := by
  simp only [hostOps1]
  after_results <;> rfl

theorem tail_arg0 (W : Valuation τ sig (Elt F)) :
    StableHlo.after hostOps1 W (Proc.devRef .tc main_arg0) = W (Proc.devRef .tc main_arg0) := by
  simp only [hostOps1]
  after_results <;> rfl

theorem tail_arg1 (W : Valuation τ sig (Elt F)) :
    StableHlo.after hostOps1 W (Proc.devRef .tc main_arg1) = W (Proc.devRef .tc main_arg1) := by
  simp only [hostOps1]
  after_results <;> rfl

end Cert.Kernel.KF

end
-- ==== Proof.Kernel.Frame.lean ====
/-
  The frame of the kernel program: no stretch of host operations writes an argument array and the region changes
  only its two result arrays, so the last contents at each argument are the launch contents.
-/
import proofs.«161518_j12833362280505_1_alg».proof.Proof.Kernel.Region
import proofs.«161518_j12833362280505_1_alg».proof.Proof.Kernel.HostVals

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_eq (c : Dev nD) : W4 m ρ c = pre4 (W0 m ρ c) := rfl

theorem W6_arg0 (c : Dev nD) : W6 m ρ c (Proc.devRef .tc main_arg0) = m ((c : Thread nD τ).loc main_arg0) :=
  (tail_arg0 (W5 m ρ c)).trans ((W5_of_ne m ρ c _ (by decide) (by decide)).trans ((congrFun (W4_eq m ρ c) _).trans (pre4_arg0 (W0 m ρ c))))
theorem W6_arg1 (c : Dev nD) : W6 m ρ c (Proc.devRef .tc main_arg1) = m ((c : Thread nD τ).loc main_arg1) :=
  (tail_arg1 (W5 m ρ c)).trans ((W5_of_ne m ρ c _ (by decide) (by decide)).trans ((congrFun (W4_eq m ρ c) _).trans (pre4_arg1 (W0 m ρ c))))

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W6_arg0 m ρ c), (h c _ (mem_uc main_arg1 (by decide))).trans (W6_arg1 m ρ c)⟩) (run_main m ρ)

end Cert.Kernel.KF

end
-- ==== Proof.KerSpec.lean ====
/-
  What the kernel leaves in its two scratch accumulators, as functions of the flattened feature matrix,
  written over the body's arithmetic (the skeleton's payloads) and generic in the float instance.

  The grid is 16 × 16: point `n` has row tile `n / 16` and column tile `n % 16`; a tile is 512 rows of the
  8192 × 128 matrix `A`. At a point the body forms `exp (Q · Kᵀ)` for the row tile `Q` and the column tile `K`,
  adds each row's sum to the first accumulator and the sum of the entries whose row and column lie in the
  same 64-row group to the second; both accumulators restart from zero whenever the column tile is 0, and
  are copied out when it is 15.
-/
import proofs.«161518_j12833362280505_1_alg».proof.Proof.Gen.KernelIdeal.Skeleton
import Idealize.ShloMosaic.Lib.ValueIdx

noncomputable section

namespace Cert.KernelIdeal.KerSpec

open Idealize.ShloMosaic Idealize.ShloMosaic.ValueIdx Cert.KernelIdeal Cert.KernelIdeal.Gen

variable {F : FTy → Type} [FloatOps F]

/-- Tile `b` of the matrix: its rows `512 b … 512 b + 511`. -/
def blk (A : Vec F S8192x128 .bf16) (b : Nat) : Vec F S512x128 .bf16 :=
  fun y => A (ix2 (⟨(b * 512 + (y 0).val) % 8192, Nat.mod_lt _ (by decide)⟩ : Fin 8192) (⟨(y 1).val, idx2_lt1 y⟩ : Fin 128))

/-- The grid coordinates of point `n`. -/
def coordsN (n : Nat) : grid0.Coords := grid0.coords ⟨n % grid0.N, Nat.mod_lt _ (by decide)⟩

/-- The value both accumulators restart from. -/
def zeroTot : FVec F S512x1 .f32 := k0_pay2
def zeroPos : FVec F S512x1 .f32 := k0_pay3

/-- One point's update of the row-sum accumulator: `acc + rowsum (exp (q · kᵀ))`. -/
def stepTot (q k : Vec F S512x128 .bf16) (acc : Vec F S512x1 .f32) : FVec F S512x1 .f32 :=
  k0_pay7 (k0_pay4 q k) acc

/-- One point's update of the same-group accumulator at grid coordinates `i`:
    `acc + rowsum (where (row group = column group) (exp (q · kᵀ)) 0)`. -/
def stepPos (i : grid0.Coords) (q k : Vec F S512x128 .bf16) (acc : Vec F S512x1 .f32) : FVec F S512x1 .f32 :=
  k0_pay1 (k0_pay8 (k0_pay4 q k) (k0_pay5 i) (iota .tc S1x512 32 [1] iota_S1x512_d1_w32) (k0_pay6 i) acc)

/-- The row-sum accumulator after point `n`. -/
def accTot (A : Vec F S8192x128 .bf16) : Nat → FVec F S512x1 .f32
  | 0 => stepTot (blk A 0) (blk A 0) zeroTot
  | n + 1 => stepTot (blk A ((n + 1) / 16)) (blk A ((n + 1) % 16)) (if (n + 1) % 16 = 0 then zeroTot else accTot A n)

/-- The same-group accumulator after point `n`. -/
def accPos (A : Vec F S8192x128 .bf16) : Nat → FVec F S512x1 .f32
  | 0 => stepPos (coordsN 0) (blk A 0) (blk A 0) zeroPos
  | n + 1 => stepPos (coordsN (n + 1)) (blk A ((n + 1) / 16)) (blk A ((n + 1) % 16)) (if (n + 1) % 16 = 0 then zeroPos else accPos A n)

/-- The first result array: row `R` holds the row-sum accumulator of `R`'s tile after its last column tile. -/
def out0 (A : Vec F S8192x128 .bf16) : Vec F S8192x1 .f32 :=
  fun y => accTot A (((y 0).val / 512) * 16 + 15) (ix2 (⟨(y 0).val % 512, Nat.mod_lt _ (by decide)⟩ : Fin 512) (0 : Fin 1))

/-- The second result array, likewise from the same-group accumulator. -/
def out1 (A : Vec F S8192x128 .bf16) : Vec F S8192x1 .f32 :=
  fun y => accPos A (((y 0).val / 512) * 16 + 15) (ix2 (⟨(y 0).val % 512, Nat.mod_lt _ (by decide)⟩ : Fin 512) (0 : Fin 1))

end Cert.KernelIdeal.KerSpec

end
-- ==== Proof.KernelIdeal.Runs.lean ====
/-
  What the three cases of the kernel body share: the two branch conditions of the body as propositions over the grid
  coordinates and their closed forms over the 256 grid points (the column tile is the point modulo 16: the first
  branch is taken when it is 0, the second when it is 15), where the two result windows are idle, and names for
  the staging and scratch buffers.
-/
import proofs.«161518_j12833362280505_1_alg».proof.Proof.Gen.KernelIdeal.Launch
import proofs.«161518_j12833362280505_1_alg».proof.Proof.Gen.KernelIdeal.Skeleton
import proofs.«161518_j12833362280505_1_alg».proof.Proof.Gen.KernelIdeal.Points
import proofs.«161518_j12833362280505_1_alg».proof.Proof.KerSpec
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition: the column tile is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch's condition: the column tile is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The two result windows are idle, and not written back, exactly where the column tile is not 15. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-- Each window's current staging buffer at point `t`, as the pipeline passes it to the body, and its wholeness. -/
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
/-- The two scratch accumulators: whole scoped buffers of the kernel's own. -/
abbrev scM0_0 : Memref sig .tc .vmem S512x1 .f32 := Memref.whole cc0_scratch0
abbrev scM0_1 : Memref sig .tc .vmem S512x1 .f32 := Memref.whole cc0_scratch1

end Cert.KernelIdeal.KF

end
-- ==== Proof.KernelIdeal.RunA.lean ====
/-
  The kernel body run whole in the case where the column tile is 0: both accumulators are first reset to zero. On whole buffers — the two input blocks at their
  contents, the accumulators at anything, the result windows' buffers handed back untouched — the body
  runs to the continuation with the inputs as they were and each buffer it stored into at its stores, given as pieces
  (last store first); the pieces are found by the run itself.
-/
import proofs.«161518_j12833362280505_1_alg».proof.Proof.KernelIdeal.Runs

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 x1 : Vec F S512x128 .bf16) :
    Σ' (LS0 : List (View.Piece (Elt F) S512x1 .f32)), { LS1 : List (View.Piece (Elt F) S512x1 .f32) //
      ∀ (xi2 xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__sim_sum_kernel i arg2 harg2 arg3 harg3 arg4 harg4 arg5 harg5 arg6 harg6 arg7 harg7) K } := by
  refine ⟨?_, ?_, fun xi2 xi3 E K => ?run⟩
  case run =>
    simp only [cc0__sim_sum_kernel_eq_skeleton]; unfold cc0__sim_sum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.KF

end
-- ==== Proof.KernelIdeal.RunB.lean ====
/-
  The kernel body run whole in the case where the column tile is neither 0 nor 15. On whole buffers — the two input blocks at their
  contents, the accumulators at the contents the point before left, the result windows' buffers handed back untouched — the body
  runs to the continuation with the inputs as they were and each buffer it stored into at its stores, given as pieces
  (last store first); the pieces are found by the run itself.
-/
import proofs.«161518_j12833362280505_1_alg».proof.Proof.KernelIdeal.RunA

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 x1 : Vec F S512x128 .bf16) (xs0 xs1 : Vec F S512x1 .f32) :
    Σ' (LS0 : List (View.Piece (Elt F) S512x1 .f32)), { LS1 : List (View.Piece (Elt F) S512x1 .f32) //
      ∀ (xi2 xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__sim_sum_kernel i arg2 harg2 arg3 harg3 arg4 harg4 arg5 harg5 arg6 harg6 arg7 harg7) K } := by
  refine ⟨?_, ?_, fun xi2 xi3 E K => ?run⟩
  case run =>
    simp only [cc0__sim_sum_kernel_eq_skeleton]; unfold cc0__sim_sum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.KF

end
-- ==== Proof.KernelIdeal.RunC.lean ====
/-
  The kernel body run whole in the case where the column tile is 15: after the update both accumulators are copied into the result windows' buffers. On whole buffers — the two input blocks at their
  contents, the accumulators at the contents the point before left, the result windows' buffers at anything — the body
  runs to the continuation with the inputs as they were and each buffer it stored into at its stores, given as pieces
  (last store first); the pieces are found by the run itself.
-/
import proofs.«161518_j12833362280505_1_alg».proof.Proof.KernelIdeal.RunB

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 : Vec F S512x128 .bf16) (xs0 xs1 : Vec F S512x1 .f32) :
    Σ' (L2 : List (View.Piece (Elt F) S512x1 .f32)) (L3 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__sim_sum_kernel i arg2 harg2 arg3 harg3 arg4 harg4 arg5 harg5 arg6 harg6 arg7 harg7) K } := by
  refine ⟨?_, ?_, ?_, ?_, fun E K => ?run⟩
  case run =>
    simp only [cc0__sim_sum_kernel_eq_skeleton]; unfold cc0__sim_sum_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.KF

end
-- ==== Proof.KernelIdeal.Pieces.lean ====
/-
  What each case of the body leaves in the two accumulators (and, in the last case, in the two result windows'
  buffers), read back from the stores the runs found: one step of each accumulator, as KerSpec states it over the
  body's arithmetic. A store through the whole buffer, last, leaves its payload; a load of what one such store
  left reads the payload back.
-/
import proofs.«161518_j12833362280505_1_alg».proof.Proof.KernelIdeal.RunC
import Idealize.ShloMosaic.Lib.Pipeline.Value

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A view through which a buffer's pieces are read back (the choice does not matter once the pieces cover). -/
abbrev VS : View sig .tc .vmem S512x1 .f32 := scM0_0.view

/-! ## Case A -/

theorem scoverA0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) (y : S512x1.Idx) : ∃ pc ∈ (kernelRun0_A (F := F) c i arg2 harg2 arg3 harg3 arg4 harg4 arg5 harg5 arg6 harg6 arg7 harg7 hc0 hc1 x0 x1).1, y ∈ pc.1.set :=
  View.cover_of_tiledL (kernelRun0_A (F := F) c i arg2 harg2 arg3 harg3 arg4 harg4 arg5 harg5 arg6 harg6 arg7 harg7 hc0 hc1 x0 x1).1 S512x1.size (by sl_kernel_rfl) y
theorem scoverA1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) (y : S512x1.Idx) : ∃ pc ∈ (kernelRun0_A (F := F) c i arg2 harg2 arg3 harg3 arg4 harg4 arg5 harg5 arg6 harg6 arg7 harg7 hc0 hc1 x0 x1).2.1, y ∈ pc.1.set :=
  View.cover_of_tiledL (kernelRun0_A (F := F) c i arg2 harg2 arg3 harg3 arg4 harg4 arg5 harg5 arg6 harg6 arg7 harg7 hc0 hc1 x0 x1).2.1 S512x1.size (by sl_kernel_rfl) y

/-- What the case leaves in the first accumulator: its stores read back. -/
def sA0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) : Vec F S512x1 .f32 := VS.read (Elt F) (VS.writes (Elt F) VS.junk (kernelRun0_A (F := F) c i arg2 harg2 arg3 harg3 arg4 harg4 arg5 harg5 arg6 harg6 arg7 harg7 hc0 hc1 x0 x1).1)
def sA1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) : Vec F S512x1 .f32 := VS.read (Elt F) (VS.writes (Elt F) VS.junk (kernelRun0_A (F := F) c i arg2 harg2 arg3 harg3 arg4 harg4 arg5 harg5 arg6 harg6 arg7 harg7 hc0 hc1 x0 x1).2.1)

/-- It is one step of the row-sum accumulator from zero. -/
theorem sA0_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) : sA0 c i arg2 harg2 arg3 harg3 arg4 harg4 arg5 harg5 arg6 harg6 arg7 harg7 hc0 hc1 x0 x1 = KerSpec.stepTot x0 x1 KerSpec.zeroTot := by
  unfold sA0
  rw [View.read_writes_eq_canon _ _ _ (scoverA0 c i arg2 harg2 arg3 harg3 arg4 harg4 arg5 harg5 arg6 harg6 arg7 harg7 hc0 hc1 x0 x1)]
  unfold kernelRun0_A
  dsimp only
  sl_unfold_words
  first | rw [View.canon_unit_zero hz] | rw [View.canon_cons_unit_zero (S := S512x1) hz]
  try simp only [View.readCov_unit_zero (S := S512x1) _ hz]
  unfold KerSpec.stepTot KerSpec.zeroTot
  simp only [View.readAt_eq_ld, harg2.read_unread, harg3.read_unread, harg6.read_unread, harg7.read_unread, View.ld_unit_zero (S := S512x1) hz, View.ld_unit_zero (S := S512x128) hz]
theorem sA1_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 x1 : Vec F S512x128 .bf16) : sA1 c i arg2 harg2 arg3 harg3 arg4 harg4 arg5 harg5 arg6 harg6 arg7 harg7 hc0 hc1 x0 x1 = KerSpec.stepPos i x0 x1 KerSpec.zeroPos := by
  unfold sA1
  rw [View.read_writes_eq_canon _ _ _ (scoverA1 c i arg2 harg2 arg3 harg3 arg4 harg4 arg5 harg5 arg6 harg6 arg7 harg7 hc0 hc1 x0 x1)]
  unfold kernelRun0_A
  dsimp only
  sl_unfold_words
  first | rw [View.canon_unit_zero hz] | rw [View.canon_cons_unit_zero (S := S512x1) hz]
  try simp only [View.readCov_unit_zero (S := S512x1) _ hz]
  unfold KerSpec.stepPos KerSpec.zeroPos
  simp only [View.readAt_eq_ld, harg2.read_unread, harg3.read_unread, harg6.read_unread, harg7.read_unread, View.ld_unit_zero (S := S512x1) hz, View.ld_unit_zero (S := S512x128) hz]

/-! ## Case B -/

theorem scoverB0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) (y : S512x1.Idx) : ∃ pc ∈ (kernelRun0_B (F := F) c i arg2 harg2 arg3 harg3 arg4 harg4 arg5 harg5 arg6 harg6 arg7 harg7 hc0 hc1 x0 x1 xs0 xs1).1, y ∈ pc.1.set :=
  View.cover_of_tiledL (kernelRun0_B (F := F) c i arg2 harg2 arg3 harg3 arg4 harg4 arg5 harg5 arg6 harg6 arg7 harg7 hc0 hc1 x0 x1 xs0 xs1).1 S512x1.size (by sl_kernel_rfl) y
theorem scoverB1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) (y : S512x1.Idx) : ∃ pc ∈ (kernelRun0_B (F := F) c i arg2 harg2 arg3 harg3 arg4 harg4 arg5 harg5 arg6 harg6 arg7 harg7 hc0 hc1 x0 x1 xs0 xs1).2.1, y ∈ pc.1.set :=
  View.cover_of_tiledL (kernelRun0_B (F := F) c i arg2 harg2 arg3 harg3 arg4 harg4 arg5 harg5 arg6 harg6 arg7 harg7 hc0 hc1 x0 x1 xs0 xs1).2.1 S512x1.size (by sl_kernel_rfl) y

/-- What the case leaves in the first accumulator: its stores read back. -/
def sB0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) : Vec F S512x1 .f32 := VS.read (Elt F) (VS.writes (Elt F) VS.junk (kernelRun0_B (F := F) c i arg2 harg2 arg3 harg3 arg4 harg4 arg5 harg5 arg6 harg6 arg7 harg7 hc0 hc1 x0 x1 xs0 xs1).1)
def sB1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) : Vec F S512x1 .f32 := VS.read (Elt F) (VS.writes (Elt F) VS.junk (kernelRun0_B (F := F) c i arg2 harg2 arg3 harg3 arg4 harg4 arg5 harg5 arg6 harg6 arg7 harg7 hc0 hc1 x0 x1 xs0 xs1).2.1)

/-- It is one step of the row-sum accumulator from what the point before left. -/
theorem sB0_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) : sB0 c i arg2 harg2 arg3 harg3 arg4 harg4 arg5 harg5 arg6 harg6 arg7 harg7 hc0 hc1 x0 x1 xs0 xs1 = KerSpec.stepTot x0 x1 xs0 := by
  unfold sB0
  rw [View.read_writes_eq_canon _ _ _ (scoverB0 c i arg2 harg2 arg3 harg3 arg4 harg4 arg5 harg5 arg6 harg6 arg7 harg7 hc0 hc1 x0 x1 xs0 xs1)]
  unfold kernelRun0_B
  dsimp only
  sl_unfold_words
  first | rw [View.canon_unit_zero hz] | rw [View.canon_cons_unit_zero (S := S512x1) hz]
  try simp only [View.readCov_unit_zero (S := S512x1) _ hz]
  unfold KerSpec.stepTot
  simp only [View.readAt_eq_ld, harg2.read_unread, harg3.read_unread, harg6.read_unread, harg7.read_unread, View.ld_unit_zero (S := S512x1) hz, View.ld_unit_zero (S := S512x128) hz]
theorem sB1_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 x1 : Vec F S512x128 .bf16) (xs0 xs1 : Vec F S512x1 .f32) : sB1 c i arg2 harg2 arg3 harg3 arg4 harg4 arg5 harg5 arg6 harg6 arg7 harg7 hc0 hc1 x0 x1 xs0 xs1 = KerSpec.stepPos i x0 x1 xs1 := by
  unfold sB1
  rw [View.read_writes_eq_canon _ _ _ (scoverB1 c i arg2 harg2 arg3 harg3 arg4 harg4 arg5 harg5 arg6 harg6 arg7 harg7 hc0 hc1 x0 x1 xs0 xs1)]
  unfold kernelRun0_B
  dsimp only
  sl_unfold_words
  first | rw [View.canon_unit_zero hz] | rw [View.canon_cons_unit_zero (S := S512x1) hz]
  try simp only [View.readCov_unit_zero (S := S512x1) _ hz]
  unfold KerSpec.stepPos
  simp only [View.readAt_eq_ld, harg2.read_unread, harg3.read_unread, harg6.read_unread, harg7.read_unread, View.ld_unit_zero (S := S512x1) hz, View.ld_unit_zero (S := S512x128) hz]

/-! ## Case C -/

theorem scoverC0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) (y : S512x1.Idx) : ∃ pc ∈ (kernelRun0_C (F := F) c i arg2 harg2 arg3 harg3 arg4 harg4 arg5 harg5 arg6 harg6 arg7 harg7 hc0 hc1 x0 x1 xs0 xs1).2.2.1, y ∈ pc.1.set :=
  View.cover_of_tiledL (kernelRun0_C (F := F) c i arg2 harg2 arg3 harg3 arg4 harg4 arg5 harg5 arg6 harg6 arg7 harg7 hc0 hc1 x0 x1 xs0 xs1).2.2.1 S512x1.size (by sl_kernel_rfl) y
theorem scoverC1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) (y : S512x1.Idx) : ∃ pc ∈ (kernelRun0_C (F := F) c i arg2 harg2 arg3 harg3 arg4 harg4 arg5 harg5 arg6 harg6 arg7 harg7 hc0 hc1 x0 x1 xs0 xs1).2.2.2.1, y ∈ pc.1.set :=
  View.cover_of_tiledL (kernelRun0_C (F := F) c i arg2 harg2 arg3 harg3 arg4 harg4 arg5 harg5 arg6 harg6 arg7 harg7 hc0 hc1 x0 x1 xs0 xs1).2.2.2.1 S512x1.size (by sl_kernel_rfl) y

/-- What the case leaves in the first accumulator: its stores read back. -/
def sC0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : Vec F S512x1 .f32 := VS.read (Elt F) (VS.writes (Elt F) VS.junk (kernelRun0_C (F := F) c i arg2 harg2 arg3 harg3 arg4 harg4 arg5 harg5 arg6 harg6 arg7 harg7 hc0 hc1 x0 x1 xs0 xs1).2.2.1)
def sC1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : Vec F S512x1 .f32 := VS.read (Elt F) (VS.writes (Elt F) VS.junk (kernelRun0_C (F := F) c i arg2 harg2 arg3 harg3 arg4 harg4 arg5 harg5 arg6 harg6 arg7 harg7 hc0 hc1 x0 x1 xs0 xs1).2.2.2.1)

/-- It is one step of the row-sum accumulator from what the point before left. -/
theorem sC0_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : sC0 c i arg2 harg2 arg3 harg3 arg4 harg4 arg5 harg5 arg6 harg6 arg7 harg7 hc0 hc1 x0 x1 xs0 xs1 = KerSpec.stepTot x0 x1 xs0 := by
  unfold sC0
  rw [View.read_writes_eq_canon _ _ _ (scoverC0 c i arg2 harg2 arg3 harg3 arg4 harg4 arg5 harg5 arg6 harg6 arg7 harg7 hc0 hc1 x0 x1 xs0 xs1)]
  unfold kernelRun0_C
  dsimp only
  sl_unfold_words
  first | rw [View.canon_unit_zero hz] | rw [View.canon_cons_unit_zero (S := S512x1) hz]
  try simp only [View.readCov_unit_zero (S := S512x1) _ hz]
  unfold KerSpec.stepTot
  simp only [View.readAt_eq_ld, harg2.read_unread, harg3.read_unread, harg6.read_unread, harg7.read_unread, View.ld_unit_zero (S := S512x1) hz, View.ld_unit_zero (S := S512x128) hz]
theorem sC1_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : sC1 c i arg2 harg2 arg3 harg3 arg4 harg4 arg5 harg5 arg6 harg6 arg7 harg7 hc0 hc1 x0 x1 xs0 xs1 = KerSpec.stepPos i x0 x1 xs1 := by
  unfold sC1
  rw [View.read_writes_eq_canon _ _ _ (scoverC1 c i arg2 harg2 arg3 harg3 arg4 harg4 arg5 harg5 arg6 harg6 arg7 harg7 hc0 hc1 x0 x1 xs0 xs1)]
  unfold kernelRun0_C
  dsimp only
  sl_unfold_words
  first | rw [View.canon_unit_zero hz] | rw [View.canon_cons_unit_zero (S := S512x1) hz]
  try simp only [View.readCov_unit_zero (S := S512x1) _ hz]
  unfold KerSpec.stepPos
  simp only [View.readAt_eq_ld, harg2.read_unread, harg3.read_unread, harg6.read_unread, harg7.read_unread, View.ld_unit_zero (S := S512x1) hz, View.ld_unit_zero (S := S512x128) hz]

theorem coverC2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) (y : S512x1.Idx) : ∃ pc ∈ (kernelRun0_C (F := F) c i arg2 harg2 arg3 harg3 arg4 harg4 arg5 harg5 arg6 harg6 arg7 harg7 hc0 hc1 x0 x1 xs0 xs1).1, y ∈ pc.1.set :=
  View.cover_of_tiledL (kernelRun0_C (F := F) c i arg2 harg2 arg3 harg3 arg4 harg4 arg5 harg5 arg6 harg6 arg7 harg7 hc0 hc1 x0 x1 xs0 xs1).1 S512x1.size (by sl_kernel_rfl) y
theorem coverC3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) (y : S512x1.Idx) : ∃ pc ∈ (kernelRun0_C (F := F) c i arg2 harg2 arg3 harg3 arg4 harg4 arg5 harg5 arg6 harg6 arg7 harg7 hc0 hc1 x0 x1 xs0 xs1).2.1, y ∈ pc.1.set :=
  View.cover_of_tiledL (kernelRun0_C (F := F) c i arg2 harg2 arg3 harg3 arg4 harg4 arg5 harg5 arg6 harg6 arg7 harg7 hc0 hc1 x0 x1 xs0 xs1).2.1 S512x1.size (by sl_kernel_rfl) y

/-- What the case leaves in the two result windows' buffers: the accumulators just updated. -/
def oC2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : Vec F S512x1 .f32 := VS.read (Elt F) (VS.writes (Elt F) VS.junk (kernelRun0_C (F := F) c i arg2 harg2 arg3 harg3 arg4 harg4 arg5 harg5 arg6 harg6 arg7 harg7 hc0 hc1 x0 x1 xs0 xs1).1)
def oC3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : Vec F S512x1 .f32 := VS.read (Elt F) (VS.writes (Elt F) VS.junk (kernelRun0_C (F := F) c i arg2 harg2 arg3 harg3 arg4 harg4 arg5 harg5 arg6 harg6 arg7 harg7 hc0 hc1 x0 x1 xs0 xs1).2.1)

theorem oC2_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : oC2 c i arg2 harg2 arg3 harg3 arg4 harg4 arg5 harg5 arg6 harg6 arg7 harg7 hc0 hc1 x0 x1 xs0 xs1 = KerSpec.stepTot x0 x1 xs0 := by
  unfold oC2
  rw [View.read_writes_eq_canon _ _ _ (coverC2 c i arg2 harg2 arg3 harg3 arg4 harg4 arg5 harg5 arg6 harg6 arg7 harg7 hc0 hc1 x0 x1 xs0 xs1)]
  unfold kernelRun0_C
  dsimp only
  sl_unfold_words
  first | rw [View.canon_unit_zero hz] | rw [View.canon_cons_unit_zero (S := S512x1) hz]
  try simp only [View.readCov_unit_zero (S := S512x1) _ hz]
  unfold KerSpec.stepTot
  simp only [View.readAt_eq_ld, harg2.read_unread, harg3.read_unread, harg6.read_unread, harg7.read_unread, View.ld_unit_zero (S := S512x1) hz, View.ld_unit_zero (S := S512x128) hz]
theorem oC3_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 x1 : Vec F S512x128 .bf16) (xs0 xs1 : Vec F S512x1 .f32) : oC3 c i arg2 harg2 arg3 harg3 arg4 harg4 arg5 harg5 arg6 harg6 arg7 harg7 hc0 hc1 x0 x1 xs0 xs1 = KerSpec.stepPos i x0 x1 xs1 := by
  unfold oC3
  rw [View.read_writes_eq_canon _ _ _ (coverC3 c i arg2 harg2 arg3 harg3 arg4 harg4 arg5 harg5 arg6 harg6 arg7 harg7 hc0 hc1 x0 x1 xs0 xs1)]
  unfold kernelRun0_C
  dsimp only
  sl_unfold_words
  first | rw [View.canon_unit_zero hz] | rw [View.canon_cons_unit_zero (S := S512x1) hz]
  try simp only [View.readCov_unit_zero (S := S512x1) _ hz]
  unfold KerSpec.stepPos
  simp only [View.readAt_eq_ld, harg2.read_unread, harg3.read_unread, harg6.read_unread, harg7.read_unread, View.ld_unit_zero (S := S512x1) hz, View.ld_unit_zero (S := S512x128) hz]

end Cert.KernelIdeal.KF

end
-- ==== Proof.KernelIdeal.Body.lean ====
/-
  The proof data of the kernel region and the body obligation. The region finds the flattened feature matrix `A`
  in the one array both input windows read; at point `t` window 0 holds row tile `t / 16` and window 1 column tile
  `t % 16`. After point `t` the two scratch buffers hold `accTot A t` and `accPos A t` (KerSpec); the two result
  windows' buffers hold them too where the column tile is 15, and are handed back untouched elsewhere. The
  invariant between points carries the two scratch buffers at those contents (before the first point, at anything).
-/
import proofs.«161518_j12833362280505_1_alg».proof.Proof.KernelIdeal.Pieces

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The feature matrix as the region finds it. -/
abbrev AM (c : Dev nD) : Vec F S8192x128 .bf16 := V c main_v12

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The blocks are the tiles -/

/-- Window 0's block index along the rows is the row tile, window 1's the column tile; both are 0 along the columns. -/
theorem idx0_0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx0_1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)

theorem iblk0_eq (c : Dev nD) (t : Fin cfg0.N) : iblk V c 0 t = KerSpec.blk (AM V c) (t.val / 16) := by
  funext y
  unfold iblk KerSpec.blk
  rw [View.read_apply]
  show V c main_v12 (((cfg0.win 0).blk t).view.emb y) = V c main_v12 _
  refine congrArg _ (funext fun a => Fin.ext ?_)
  have hN : t.val < 256 := lt_of_lt_of_eq t.isLt N_0
  have hy0 : (y 0).val < 512 := (y 0).isLt
  have hy1 : (y 1).val < 128 := (y 1).isLt
  obtain ⟨h0, h1⟩ := idx0_0 t
  match a with
  | ⟨0, _⟩ =>
    show win0_0.index t (0 : Fin 2) * 512 + 1 * (y 0).val = (t.val / 16 * 512 + (y 0).val) % 8192
    rw [h0]; omega
  | ⟨1, _⟩ =>
    show win0_0.index t (1 : Fin 2) * 128 + 1 * (y 1).val = (y 1).val
    rw [h1]; omega

theorem iblk1_eq (c : Dev nD) (t : Fin cfg0.N) : iblk V c 1 t = KerSpec.blk (AM V c) (t.val % 16) := by
  funext y
  unfold iblk KerSpec.blk
  rw [View.read_apply]
  show V c main_v12 (((cfg0.win 1).blk t).view.emb y) = V c main_v12 _
  refine congrArg _ (funext fun a => Fin.ext ?_)
  have hN : t.val < 256 := lt_of_lt_of_eq t.isLt N_0
  have hy0 : (y 0).val < 512 := (y 0).isLt
  have hy1 : (y 1).val < 128 := (y 1).isLt
  obtain ⟨h0, h1⟩ := idx0_1 t
  match a with
  | ⟨0, _⟩ =>
    show win0_1.index t (0 : Fin 2) * 512 + 1 * (y 0).val = (t.val % 16 * 512 + (y 0).val) % 8192
    rw [h0]; omega
  | ⟨1, _⟩ =>
    show win0_1.index t (1 : Fin 2) * 128 + 1 * (y 1).val = (y 1).val
    rw [h1]; omega

/-- The grid coordinates of point `t` as KerSpec spells them. -/
theorem coordsN_eq (t : Fin cfg0.N) : KerSpec.coordsN t.val = grid0.coords t := by
  unfold KerSpec.coordsN
  exact congrArg grid0.coords (Fin.ext (Nat.mod_eq_of_lt t.isLt))

/-- One step of each accumulator at point `n`, from what the point before left (zero when the column tile is 0). -/
theorem accTot_step (A : Vec F S8192x128 .bf16) (n : ℕ) :
    KerSpec.accTot A n = KerSpec.stepTot (KerSpec.blk A (n / 16)) (KerSpec.blk A (n % 16)) (if n % 16 = 0 then KerSpec.zeroTot else KerSpec.accTot A (n - 1)) := by
  cases n with
  | zero => rfl
  | succ n => rfl
theorem accPos_step (A : Vec F S8192x128 .bf16) (n : ℕ) :
    KerSpec.accPos A n = KerSpec.stepPos (KerSpec.coordsN n) (KerSpec.blk A (n / 16)) (KerSpec.blk A (n % 16)) (if n % 16 = 0 then KerSpec.zeroPos else KerSpec.accPos A (n - 1)) := by
  cases n with
  | zero => rfl
  | succ n => rfl

/-! ## The invariant and the proof data -/

/-- The invariant before position `n`: the two scratch buffers at anything before the first point, afterwards at
    what the point before left; the generator register at some state. -/
def PhiS (c : Dev nD) : ℕ → sProp 𝕄
  | 0 => iprop((∃ d, owns (c : Thread nD τ) scM0_0 fullShare d) ∗ (∃ d, owns (c : Thread nD τ) scM0_1 fullShare d) ∗ (∃ r, prngReg c r))
  | n + 1 => iprop(owns (c : Thread nD τ) scM0_0 fullShare (KerSpec.accTot (AM V c) n) ∗ owns (c : Thread nD τ) scM0_1 fullShare (KerSpec.accPos (AM V c) n) ∗ (∃ r, prngReg c r))

theorem PhiS_succ (c : Dev nD) (n : ℕ) :
    PhiS V c (n + 1) = iprop(owns (c : Thread nD τ) scM0_0 fullShare (KerSpec.accTot (AM V c) n) ∗ owns (c : Thread nD τ) scM0_1 fullShare (KerSpec.accPos (AM V c) n) ∗ (∃ r, prngReg c r)) := rfl

theorem PhiS_pos (c : Dev nD) (n : ℕ) (hz : n ≠ 0) :
    PhiS V c n = iprop(owns (c : Thread nD τ) scM0_0 fullShare (KerSpec.accTot (AM V c) (n - 1)) ∗ owns (c : Thread nD τ) scM0_1 fullShare (KerSpec.accPos (AM V c) (n - 1)) ∗ (∃ r, prngReg c r)) := by
  cases n with
  | zero => exact absurd rfl hz
  | succ n => rfl

/-- Whatever the position, the scratch buffers are held at some contents. -/
theorem PhiS_some (c : Dev nD) (n : ℕ) :
    PhiS V c n ⊢ iprop((∃ d, owns (c : Thread nD τ) scM0_0 fullShare d) ∗ (∃ d, owns (c : Thread nD τ) scM0_1 fullShare d) ∗ (∃ r, prngReg c r)) := by
  cases n with
  | zero => exact .rfl
  | succ n =>
    show iprop(owns (c : Thread nD τ) scM0_0 fullShare _ ∗ owns (c : Thread nD τ) scM0_1 fullShare _ ∗ (∃ r, prngReg c r)) ⊢ _
    iintro ⟨H0, H1, Hg⟩
    isplitl [H0]; · iexists _; iexact H0
    isplitl [H1]; · iexists _; iexact H1
    iexact Hg

/-- The proof data: the arrays as the region finds them; after point `t` the input windows' buffers at their blocks,
    the result windows' at the accumulators; the one input array held half and half by the two input windows. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => KerSpec.accTot (AM V c) t.val
    | ⟨3, _⟩ => KerSpec.accPos (AM V c) t.val
  Φ t := PhiS V c t.val
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by dsimp only [dat]
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = KerSpec.accTot (AM V c) t.val := by dsimp only [dat]
theorem after0_3 (c : Dev nD) (t : Fin cfg0.N) : (dat V c).after 3 t = KerSpec.accPos (AM V c) t.val := by dsimp only [dat]
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

theorem leaves0 (c : Dev nD) (t : Fin cfg0.N) : (dat V c).leavesExact 0 t = owns (c : Thread nD τ) (ms0_0 t) fullShare (iblk V c 0 t) := by
  unfold Dat.leavesExact; rw [liveAt0_0 t, after0_0]
theorem leaves1 (c : Dev nD) (t : Fin cfg0.N) : (dat V c).leavesExact 1 t = owns (c : Thread nD τ) (ms0_1 t) fullShare (iblk V c 1 t) := by
  unfold Dat.leavesExact; rw [liveAt0_1 t, after0_1]

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).owesAt () t.succ = (dat V c).owesAt () t.castSucc from rfl]
  rw [show (dat V c).Φ t.succ = PhiS V c (t.val + 1) from rfl, show (dat V c).Φ t.castSucc = PhiS V c t.val from rfl]
  rw [leaves0, leaves1, PhiS_succ]
  have hN : t.val < 256 := lt_of_lt_of_eq t.isLt (show cfg0.N = 256 from N_0)
  have hT := accTot_step (AM V c) t.val
  have hP := accPos_step (AM V c) t.val
  rw [← iblk0_eq V c t, ← iblk1_eq V c t] at hT hP
  rw [coordsN_eq t] at hP
  by_cases h0 : t.val % 16 = 0
  · have h1 : ¬t.val % 16 = 15 := by omega
    have hc0 := (hcond0_0 t).mpr h0
    have hc1 : ¬cond0_1 (grid0.coords t) := fun h => h1 ((hcond0_1 t).mp h)
    rw [Dat.leavesExact_idle (dat V c) 2 t (idleAt0_2 t hc1) (noFlush0_2 t hc1), Dat.leavesExact_idle (dat V c) 3 t (idleAt0_3 t hc1) (noFlush0_3 t hc1)]
    rw [if_pos h0] at hT hP
    show iprop(PhiS V c t.val ∗ _) ⊢ _
    refine (sep_mono (PhiS_some V c t.val) .rfl).trans ?_
    iintro ⟨⟨HS0, HS1, Hg⟩, Ho, ⟨%d0, H0⟩, ⟨%d1, H1⟩, ⟨%d2, H2⟩, ⟨%d3, H3⟩⟩
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk V c 0 t) (iblk V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%e0, HS0⟩, ⟨%e1, HS1⟩⟩
    isplitl [HS0 HS1 Hg]
    · isplitl [HS0]
      · unfold owns; iexists _; isplitr
        swap; · iexact HS0
        ipureintro
        exact (View.read_writes_of_cover _ _ _ _ _ (scoverA0 c _ _ _ _ _ _ _ _ _ _ _ _ _ _ _ _ _)).trans ((sA0_eq c _ _ _ _ _ _ _ _ _ _ _ _ _ hc0 hc1 _ _).trans hT.symm)
      isplitl [HS1]
      · unfold owns; iexists _; isplitr
        swap; · iexact HS1
        ipureintro
        exact (View.read_writes_of_cover _ _ _ _ _ (scoverA1 c _ _ _ _ _ _ _ _ _ _ _ _ _ _ _ _ _)).trans ((sA1_eq c _ _ _ _ _ _ _ _ _ _ _ _ _ hc0 hc1 _ _).trans hP.symm)
      iexact Hg
    isplitl [Ho]; · iexact Ho
    isplitl [H0]; · iexact H0
    isplitl [H1]; · iexact H1
    isplitl [H2]; · iexists _; iexact H2
    iexists _; iexact H3
  · have hz : t.val ≠ 0 := fun e => h0 (by rw [e])
    have hc0 : ¬cond0_0 (grid0.coords t) := fun h => h0 ((hcond0_0 t).mp h)
    rw [if_neg h0] at hT hP
    rw [PhiS_pos V c t.val hz]
    by_cases h1 : t.val % 16 = 15
    · have hc1 := (hcond0_1 t).mpr h1
      rw [show (dat V c).leavesExact 2 t = owns (c : Thread nD τ) (ms0_2 t) fullShare ((dat V c).after 2 t) from by
        unfold Dat.leavesExact; rw [liveAt0_2 t hc1], after0_2]
      rw [show (dat V c).leavesExact 3 t = owns (c : Thread nD τ) (ms0_3 t) fullShare ((dat V c).after 3 t) from by
        unfold Dat.leavesExact; rw [liveAt0_3 t hc1], after0_3]
      iintro ⟨⟨HS0, HS1, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk V c 0 t) (iblk V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%e0, HS0⟩, ⟨%e1, HS1⟩⟩
      isplitl [HS0 HS1 Hg]
      · isplitl [HS0]
        · unfold owns; iexists _; isplitr
          swap; · iexact HS0
          ipureintro
          exact (View.read_writes_of_cover _ _ _ _ _ (scoverC0 c _ _ _ _ _ _ _ _ _ _ _ _ _ _ _ _ _ _ _)).trans ((sC0_eq c _ _ _ _ _ _ _ _ _ _ _ _ _ hc0 hc1 _ _ _ _).trans hT.symm)
        isplitl [HS1]
        · unfold owns; iexists _; isplitr
          swap; · iexact HS1
          ipureintro
          exact (View.read_writes_of_cover _ _ _ _ _ (scoverC1 c _ _ _ _ _ _ _ _ _ _ _ _ _ _ _ _ _ _ _)).trans ((sC1_eq c _ _ _ _ _ _ _ _ _ _ _ _ _ hc0 hc1 _ _ _ _).trans hP.symm)
        iexact Hg
      isplitl [Ho]; · iexact Ho
      isplitl [H0]; · iexact H0
      isplitl [H1]; · iexact H1
      isplitl [H2]
      · unfold owns; iexists _; isplitr
        swap; · iexact H2
        ipureintro
        exact (View.read_writes_of_cover _ _ _ _ _ (coverC2 c _ _ _ _ _ _ _ _ _ _ _ _ _ _ _ _ _ _ _)).trans ((oC2_eq c _ _ _ _ _ _ _ _ _ _ _ _ _ hc0 hc1 _ _ _ _).trans hT.symm)
      unfold owns; iexists _; isplitr
      swap; · iexact H3
      ipureintro
      exact (View.read_writes_of_cover _ _ _ _ _ (coverC3 c _ _ _ _ _ _ _ _ _ _ _ _ _ _ _ _ _ _ _)).trans ((oC3_eq c _ _ _ _ _ _ _ _ _ _ _ _ _ hc0 hc1 _ _ _ _).trans hP.symm)
    · have hc1 : ¬cond0_1 (grid0.coords t) := fun h => h1 ((hcond0_1 t).mp h)
      rw [Dat.leavesExact_idle (dat V c) 2 t (idleAt0_2 t hc1) (noFlush0_2 t hc1), Dat.leavesExact_idle (dat V c) 3 t (idleAt0_3 t hc1) (noFlush0_3 t hc1)]
      iintro ⟨⟨HS0, HS1, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk V c 0 t) (iblk V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%e0, HS0⟩, ⟨%e1, HS1⟩⟩
      isplitl [HS0 HS1 Hg]
      · isplitl [HS0]
        · unfold owns; iexists _; isplitr
          swap; · iexact HS0
          ipureintro
          exact (View.read_writes_of_cover _ _ _ _ _ (scoverB0 c _ _ _ _ _ _ _ _ _ _ _ _ _ _ _ _ _ _ _)).trans ((sB0_eq c _ _ _ _ _ _ _ _ _ _ _ _ _ hc0 hc1 _ _ _ _).trans hT.symm)
        isplitl [HS1]
        · unfold owns; iexists _; isplitr
          swap; · iexact HS1
          ipureintro
          exact (View.read_writes_of_cover _ _ _ _ _ (scoverB1 c _ _ _ _ _ _ _ _ _ _ _ _ _ _ _ _ _ _ _)).trans ((sB1_eq c _ _ _ _ _ _ _ _ _ _ _ _ _ hc0 hc1 _ _ _ _).trans hP.symm)
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.KF

end
-- ==== Proof.KernelIdeal.Arrays.lean ====
/-
  The kernel region's arrays against the device's held buffers. Both input windows read the one array holding the
  feature matrix, each at half of the full share; the two result windows have an array each, at the full share.
  The three buffers behind the four windows, held whole at the full share, are therefore the region's arrays: the
  feature matrix's points-to splits along the share into the two windows' halves, and the halves join back.
-/
import proofs.«161518_j12833362280505_1_alg».proof.Proof.KernelIdeal.Body

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The buffer both input windows read. -/
abbrev r12 : DevRef τ sig := Proc.devRef .tc main_v12
/-- The first result window's buffer. -/
abbrev r130 : DevRef τ sig := Proc.devRef .tc main_v13_0
/-- The second result window's buffer. -/
abbrev r131 : DevRef τ sig := Proc.devRef .tc main_v13_1
/-- The three buffers behind the four windows. -/
abbrev T3 : Finset (DevRef τ sig) := ([r12, r130, r131] : List (DevRef τ sig)).toFinset

/-- Each of the three is an unscoped buffer of the TensorCore. -/
theorem T3_sub : T3 ⊆ Pipeline.ucRefs τ sig := by
  intro b hb
  have hb' : b = r12 ∨ b = r130 ∨ b = r131 := by simpa [T3] using hb
  rcases hb' with rfl | rfl | rfl
  · exact Finset.mem_filter.mpr ⟨StableHlo.devRef_mem_tcRefs _, by decide⟩
  · exact Finset.mem_filter.mpr ⟨StableHlo.devRef_mem_tcRefs _, by decide⟩
  · exact Finset.mem_filter.mpr ⟨StableHlo.devRef_mem_tcRefs _, by decide⟩

/-- The three buffers conjoined one by one. -/
theorem bigSep_T3 {M : Type} [URA M] (Φ : DevRef τ sig → sProp M) : bigSep T3 Φ = iprop(Φ r12 ∗ Φ r130 ∗ Φ r131) :=
  bigSep_eq_bigSepL [r12, r130, r131] (by decide) Φ

/-- A window's conjunct of the region's arrays is a plain points-to of the whole buffer behind it. -/
theorem win_pointsTo (c : Dev nD) (w : Fin cfg0.W) (q : PosShare TreeShare)
    (X : Buf (Elt F) ((cfg0.win w).arr.view.loc (c.tc : Thread nD τ))) :
    ((cfg0.win w).arr.view.loc (c.tc : Thread nD τ) ↦[(cfg0.win w).arr.view.set]{q} X : sProp 𝕄)
      = ((c.tc : Thread nD τ).loc (Pipeline.arrRef spec0 w) ↦{q} X) := by
  rw [(arr_whole0 w).set_eq_univ]

/-- The shares: the two input windows hold the halves of the full share, the result windows the full share. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl

section
variable (c : Dev nD) (W : Valuation τ sig (Elt F))
  (Fn : (w : Fin cfg0.W) → Buf (Elt F) ((cfg0.win w).arr.view.loc (c.tc : Thread nD τ)))
  (h0 : Fn 0 = W r12) (h1 : Fn 1 = W r12) (h2 : Fn 2 = W r130) (h3 : Fn 3 = W r131)

include h0 in
theorem conj_0 : ((cfg0.win 0).arr.view.loc (c.tc : Thread nD τ) ↦[(cfg0.win 0).arr.view.set]{(dat V c).share 0} Fn 0 : sProp 𝕄)
    = (((c.tc : Thread nD τ).1, r12) ↦{fullShare.left} W r12) := by
  rw [win_pointsTo, share_0, h0]

include h1 in
theorem conj_1 : ((cfg0.win 1).arr.view.loc (c.tc : Thread nD τ) ↦[(cfg0.win 1).arr.view.set]{(dat V c).share 1} Fn 1 : sProp 𝕄)
    = (((c.tc : Thread nD τ).1, r12) ↦{fullShare.right} W r12) := by
  rw [win_pointsTo, share_1, h1]

include h2 in
theorem conj_2 : ((cfg0.win 2).arr.view.loc (c.tc : Thread nD τ) ↦[(cfg0.win 2).arr.view.set]{(dat V c).share 2} Fn 2 : sProp 𝕄)
    = (((c.tc : Thread nD τ).1, r130) ↦{fullShare} W r130) := by
  rw [win_pointsTo, share_2, h2]

include h3 in
theorem conj_3 : ((cfg0.win 3).arr.view.loc (c.tc : Thread nD τ) ↦[(cfg0.win 3).arr.view.set]{(dat V c).share 3} Fn 3 : sProp 𝕄)
    = (((c.tc : Thread nD τ).1, r131) ↦{fullShare} W r131) := by
  rw [win_pointsTo, share_3, h3]

include h0 h1 h2 h3 in
/-- The three buffers held whole are the region's arrays: the feature matrix's full share splits into the two input
    windows' halves. -/
theorem arrays_of_held : (StableHlo.held (c.tc : Thread nD τ) T3 W : sProp 𝕄) ⊢ (dat V c).arrays Fn := by
  unfold StableHlo.held Dat.arrays
  rw [bigSep_T3, bigSep_W0]
  show iprop((((c.tc : Thread nD τ).1, r12) ↦{fullShare} W r12) ∗ (((c.tc : Thread nD τ).1, r130) ↦{fullShare} W r130)
    ∗ (((c.tc : Thread nD τ).1, r131) ↦{fullShare} W r131)) ⊢ iprop(((cfg0.win 0).arr.view.loc (c.tc : Thread nD τ) ↦[(cfg0.win 0).arr.view.set]{(dat V c).share 0} Fn 0)
    ∗ ((cfg0.win 1).arr.view.loc (c.tc : Thread nD τ) ↦[(cfg0.win 1).arr.view.set]{(dat V c).share 1} Fn 1)
    ∗ ((cfg0.win 2).arr.view.loc (c.tc : Thread nD τ) ↦[(cfg0.win 2).arr.view.set]{(dat V c).share 2} Fn 2)
    ∗ ((cfg0.win 3).arr.view.loc (c.tc : Thread nD τ) ↦[(cfg0.win 3).arr.view.set]{(dat V c).share 3} Fn 3))
  rw [conj_0 V c W Fn h0, conj_1 V c W Fn h1, conj_2 V c W Fn h2, conj_3 V c W Fn h3]
  iintro ⟨H12, H130, H131⟩
  ihave H := (pointsTo_share (PosShare.mem_left_op_right fullShare)).1 $$ H12
  icases H with ⟨Hl, Hr⟩
  isplitl [Hl]; · iexact Hl
  isplitl [Hr]; · iexact Hr
  isplitl [H130]; · iexact H130
  iexact H131

include h0 h1 h2 h3 in
/-- The region's arrays are the three buffers held whole: the two input windows' halves join into the feature
    matrix's full share. -/
theorem held_of_arrays : ((dat V c).arrays Fn : sProp 𝕄) ⊢ StableHlo.held (c.tc : Thread nD τ) T3 W := by
  unfold StableHlo.held Dat.arrays
  rw [bigSep_T3, bigSep_W0]
  show iprop(((cfg0.win 0).arr.view.loc (c.tc : Thread nD τ) ↦[(cfg0.win 0).arr.view.set]{(dat V c).share 0} Fn 0)
    ∗ ((cfg0.win 1).arr.view.loc (c.tc : Thread nD τ) ↦[(cfg0.win 1).arr.view.set]{(dat V c).share 1} Fn 1)
    ∗ ((cfg0.win 2).arr.view.loc (c.tc : Thread nD τ) ↦[(cfg0.win 2).arr.view.set]{(dat V c).share 2} Fn 2)
    ∗ ((cfg0.win 3).arr.view.loc (c.tc : Thread nD τ) ↦[(cfg0.win 3).arr.view.set]{(dat V c).share 3} Fn 3)) ⊢ iprop((((c.tc : Thread nD τ).1, r12) ↦{fullShare} W r12) ∗ (((c.tc : Thread nD τ).1, r130) ↦{fullShare} W r130)
    ∗ (((c.tc : Thread nD τ).1, r131) ↦{fullShare} W r131))
  rw [conj_0 V c W Fn h0, conj_1 V c W Fn h1, conj_2 V c W Fn h2, conj_3 V c W Fn h3]
  iintro ⟨Hl, Hr, H130, H131⟩
  isplitl [Hl Hr]
  · iapply (pointsTo_share (PosShare.mem_left_op_right fullShare)).2
    isplitl [Hl]; · iexact Hl
    iexact Hr
  isplitl [H130]; · iexact H130
  iexact H131

end

end Cert.KernelIdeal.KF

end
-- ==== Proof.KernelIdeal.Region.lean ====
/-
  The kernel program's run. @main is four stretches of host operations, the kernel region, and a last stretch of
  host operations. Between two items the core holds every unscoped buffer whole, at contents that follow @main: the
  launch memory, then each stretch's operations applied, and across the region the two result arrays replaced by
  what the write-backs leave. The region is entered by taking its three arrays out of those buffers — the one input
  array split into the two halves the two input windows hold — and left by putting them back.
-/
import proofs.«161518_j12833362280505_1_alg».proof.Proof.KernelIdeal.Arrays
import Idealize.ShloMosaic.Lib.Pipeline.Regions
import Idealize.ShloMosaic.Lib.Pipeline.RegionsLoop

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The contents the region is entered at, read at the TensorCore's references. -/
abbrev V4 : (c : Dev nD) → (b : Ref sig .tc) → Buf (Elt F) ((c : Thread nD τ).loc b) := fun c b => W4 m ρ c b
/-- At the region's exit: the two result arrays at what the write-backs leave, every other buffer as entered. -/
def W5 (c : Dev nD) : Valuation τ sig (Elt F) :=
  Function.update (Function.update (W4 m ρ c) r130 ((dat (V4 m ρ) c).arrAt 2 cfg0.N)) r131 ((dat (V4 m ρ) c).arrAt 3 cfg0.N)
abbrev W6 : Dev nD → Valuation τ sig (Elt F) := fun c => StableHlo.after hostOps1 (W5 m ρ c)

theorem r130_ne_r131 : (r130 : DevRef τ sig) ≠ r131 := by decide
theorem r12_ne_r130 : (r12 : DevRef τ sig) ≠ r130 := by decide
theorem r12_ne_r131 : (r12 : DevRef τ sig) ≠ r131 := by decide

theorem W5_r131 (c : Dev nD) : W5 m ρ c r131 = (dat (V4 m ρ) c).arrAt 3 cfg0.N := by
  unfold W5; exact Function.update_self ..
theorem W5_r130 (c : Dev nD) : W5 m ρ c r130 = (dat (V4 m ρ) c).arrAt 2 cfg0.N := by
  unfold W5; rw [Function.update_of_ne r130_ne_r131]; exact Function.update_self ..
theorem W5_of_ne (c : Dev nD) (b : DevRef τ sig) (h0 : b ≠ r130) (h1 : b ≠ r131) : W5 m ρ c b = W4 m ρ c b := by
  unfold W5; rw [Function.update_of_ne h1, Function.update_of_ne h0]

/-- The input array is not written by the region. -/
theorem arrAt0 (c : Dev nD) : (dat (V4 m ρ) c).arrAt 0 cfg0.N = W5 m ρ c r12 :=
  ((dat (V4 m ρ) c).arrAt_in 0 rfl _).trans ((A_eq (V4 m ρ) c 0).trans (W5_of_ne m ρ c r12 r12_ne_r130 r12_ne_r131).symm)
theorem arrAt1 (c : Dev nD) : (dat (V4 m ρ) c).arrAt 1 cfg0.N = W5 m ρ c r12 :=
  ((dat (V4 m ρ) c).arrAt_in 1 rfl _).trans ((A_eq (V4 m ρ) c 1).trans (W5_of_ne m ρ c r12 r12_ne_r130 r12_ne_r131).symm)

/-! ## Entering and leaving the region -/

theorem entry_split (c : Dev nD) :
    (StableHlo.held (c : Thread nD τ) (Pipeline.ucRefs τ sig) (W4 m ρ c) : sProp 𝕄)
      ⊢ iprop((dat (V4 m ρ) c).arrays ((dat (V4 m ρ) c).arrAt · 0) ∗ StableHlo.held (c : Thread nD τ) (Pipeline.ucRefs τ sig \ T3) (W4 m ρ c)) := by
  rw [StableHlo.held_sub_split (c : Thread nD τ) T3_sub (W4 m ρ c)]
  exact sep_mono (arrays_of_held (V4 m ρ) c (W4 m ρ c) _ rfl rfl rfl rfl) .rfl

theorem exit_join (c : Dev nD) :
    (iprop((dat (V4 m ρ) c).arrays ((dat (V4 m ρ) c).arrAt · cfg0.N) ∗ StableHlo.held (c : Thread nD τ) (Pipeline.ucRefs τ sig \ T3) (W4 m ρ c)) : sProp 𝕄)
      ⊢ StableHlo.held (c : Thread nD τ) (Pipeline.ucRefs τ sig) (W5 m ρ c) := by
  rw [StableHlo.held_sub_split (c : Thread nD τ) T3_sub (W5 m ρ c)]
  refine sep_mono (held_of_arrays (V4 m ρ) c (W5 m ρ c) _ (arrAt0 m ρ c) (arrAt1 m ρ c) (W5_r130 m ρ c).symm (W5_r131 m ρ c).symm) (Entails.of_eq ?_)
  refine StableHlo.held_congr (c : Thread nD τ) fun b hb => ?_
  have hb' := (Finset.mem_sdiff.mp hb).2
  refine (W5_of_ne m ρ c b (fun e => hb' ?_) (fun e => hb' ?_)).symm
  · rw [e]; decide
  · rw [e]; decide

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem scoped_eq (c : Dev nD) :
    (Pipeline.scopedRest spec0 c : sProp 𝕄) = iprop((∃ d, owns (c : Thread nD τ) scM0_0 fullShare d) ∗ (∃ d, owns (c : Thread nD τ) scM0_1 fullShare d)) := by
  rw [scopedRest0_eq]; simp only [scM0_0, scM0_1, owns_whole]; try rfl

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := StableHlo.held (c : Thread nD τ) (Pipeline.ucRefs τ sig \ T3) (W4 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = iprop((∃ d, owns (c : Thread nD τ) scM0_0 fullShare d) ∗ (∃ d, owns (c : Thread nD τ) scM0_1 fullShare d) ∗ (∃ r, prngReg c r)) from rfl, scoped_eq]
    iintro ⟨Hp, -, ⟨H0, H1⟩⟩
    isplitl [H0]; · iexact H0
    isplitl [H1]; · iexact H1
    iexact Hp
  hout c := by
    rw [Pipeline.ownSems0_none, show (pdats m ρ 0 c).Φ (Fin.last _) = PhiS (V4 m ρ) c (Fin.last cfg0.N).val from rfl, scoped_eq]
    refine (PhiS_some (V4 m ρ) c _).trans ?_
    iintro ⟨H0, H1, Hp⟩
    isplitl [Hp]; · iexact Hp
    isplitr; · iempintro
    isplitl [H0]; · iexact H0
    iexact H1
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)) ]

theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

/-- The last item's thread state, regrouped: the buffers and the generator register beside the core owing nothing. -/
theorem last_chain (c : Dev nD) :
    (iprop(StableHlo.held (c : Thread nD τ) (Pipeline.ucRefs τ sig) (W6 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- Every weakly fair execution of @main from a memory with zero counters terminates, nothing faulting, and every
    final memory holds each unscoped buffer at the last contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.KF

end
-- ==== Proof.KerTerm.lean ====
/-
  The kernel program's host operations as named terms: each definition applies exactly the printed
  operations, in the printed order, to its arguments. Rows of the two inputs are divided by their Euclidean
  norm (bounded below), the two normalised arrays are stacked, flattened to an 8192 x 128 matrix and rounded
  to bf16; after the kernel region its two result columns are reshaped to 128 x 64, the matching-pair term
  exp (fk . fs) is added, and the mean of -log (positives / total) is taken.
-/
import proofs.«161518_j12833362280505_1_alg».proof.Proof.KerSpec

noncomputable section

namespace Cert.KernelIdeal.KerTerm

open Idealize.ShloMosaic Cert.KernelIdeal Cert.KernelIdeal.Gen

variable {F : FTy → Type} [FloatOps F]

/-- A row divided by `max (sqrt (sum of squares)) 1e-12`: the value of %4 as a function of %arg0
    (and of %9 as a function of %arg1). -/
def nrm (x : FVec F S64x64x128 .f32) : FVec F S64x64x128 .f32 :=
  Host.divf x
    (broadcastInDim S64x64x128 ![0, 1, 2] bcast_S64x64x1_S64x64x128_0_1_2
      (maximumf
        (Host.sqrt
          (broadcastInDim S64x64x1 ![0, 1] bcast_S64x64_S64x64x1_0_1
            (Host.reduceAdd (mulf x x) (constant S_ .f32 0x00000000#32) reducesTo_S64x64x128_S64x64_d2 h_S_)))
        (broadcastInDim S64x64x1 ![] bcast_S_S64x64x1 (constant S_ .f32 0x2B8CBCCC#32))))

/-- The two arrays stacked along axis 0: %10. -/
def cat (a b : FVec F S64x64x128 .f32) : FVec F S128x64x128 .f32 :=
  concatenate S128x64x128 0 [⟨S64x64x128, a⟩, ⟨S64x64x128, b⟩] concatenates_S64x64x128_S64x64x128_S128x64x128_d0

/-- The stacked array as an 8192 x 128 matrix of bf16: %12. -/
def flat (f : FVec F S128x64x128 .f32) : Vec F S8192x128 .bf16 :=
  truncf .bf16 (shapeCast S8192x128 f shapeCasts_S128x64x128_S8192x128) bitsLt_bf16_f32

/-- exp of the dot product of matching rows, stacked with itself: %19. -/
def pos2 (fk fs : FVec F S64x64x128 .f32) : FVec F S128x64 .f32 :=
  concatenate S128x64 0
    [⟨S64x64, Host.exp (Host.reduceAdd (mulf fk fs) (constant S_ .f32 0x00000000#32) reducesTo_S64x64x128_S64x64_d2 h_S_)⟩,
     ⟨S64x64, Host.exp (Host.reduceAdd (mulf fk fs) (constant S_ .f32 0x00000000#32) reducesTo_S64x64x128_S64x64_d2 h_S_)⟩]
    concatenates_S64x64_S64x64_S128x64_d0

/-- From the region's two result columns and the matching-pair term to the loss: %14, %15, %20 … %25. -/
def tail (o0 o1 : Vec F S8192x1 .f32) (p2 : FVec F S128x64 .f32) : FVec F S_ .f32 :=
  Host.divf
    (Host.reduceAdd
      (Host.negf (Host.log (Host.divf
        (addf (shapeCast S128x64 o1 shapeCasts_S8192x1_S128x64) p2)
        (shapeCast S128x64 o0 shapeCasts_S8192x1_S128x64))))
      (constant S_ .f32 0x00000000#32) reducesTo_S128x64_S_d0_1 h_S_)
    (constant S_ .f32 0x46000000#32)

/-- The program's result as a function of its two arguments. -/
def out (a0 a1 : FVec F S64x64x128 .f32) : FVec F S_ .f32 :=
  let fk := nrm a0
  let fs := nrm a1
  let A := flat (cat fk fs)
  tail (KerSpec.out0 A) (KerSpec.out1 A) (pos2 fk fs)

end Cert.KernelIdeal.KerTerm

end
-- ==== Proof.KernelIdeal.HostVals.lean ====
/-
  What the program's host operations leave in the buffers, as the named terms: before the kernel region the two
  normalised inputs and the flattened bf16 matrix, after it the loss from the region's two result columns. No host
  operation writes an argument buffer.
-/
import proofs.«161518_j12833362280505_1_alg».proof.Proof.KerTerm
import proofs.«161518_j12833362280505_1_alg».proof.Proof.Gen.KernelIdeal.Launch

noncomputable section

namespace Cert.KernelIdeal.KF

open Idealize.ShloMosaic Idealize.ShloMosaic.TcCoe Cert.KernelIdeal Cert.KernelIdeal.Gen

variable {F : FTy → Type} [FloatOps F]

/-- The buffers' contents after the four stretches of host operations that precede the kernel region. -/
abbrev pre4 (W : Valuation τ sig (Elt F)) : Valuation τ sig (Elt F) :=
  StableHlo.after hostOps0_3 (StableHlo.after hostOps0_2 (StableHlo.after hostOps0_1 (StableHlo.after hostOps0 W)))

theorem pre4_v4 (W : Valuation τ sig (Elt F)) :
    (pre4 W (Proc.devRef .tc main_v4) : FVec F S64x64x128 .f32) = KerTerm.nrm (W (Proc.devRef .tc main_arg0)) := by
  simp only [pre4, hostOps0, hostOps0_1, hostOps0_2, hostOps0_3]
  after_results <;> rfl

theorem pre4_v9 (W : Valuation τ sig (Elt F)) :
    (pre4 W (Proc.devRef .tc main_v9) : FVec F S64x64x128 .f32) = KerTerm.nrm (W (Proc.devRef .tc main_arg1)) := by
  simp only [pre4, hostOps0, hostOps0_1, hostOps0_2, hostOps0_3]
  after_results <;> rfl

theorem pre4_v12 (W : Valuation τ sig (Elt F)) :
    (pre4 W (Proc.devRef .tc main_v12) : Vec F S8192x128 .bf16)
      = KerTerm.flat (KerTerm.cat (KerTerm.nrm (W (Proc.devRef .tc main_arg0))) (KerTerm.nrm (W (Proc.devRef .tc main_arg1)))) := by
  simp only [pre4, hostOps0, hostOps0_1, hostOps0_2, hostOps0_3]
  after_results <;> rfl

theorem pre4_arg0 (W : Valuation τ sig (Elt F)) :
    pre4 W (Proc.devRef .tc main_arg0) = W (Proc.devRef .tc main_arg0) := by
  simp only [pre4, hostOps0, hostOps0_1, hostOps0_2, hostOps0_3]
  after_results <;> rfl

theorem pre4_arg1 (W : Valuation τ sig (Elt F)) :
    pre4 W (Proc.devRef .tc main_arg1) = W (Proc.devRef .tc main_arg1) := by
  simp only [pre4, hostOps0, hostOps0_1, hostOps0_2, hostOps0_3]
  after_results <;> rfl

theorem tail_v25 (W : Valuation τ sig (Elt F)) :
    (StableHlo.after hostOps1 W (Proc.devRef .tc main_v25) : FVec F S_ .f32)
      = KerTerm.tail (W (Proc.devRef .tc main_v13_0)) (W (Proc.devRef .tc main_v13_1))
          (KerTerm.pos2 (W (Proc.devRef .tc main_v4)) (W (Proc.devRef .tc main_v9))) := by
  simp only [hostOps1]
  after_results <;> rfl

theorem tail_arg0 (W : Valuation τ sig (Elt F)) :
    StableHlo.after hostOps1 W (Proc.devRef .tc main_arg0) = W (Proc.devRef .tc main_arg0) := by
  simp only [hostOps1]
  after_results <;> rfl

theorem tail_arg1 (W : Valuation τ sig (Elt F)) :
    StableHlo.after hostOps1 W (Proc.devRef .tc main_arg1) = W (Proc.devRef .tc main_arg1) := by
  simp only [hostOps1]
  after_results <;> rfl

end Cert.KernelIdeal.KF

end
-- ==== Proof.KernelIdeal.Frame.lean ====
/-
  The frame of the kernel program: no stretch of host operations writes an argument array and the region changes
  only its two result arrays, so the last contents at each argument are the launch contents.
-/
import proofs.«161518_j12833362280505_1_alg».proof.Proof.KernelIdeal.Region
import proofs.«161518_j12833362280505_1_alg».proof.Proof.KernelIdeal.HostVals

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_eq (c : Dev nD) : W4 m ρ c = pre4 (W0 m ρ c) := rfl

theorem W6_arg0 (c : Dev nD) : W6 m ρ c (Proc.devRef .tc main_arg0) = m ((c : Thread nD τ).loc main_arg0) :=
  (tail_arg0 (W5 m ρ c)).trans ((W5_of_ne m ρ c _ (by decide) (by decide)).trans ((congrFun (W4_eq m ρ c) _).trans (pre4_arg0 (W0 m ρ c))))
theorem W6_arg1 (c : Dev nD) : W6 m ρ c (Proc.devRef .tc main_arg1) = m ((c : Thread nD τ).loc main_arg1) :=
  (tail_arg1 (W5 m ρ c)).trans ((W5_of_ne m ρ c _ (by decide) (by decide)).trans ((congrFun (W4_eq m ρ c) _).trans (pre4_arg1 (W0 m ρ c))))

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W6_arg0 m ρ c), (h c _ (mem_uc main_arg1 (by decide))).trans (W6_arg1 m ρ c)⟩) (run_main m ρ)

end Cert.KernelIdeal.KF

end
-- ==== Proof.KernelIdeal.Flush.lean ====
/-
  From the result windows' blocks to the two result arrays. A result window is written back exactly at the points whose
  column tile is 15, the last of a row tile; the block written at point t is rows (t / 16) · 512 … (t / 16) · 512 + 511
  of the array, and it holds the accumulator after point t. Every row R of the array lies in the block of the point
  (R / 512) · 16 + 15, so after the run each array is, row by row, its row tile's final accumulator.
-/
import proofs.«161518_j12833362280505_1_alg».proof.Proof.KernelIdeal.Body
import Idealize.ShloMosaic.Lib.Pipeline.Value

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (V : (c : Dev nD) → (b : Ref sig .tc) → Buf (Elt F) ((c : Thread nD τ).loc b))

/-! ## Result window 2 -/

/-- The block index of result window 2 along the rows is the row tile, and 0 along the one column. -/
theorem idx0_2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- What a point whose column tile is 15 writes back is its row tile's 512 rows of the result: row r of the block is
    row (t / 16) · 512 + r of the array, whose accumulator point (t / 16) · 16 + 15 is t itself. -/
theorem flushed2_eq (c : Dev nD) (t : Fin cfg0.N) (hf : (cfg0.win 2).flush t = true) :
    (dat V c).flushed 2 t = ((cfg0.win 2).blk t).view.read (Elt F) (KerSpec.out0 (AM V c)) := by
  have hN : t.val < 256 := lt_of_lt_of_eq t.isLt N_0
  have h15 : t.val % 16 = 15 := (flush0_2 t).mp hf
  obtain ⟨h0, h1⟩ := idx0_2 t
  show (cfg0.win 2).cut (grid0.coords t) ((dat V c).after 2 t) = _
  rw [after0_2]
  funext y
  rw [View.read_apply]
  have hy0 : (y 0).val < 512 := (y 0).isLt
  have hy1 : (y 1).val < 1 := (y 1).isLt
  have key : ∀ (n n' : ℕ) (j j' : S512x1.Idx), n = n' → j = j' →
      KerSpec.accTot (AM V c) n j = KerSpec.accTot (AM V c) n' j' := by
    intro n n' j j' e1 e2; rw [e1, e2]
  show KerSpec.accTot (AM V c) t.val ((cfg0.win 2).xinj (grid0.coords t) y)
    = KerSpec.out0 (AM V c) (((cfg0.win 2).blk t).view.emb y)
  unfold KerSpec.out0
  refine key _ _ _ _ ?_ ?_
  · show t.val = (win0_2.index t (0 : Fin 2) * 512 + 1 * (y 0).val) / 512 * 16 + 15
    rw [h0]; omega
  · funext a
    apply Fin.ext
    match a with
    | ⟨0, _⟩ =>
      show (y 0).val = (win0_2.index t (0 : Fin 2) * 512 + 1 * (y 0).val) % 512
      rw [h0]; omega
    | ⟨1, _⟩ =>
      show (y 1).val = 0
      omega

/-- An index of the array is in point t's block iff each coordinate is in the block's range on its axis. -/
theorem mem_blk2 (t : Fin cfg0.N) (i : S8192x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v13_0).slice (win0_2.rect t)).set ↔ _
  rw [View.set_slice_whole, Rect.mem_set_unit]
  exact Iff.rfl

/-- Every row of the array is written back: row R by the last point of its row tile, (R / 512) · 16 + 15. -/
theorem cover2 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 256 := N_0
  obtain ⟨t, ht⟩ : ∃ t : Fin cfg0.N, t.val = (i 0).val / 512 * 16 + 15 := ⟨⟨_, by rw [hN]; omega⟩, rfl⟩
  obtain ⟨h0, h1⟩ := idx0_2 t
  refine ⟨t, (flush0_2 t).mpr (by omega), ?_⟩
  rw [mem_blk2]
  intro a
  match a with
  | ⟨0, _⟩ =>
    show win0_2.index t (0 : Fin 2) * 512 ≤ (i 0).val ∧ (i 0).val < win0_2.index t (0 : Fin 2) * 512 + 512
    rw [h0]; omega
  | ⟨1, _⟩ =>
    show win0_2.index t (1 : Fin 2) * 1 ≤ (i 1).val ∧ (i 1).val < win0_2.index t (1 : Fin 2) * 1 + 1
    rw [h1]; omega

/-- The array after the run. -/
theorem arrAt2_eq (c : Dev nD) : (dat V c).arrAt 2 cfg0.N = KerSpec.out0 (AM V c) :=
  (dat V c).arrAt_eq_of_cover 2 (KerSpec.out0 (AM V c)) (flushed2_eq V c) cover2

/-! ## Result window 3 -/

/-- The block index of result window 3 along the rows is the row tile, and 0 along the one column. -/
theorem idx0_3 : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- What a point whose column tile is 15 writes back is its row tile's 512 rows of the result: row r of the block is
    row (t / 16) · 512 + r of the array, whose accumulator point (t / 16) · 16 + 15 is t itself. -/
theorem flushed3_eq (c : Dev nD) (t : Fin cfg0.N) (hf : (cfg0.win 3).flush t = true) :
    (dat V c).flushed 3 t = ((cfg0.win 3).blk t).view.read (Elt F) (KerSpec.out1 (AM V c)) := by
  have hN : t.val < 256 := lt_of_lt_of_eq t.isLt N_0
  have h15 : t.val % 16 = 15 := (flush0_3 t).mp hf
  obtain ⟨h0, h1⟩ := idx0_3 t
  show (cfg0.win 3).cut (grid0.coords t) ((dat V c).after 3 t) = _
  rw [after0_3]
  funext y
  rw [View.read_apply]
  have hy0 : (y 0).val < 512 := (y 0).isLt
  have hy1 : (y 1).val < 1 := (y 1).isLt
  have key : ∀ (n n' : ℕ) (j j' : S512x1.Idx), n = n' → j = j' →
      KerSpec.accPos (AM V c) n j = KerSpec.accPos (AM V c) n' j' := by
    intro n n' j j' e1 e2; rw [e1, e2]
  show KerSpec.accPos (AM V c) t.val ((cfg0.win 3).xinj (grid0.coords t) y)
    = KerSpec.out1 (AM V c) (((cfg0.win 3).blk t).view.emb y)
  unfold KerSpec.out1
  refine key _ _ _ _ ?_ ?_
  · show t.val = (win0_3.index t (0 : Fin 2) * 512 + 1 * (y 0).val) / 512 * 16 + 15
    rw [h0]; omega
  · funext a
    apply Fin.ext
    match a with
    | ⟨0, _⟩ =>
      show (y 0).val = (win0_3.index t (0 : Fin 2) * 512 + 1 * (y 0).val) % 512
      rw [h0]; omega
    | ⟨1, _⟩ =>
      show (y 1).val = 0
      omega

/-- An index of the array is in point t's block iff each coordinate is in the block's range on its axis. -/
theorem mem_blk3 (t : Fin cfg0.N) (i : S8192x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v13_1).slice (win0_3.rect t)).set ↔ _
  rw [View.set_slice_whole, Rect.mem_set_unit]
  exact Iff.rfl

/-- Every row of the array is written back: row R by the last point of its row tile, (R / 512) · 16 + 15. -/
theorem cover3 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 256 := N_0
  obtain ⟨t, ht⟩ : ∃ t : Fin cfg0.N, t.val = (i 0).val / 512 * 16 + 15 := ⟨⟨_, by rw [hN]; omega⟩, rfl⟩
  obtain ⟨h0, h1⟩ := idx0_3 t
  refine ⟨t, (flush0_3 t).mpr (by omega), ?_⟩
  rw [mem_blk3]
  intro a
  match a with
  | ⟨0, _⟩ =>
    show win0_3.index t (0 : Fin 2) * 512 ≤ (i 0).val ∧ (i 0).val < win0_3.index t (0 : Fin 2) * 512 + 512
    rw [h0]; omega
  | ⟨1, _⟩ =>
    show win0_3.index t (1 : Fin 2) * 1 ≤ (i 1).val ∧ (i 1).val < win0_3.index t (1 : Fin 2) * 1 + 1
    rw [h1]; omega

/-- The array after the run. -/
theorem arrAt3_eq (c : Dev nD) : (dat V c).arrAt 3 cfg0.N = KerSpec.out1 (AM V c) :=
  (dat V c).arrAt_eq_of_cover 3 (KerSpec.out1 (AM V c)) (flushed3_eq V c) cover3

end Cert.KernelIdeal.KF

end
-- ==== Proof.KernelIdeal.Value.lean ====
/-
  The kernel program's result. After the run the result buffer holds the last stretch's operations applied to the
  two arrays the region wrote — the two accumulators' final contents over the flattened, normalised feature
  matrix — and to the two normalised inputs: the term KerTerm.out of the argument arrays.
-/
import proofs.«161518_j12833362280505_1_alg».proof.Proof.KernelIdeal.Frame
import proofs.«161518_j12833362280505_1_alg».proof.Proof.KernelIdeal.Flush

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem AM_eq (c : Dev nD) : AM (V4 m ρ) c
    = KerTerm.flat (KerTerm.cat (KerTerm.nrm (m ((c : Thread nD τ).loc main_arg0))) (KerTerm.nrm (m ((c : Thread nD τ).loc main_arg1)))) :=
  (congrFun (W4_eq m ρ c) _).trans (pre4_v12 (W0 m ρ c))

theorem W6_v25 (c : Dev nD) : W6 m ρ c (Proc.devRef .tc main_v25)
    = KerTerm.out (m ((c : Thread nD τ).loc main_arg0)) (m ((c : Thread nD τ).loc main_arg1)) := by
  refine (tail_v25 (W5 m ρ c)).trans ?_
  rw [show W5 m ρ c (Proc.devRef .tc main_v13_0) = (dat (V4 m ρ) c).arrAt 2 cfg0.N from W5_r130 m ρ c,
    show W5 m ρ c (Proc.devRef .tc main_v13_1) = (dat (V4 m ρ) c).arrAt 3 cfg0.N from W5_r131 m ρ c,
    W5_of_ne m ρ c (Proc.devRef .tc main_v4) (by decide) (by decide), W5_of_ne m ρ c (Proc.devRef .tc main_v9) (by decide) (by decide),
    arrAt2_eq, arrAt3_eq, AM_eq,
    show W4 m ρ c (Proc.devRef .tc main_v4) = KerTerm.nrm (m ((c : Thread nD τ).loc main_arg0)) from (congrFun (W4_eq m ρ c) _).trans (pre4_v4 (W0 m ρ c)),
    show W4 m ρ c (Proc.devRef .tc main_v9) = KerTerm.nrm (m ((c : Thread nD τ).loc main_arg1)) from (congrFun (W4_eq m ρ c) _).trans (pre4_v9 (W0 m ρ c))]
  rfl

/-- Every weakly fair execution of @main terminates, nothing faulting, with the result buffer at `KerTerm.out` of the
    argument arrays and both argument arrays as launched. -/
theorem run_value : θ_run defs (onTc (τ := τ) (main (F := F))) ⟨m, fun _ => 0, ρ⟩ (fun r => ∀ c : Dev nD,
      r.2.mem ((c.tc : Thread nD τ).loc main_v25) = KerTerm.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v25 (by decide))).trans (W6_v25 m ρ c),
     (h c _ (mem_uc main_arg0 (by decide))).trans (W6_arg0 m ρ c), (h c _ (mem_uc main_arg1 (by decide))).trans (W6_arg1 m ρ c)⟩) (run_main m ρ)

end Cert.KernelIdeal.KF

end
-- ==== Proof.RefOps.lean ====
import proofs.«161518_j12833362280505_1_alg».proof.Proof.Gen.ReferenceIdeal
import Idealize.ShloMosaic.Lib.StableHlo.Run

/-!
The reference program as a straight line: its 117 operations in program order, each call of a
module-local function replaced by the function's own operations over that call's buffers.
-/

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The program's operations, in order. -/
abbrev ops : List (HloOp τ sig (Elt F)) :=
  [ StableHlo.TRef.binary (.of main_arg0 : StableHlo.TRef sig ⟨S64x64x128, .f32⟩) (.of main_arg0 : StableHlo.TRef sig ⟨S64x64x128, .f32⟩) main_call0.v0 mulf,
    StableHlo.TRef.nullary main_call0.cst (constant S_ .f32 0x00000000#32),
    StableHlo.TRef.binary main_call0.v0 main_call0.cst main_call0.v1 (fun x v => Host.reduceAdd x v reducesTo_S64x64x128_S64x64_d2 h_S_),
    StableHlo.TRef.unary main_call0.v1 main_call0.v2 (broadcastInDim S64x64x1 ![0, 1] bcast_S64x64_S64x64x1_0_1),
    StableHlo.TRef.unary main_call0.v2 main_call0.v3 Host.sqrt,
    StableHlo.nullary main_cst (constant S_ .f32 0x2B8CBCCC#32),
    StableHlo.unary main_cst main_v1 (broadcastInDim S64x64x1 ![] bcast_S_S64x64x1 : (⟨S_, .f32⟩ : BufTy).Contents (Elt F) → (⟨S64x64x1, .f32⟩ : BufTy).Contents (Elt F)),
    StableHlo.binary main_v0 main_v1 main_v2 (maximumf : (⟨S64x64x1, .f32⟩ : BufTy).Contents (Elt F) → (⟨S64x64x1, .f32⟩ : BufTy).Contents (Elt F) → (⟨S64x64x1, .f32⟩ : BufTy).Contents (Elt F)),
    StableHlo.unary main_v2 main_v3 (broadcastInDim S64x64x128 ![0, 1, 2] bcast_S64x64x1_S64x64x128_0_1_2 : (⟨S64x64x1, .f32⟩ : BufTy).Contents (Elt F) → (⟨S64x64x128, .f32⟩ : BufTy).Contents (Elt F)),
    StableHlo.binary main_arg0 main_v3 main_v4 (Host.divf : (⟨S64x64x128, .f32⟩ : BufTy).Contents (Elt F) → (⟨S64x64x128, .f32⟩ : BufTy).Contents (Elt F) → (⟨S64x64x128, .f32⟩ : BufTy).Contents (Elt F)),
    StableHlo.TRef.binary (.of main_arg1 : StableHlo.TRef sig ⟨S64x64x128, .f32⟩) (.of main_arg1 : StableHlo.TRef sig ⟨S64x64x128, .f32⟩) main_call1.v0 mulf,
    StableHlo.TRef.nullary main_call1.cst (constant S_ .f32 0x00000000#32),
    StableHlo.TRef.binary main_call1.v0 main_call1.cst main_call1.v1 (fun x v => Host.reduceAdd x v reducesTo_S64x64x128_S64x64_d2 h_S_),
    StableHlo.TRef.unary main_call1.v1 main_call1.v2 (broadcastInDim S64x64x1 ![0, 1] bcast_S64x64_S64x64x1_0_1),
    StableHlo.TRef.unary main_call1.v2 main_call1.v3 Host.sqrt,
    StableHlo.nullary main_cst_0 (constant S_ .f32 0x2B8CBCCC#32),
    StableHlo.unary main_cst_0 main_v6 (broadcastInDim S64x64x1 ![] bcast_S_S64x64x1 : (⟨S_, .f32⟩ : BufTy).Contents (Elt F) → (⟨S64x64x1, .f32⟩ : BufTy).Contents (Elt F)),
    StableHlo.binary main_v5 main_v6 main_v7 (maximumf : (⟨S64x64x1, .f32⟩ : BufTy).Contents (Elt F) → (⟨S64x64x1, .f32⟩ : BufTy).Contents (Elt F) → (⟨S64x64x1, .f32⟩ : BufTy).Contents (Elt F)),
    StableHlo.unary main_v7 main_v8 (broadcastInDim S64x64x128 ![0, 1, 2] bcast_S64x64x1_S64x64x128_0_1_2 : (⟨S64x64x1, .f32⟩ : BufTy).Contents (Elt F) → (⟨S64x64x128, .f32⟩ : BufTy).Contents (Elt F)),
    StableHlo.binary main_arg1 main_v8 main_v9 (Host.divf : (⟨S64x64x128, .f32⟩ : BufTy).Contents (Elt F) → (⟨S64x64x128, .f32⟩ : BufTy).Contents (Elt F) → (⟨S64x64x128, .f32⟩ : BufTy).Contents (Elt F)),
    StableHlo.binary main_v4 main_v9 main_v10 ((fun a b => concatenate S128x64x128 0 [⟨S64x64x128, a⟩, ⟨S64x64x128, b⟩] concatenates_S64x64x128_S64x64x128_S128x64x128_d0) : (⟨S64x64x128, .f32⟩ : BufTy).Contents (Elt F) → (⟨S64x64x128, .f32⟩ : BufTy).Contents (Elt F) → (⟨S128x64x128, .f32⟩ : BufTy).Contents (Elt F)),
    StableHlo.binary main_v10 main_v10 main_v11 ((fun l r => Host.dotGeneral dot_S128x64x128_S128x64x128_S128x64x128x64_2_2_01_01_n_n none l r) : (⟨S128x64x128, .f32⟩ : BufTy).Contents (Elt F) → (⟨S128x64x128, .f32⟩ : BufTy).Contents (Elt F) → (⟨S128x64x128x64, .f32⟩ : BufTy).Contents (Elt F)),
    StableHlo.unary main_v11 main_v12 (Host.exp : (⟨S128x64x128x64, .f32⟩ : BufTy).Contents (Elt F) → (⟨S128x64x128x64, .f32⟩ : BufTy).Contents (Elt F)),
    StableHlo.nullary main_cst_1 (constant S_ .f32 0x00000000#32),
    StableHlo.binary main_v12 main_cst_1 main_v13 ((fun x v => Host.reduceAdd x v reducesTo_S128x64x128x64_S128x64_d2_3 h_S_) : (⟨S128x64x128x64, .f32⟩ : BufTy).Contents (Elt F) → (⟨S_, .f32⟩ : BufTy).Contents (Elt F) → (⟨S128x64, .f32⟩ : BufTy).Contents (Elt F)),
    StableHlo.nullary main_v14 (iotaInDim S128 32 0),
    StableHlo.nullary main_c (constantI S_ 32 0#32),
    StableHlo.unary main_c main_v15 (broadcastInDim S128 ![] bcast_S_S128 : (⟨S_, .i32⟩ : BufTy).Contents (Elt F) → (⟨S128, .i32⟩ : BufTy).Contents (Elt F)),
    StableHlo.binary main_v14 main_v15 main_v16 (cmpi .slt : (⟨S128, .i32⟩ : BufTy).Contents (Elt F) → (⟨S128, .i32⟩ : BufTy).Contents (Elt F) → (⟨S128, .i1⟩ : BufTy).Contents (Elt F)),
    StableHlo.nullary main_c_2 (constantI S_ 32 128#32),
    StableHlo.unary main_c_2 main_v17 (broadcastInDim S128 ![] bcast_S_S128 : (⟨S_, .i32⟩ : BufTy).Contents (Elt F) → (⟨S128, .i32⟩ : BufTy).Contents (Elt F)),
    StableHlo.binary main_v14 main_v17 main_v18 (addi : (⟨S128, .i32⟩ : BufTy).Contents (Elt F) → (⟨S128, .i32⟩ : BufTy).Contents (Elt F) → (⟨S128, .i32⟩ : BufTy).Contents (Elt F)),
    StableHlo.ternary main_v16 main_v18 main_v14 main_v19 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_c_3 (constantI S_ 32 0#32),
    StableHlo.unary main_c_3 main_v20 (broadcastInDim S128 ![] bcast_S_S128 : (⟨S_, .i32⟩ : BufTy).Contents (Elt F) → (⟨S128, .i32⟩ : BufTy).Contents (Elt F)),
    StableHlo.binary main_v14 main_v20 main_v21 (cmpi .slt : (⟨S128, .i32⟩ : BufTy).Contents (Elt F) → (⟨S128, .i32⟩ : BufTy).Contents (Elt F) → (⟨S128, .i1⟩ : BufTy).Contents (Elt F)),
    StableHlo.nullary main_c_4 (constantI S_ 32 128#32),
    StableHlo.unary main_c_4 main_v22 (broadcastInDim S128 ![] bcast_S_S128 : (⟨S_, .i32⟩ : BufTy).Contents (Elt F) → (⟨S128, .i32⟩ : BufTy).Contents (Elt F)),
    StableHlo.binary main_v14 main_v22 main_v23 (addi : (⟨S128, .i32⟩ : BufTy).Contents (Elt F) → (⟨S128, .i32⟩ : BufTy).Contents (Elt F) → (⟨S128, .i32⟩ : BufTy).Contents (Elt F)),
    StableHlo.ternary main_v21 main_v23 main_v14 main_v24 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v19 main_v25 (broadcastInDim S128x1 ![0] bcast_S128_S128x1_0 : (⟨S128, .i32⟩ : BufTy).Contents (Elt F) → (⟨S128x1, .i32⟩ : BufTy).Contents (Elt F)),
    StableHlo.unary main_v24 main_v26 (broadcastInDim S128x1 ![0] bcast_S128_S128x1_0 : (⟨S128, .i32⟩ : BufTy).Contents (Elt F) → (⟨S128x1, .i32⟩ : BufTy).Contents (Elt F)),
    StableHlo.binary main_v25 main_v26 main_v27 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    StableHlo.binary main_v12 main_v27 main_v28 ((fun x i => Host.gather gather_S128x64x128x64_S128x2_S128x64x64_12_02_n_n_02_1_164164 x i) : (⟨S128x64x128x64, .f32⟩ : BufTy).Contents (Elt F) → (⟨S128x2, .i32⟩ : BufTy).Contents (Elt F) → (⟨S128x64x64, .f32⟩ : BufTy).Contents (Elt F)),
    StableHlo.nullary main_cst_5 (constant S_ .f32 0x00000000#32),
    StableHlo.binary main_v28 main_cst_5 main_v29 ((fun x v => Host.reduceAdd x v reducesTo_S128x64x64_S128x64_d2 h_S_) : (⟨S128x64x64, .f32⟩ : BufTy).Contents (Elt F) → (⟨S_, .f32⟩ : BufTy).Contents (Elt F) → (⟨S128x64, .f32⟩ : BufTy).Contents (Elt F)),
    StableHlo.nullary main_c_6 (constantI S_ 32 64#32),
    StableHlo.unary main_c_6 main_v30 (broadcastInDim S128 ![] bcast_S_S128 : (⟨S_, .i32⟩ : BufTy).Contents (Elt F) → (⟨S128, .i32⟩ : BufTy).Contents (Elt F)),
    StableHlo.binary main_v30 main_v14 main_v31 (addi : (⟨S128, .i32⟩ : BufTy).Contents (Elt F) → (⟨S128, .i32⟩ : BufTy).Contents (Elt F) → (⟨S128, .i32⟩ : BufTy).Contents (Elt F)),
    StableHlo.nullary main_c_7 (constantI S_ 32 128#32),
    StableHlo.TRef.unary (.of main_c_7 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S128 ![] bcast_S_S128),
    StableHlo.TRef.binary (.of main_v31 : StableHlo.TRef sig ⟨S128, .i32⟩) main_call2.v3 main_call2.v4 Host.remsi,
    StableHlo.TRef.nullary main_call2.c_1 (constantI S_ 32 0#32),
    StableHlo.TRef.unary main_call2.c_1 main_call2.v5 (broadcastInDim S128 ![] bcast_S_S128),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S128 ![] bcast_S_S128),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S128 ![] bcast_S_S128),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S128 ![] bcast_S_S128),
    StableHlo.TRef.binary main_call2.v4 main_call2.v13 main_call2.v14 addi,
    StableHlo.TRef.ternary main_call2.v12 main_call2.v14 main_call2.v4 main_call2.v15 select,
    StableHlo.nullary main_c_8 (constantI S_ 32 0#32),
    StableHlo.unary main_c_8 main_v33 (broadcastInDim S128 ![] bcast_S_S128 : (⟨S_, .i32⟩ : BufTy).Contents (Elt F) → (⟨S128, .i32⟩ : BufTy).Contents (Elt F)),
    StableHlo.binary main_v14 main_v33 main_v34 (cmpi .slt : (⟨S128, .i32⟩ : BufTy).Contents (Elt F) → (⟨S128, .i32⟩ : BufTy).Contents (Elt F) → (⟨S128, .i1⟩ : BufTy).Contents (Elt F)),
    StableHlo.nullary main_c_9 (constantI S_ 32 128#32),
    StableHlo.unary main_c_9 main_v35 (broadcastInDim S128 ![] bcast_S_S128 : (⟨S_, .i32⟩ : BufTy).Contents (Elt F) → (⟨S128, .i32⟩ : BufTy).Contents (Elt F)),
    StableHlo.binary main_v14 main_v35 main_v36 (addi : (⟨S128, .i32⟩ : BufTy).Contents (Elt F) → (⟨S128, .i32⟩ : BufTy).Contents (Elt F) → (⟨S128, .i32⟩ : BufTy).Contents (Elt F)),
    StableHlo.ternary main_v34 main_v36 main_v14 main_v37 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_c_10 (constantI S_ 32 0#32),
    StableHlo.unary main_c_10 main_v38 (broadcastInDim S128 ![] bcast_S_S128 : (⟨S_, .i32⟩ : BufTy).Contents (Elt F) → (⟨S128, .i32⟩ : BufTy).Contents (Elt F)),
    StableHlo.binary main_v32 main_v38 main_v39 (cmpi .slt : (⟨S128, .i32⟩ : BufTy).Contents (Elt F) → (⟨S128, .i32⟩ : BufTy).Contents (Elt F) → (⟨S128, .i1⟩ : BufTy).Contents (Elt F)),
    StableHlo.nullary main_c_11 (constantI S_ 32 128#32),
    StableHlo.unary main_c_11 main_v40 (broadcastInDim S128 ![] bcast_S_S128 : (⟨S_, .i32⟩ : BufTy).Contents (Elt F) → (⟨S128, .i32⟩ : BufTy).Contents (Elt F)),
    StableHlo.binary main_v32 main_v40 main_v41 (addi : (⟨S128, .i32⟩ : BufTy).Contents (Elt F) → (⟨S128, .i32⟩ : BufTy).Contents (Elt F) → (⟨S128, .i32⟩ : BufTy).Contents (Elt F)),
    StableHlo.ternary main_v39 main_v41 main_v32 main_v42 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v37 main_v43 (broadcastInDim S128x1 ![0] bcast_S128_S128x1_0 : (⟨S128, .i32⟩ : BufTy).Contents (Elt F) → (⟨S128x1, .i32⟩ : BufTy).Contents (Elt F)),
    StableHlo.unary main_v42 main_v44 (broadcastInDim S128x1 ![0] bcast_S128_S128x1_0 : (⟨S128, .i32⟩ : BufTy).Contents (Elt F) → (⟨S128x1, .i32⟩ : BufTy).Contents (Elt F)),
    StableHlo.binary main_v43 main_v44 main_v45 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    StableHlo.binary main_v12 main_v45 main_v46 ((fun x i => Host.gather gather_S128x64x128x64_S128x2_S128x64x64_12_02_n_n_02_1_164164 x i) : (⟨S128x64x128x64, .f32⟩ : BufTy).Contents (Elt F) → (⟨S128x2, .i32⟩ : BufTy).Contents (Elt F) → (⟨S128x64x64, .f32⟩ : BufTy).Contents (Elt F)),
    StableHlo.TRef.nullary main_call3.v0 (iotaInDim S64 32 0),
    StableHlo.TRef.nullary main_call3.v1 (iotaInDim S64 32 0),
    StableHlo.TRef.nullary main_call3.c (constantI S_ 32 0#32),
    StableHlo.TRef.unary main_call3.c main_call3.v2 (broadcastInDim S64 ![] bcast_S_S64),
    StableHlo.TRef.binary main_call3.v0 main_call3.v2 main_call3.v3 (cmpi .slt),
    StableHlo.TRef.nullary main_call3.c_0 (constantI S_ 32 64#32),
    StableHlo.TRef.unary main_call3.c_0 main_call3.v4 (broadcastInDim S64 ![] bcast_S_S64),
    StableHlo.TRef.binary main_call3.v0 main_call3.v4 main_call3.v5 addi,
    StableHlo.TRef.ternary main_call3.v3 main_call3.v5 main_call3.v0 main_call3.v6 select,
    StableHlo.TRef.nullary main_call3.c_1 (constantI S_ 32 0#32),
    StableHlo.TRef.unary main_call3.c_1 main_call3.v7 (broadcastInDim S64 ![] bcast_S_S64),
    StableHlo.TRef.binary main_call3.v1 main_call3.v7 main_call3.v8 (cmpi .slt),
    StableHlo.TRef.nullary main_call3.c_2 (constantI S_ 32 64#32),
    StableHlo.TRef.unary main_call3.c_2 main_call3.v9 (broadcastInDim S64 ![] bcast_S_S64),
    StableHlo.TRef.binary main_call3.v1 main_call3.v9 main_call3.v10 addi,
    StableHlo.TRef.ternary main_call3.v8 main_call3.v10 main_call3.v1 main_call3.v11 select,
    StableHlo.TRef.unary main_call3.v6 main_call3.v12 (broadcastInDim S64x1 ![0] bcast_S64_S64x1_0),
    StableHlo.TRef.unary main_call3.v11 main_call3.v13 (broadcastInDim S64x1 ![0] bcast_S64_S64x1_0),
    StableHlo.TRef.binary main_call3.v12 main_call3.v13 main_call3.v14 (fun a b => concatenate S64x2 1 [⟨S64x1, a⟩, ⟨S64x1, b⟩] concatenates_S64x1_S64x1_S64x2_d1),
    StableHlo.TRef.binary (.of main_v46 : StableHlo.TRef sig ⟨S128x64x64, .f32⟩) main_call3.v14 main_call3.v15 (fun x i => Host.gather gather_S128x64x64_S64x2_S128x64_0_12_n_n_12_1_12811 x i),
    StableHlo.binary main_v29 main_v47 main_v48 (addf : (⟨S128x64, .f32⟩ : BufTy).Contents (Elt F) → (⟨S128x64, .f32⟩ : BufTy).Contents (Elt F) → (⟨S128x64, .f32⟩ : BufTy).Contents (Elt F)),
    StableHlo.binary main_v48 main_v13 main_v49 (Host.divf : (⟨S128x64, .f32⟩ : BufTy).Contents (Elt F) → (⟨S128x64, .f32⟩ : BufTy).Contents (Elt F) → (⟨S128x64, .f32⟩ : BufTy).Contents (Elt F)),
    StableHlo.unary main_v49 main_v50 (Host.log : (⟨S128x64, .f32⟩ : BufTy).Contents (Elt F) → (⟨S128x64, .f32⟩ : BufTy).Contents (Elt F)),
    StableHlo.unary main_v50 main_v51 (Host.negf : (⟨S128x64, .f32⟩ : BufTy).Contents (Elt F) → (⟨S128x64, .f32⟩ : BufTy).Contents (Elt F)),
    StableHlo.nullary main_cst_12 (constant S_ .f32 0x00000000#32),
    StableHlo.binary main_v51 main_cst_12 main_v52 ((fun x v => Host.reduceAdd x v reducesTo_S128x64_S_d0_1 h_S_) : (⟨S128x64, .f32⟩ : BufTy).Contents (Elt F) → (⟨S_, .f32⟩ : BufTy).Contents (Elt F) → (⟨S_, .f32⟩ : BufTy).Contents (Elt F)),
    StableHlo.nullary main_cst_13 (constant S_ .f32 0x46000000#32),
    StableHlo.binary main_v52 main_cst_13 main_v53 (Host.divf : (⟨S_, .f32⟩ : BufTy).Contents (Elt F) → (⟨S_, .f32⟩ : BufTy).Contents (Elt F) → (⟨S_, .f32⟩ : BufTy).Contents (Elt F)) ]

/-- Stretch 1 of 8: 10 operations, the last writing `main_v4`. -/
abbrev ops_a : List (HloOp τ sig (Elt F)) :=
  [ StableHlo.TRef.binary (.of main_arg0 : StableHlo.TRef sig ⟨S64x64x128, .f32⟩) (.of main_arg0 : StableHlo.TRef sig ⟨S64x64x128, .f32⟩) main_call0.v0 mulf,
    StableHlo.TRef.nullary main_call0.cst (constant S_ .f32 0x00000000#32),
    StableHlo.TRef.binary main_call0.v0 main_call0.cst main_call0.v1 (fun x v => Host.reduceAdd x v reducesTo_S64x64x128_S64x64_d2 h_S_),
    StableHlo.TRef.unary main_call0.v1 main_call0.v2 (broadcastInDim S64x64x1 ![0, 1] bcast_S64x64_S64x64x1_0_1),
    StableHlo.TRef.unary main_call0.v2 main_call0.v3 Host.sqrt,
    StableHlo.nullary main_cst (constant S_ .f32 0x2B8CBCCC#32),
    StableHlo.unary main_cst main_v1 (broadcastInDim S64x64x1 ![] bcast_S_S64x64x1 : (⟨S_, .f32⟩ : BufTy).Contents (Elt F) → (⟨S64x64x1, .f32⟩ : BufTy).Contents (Elt F)),
    StableHlo.binary main_v0 main_v1 main_v2 (maximumf : (⟨S64x64x1, .f32⟩ : BufTy).Contents (Elt F) → (⟨S64x64x1, .f32⟩ : BufTy).Contents (Elt F) → (⟨S64x64x1, .f32⟩ : BufTy).Contents (Elt F)),
    StableHlo.unary main_v2 main_v3 (broadcastInDim S64x64x128 ![0, 1, 2] bcast_S64x64x1_S64x64x128_0_1_2 : (⟨S64x64x1, .f32⟩ : BufTy).Contents (Elt F) → (⟨S64x64x128, .f32⟩ : BufTy).Contents (Elt F)),
    StableHlo.binary main_arg0 main_v3 main_v4 (Host.divf : (⟨S64x64x128, .f32⟩ : BufTy).Contents (Elt F) → (⟨S64x64x128, .f32⟩ : BufTy).Contents (Elt F) → (⟨S64x64x128, .f32⟩ : BufTy).Contents (Elt F)) ]

/-- Stretch 2 of 8: 10 operations, the last writing `main_v9`. -/
abbrev ops_b : List (HloOp τ sig (Elt F)) :=
  [ StableHlo.TRef.binary (.of main_arg1 : StableHlo.TRef sig ⟨S64x64x128, .f32⟩) (.of main_arg1 : StableHlo.TRef sig ⟨S64x64x128, .f32⟩) main_call1.v0 mulf,
    StableHlo.TRef.nullary main_call1.cst (constant S_ .f32 0x00000000#32),
    StableHlo.TRef.binary main_call1.v0 main_call1.cst main_call1.v1 (fun x v => Host.reduceAdd x v reducesTo_S64x64x128_S64x64_d2 h_S_),
    StableHlo.TRef.unary main_call1.v1 main_call1.v2 (broadcastInDim S64x64x1 ![0, 1] bcast_S64x64_S64x64x1_0_1),
    StableHlo.TRef.unary main_call1.v2 main_call1.v3 Host.sqrt,
    StableHlo.nullary main_cst_0 (constant S_ .f32 0x2B8CBCCC#32),
    StableHlo.unary main_cst_0 main_v6 (broadcastInDim S64x64x1 ![] bcast_S_S64x64x1 : (⟨S_, .f32⟩ : BufTy).Contents (Elt F) → (⟨S64x64x1, .f32⟩ : BufTy).Contents (Elt F)),
    StableHlo.binary main_v5 main_v6 main_v7 (maximumf : (⟨S64x64x1, .f32⟩ : BufTy).Contents (Elt F) → (⟨S64x64x1, .f32⟩ : BufTy).Contents (Elt F) → (⟨S64x64x1, .f32⟩ : BufTy).Contents (Elt F)),
    StableHlo.unary main_v7 main_v8 (broadcastInDim S64x64x128 ![0, 1, 2] bcast_S64x64x1_S64x64x128_0_1_2 : (⟨S64x64x1, .f32⟩ : BufTy).Contents (Elt F) → (⟨S64x64x128, .f32⟩ : BufTy).Contents (Elt F)),
    StableHlo.binary main_arg1 main_v8 main_v9 (Host.divf : (⟨S64x64x128, .f32⟩ : BufTy).Contents (Elt F) → (⟨S64x64x128, .f32⟩ : BufTy).Contents (Elt F) → (⟨S64x64x128, .f32⟩ : BufTy).Contents (Elt F)) ]

/-- Stretch 3 of 8: 5 operations, the last writing `main_v13`. -/
abbrev ops_c : List (HloOp τ sig (Elt F)) :=
  [ StableHlo.binary main_v4 main_v9 main_v10 ((fun a b => concatenate S128x64x128 0 [⟨S64x64x128, a⟩, ⟨S64x64x128, b⟩] concatenates_S64x64x128_S64x64x128_S128x64x128_d0) : (⟨S64x64x128, .f32⟩ : BufTy).Contents (Elt F) → (⟨S64x64x128, .f32⟩ : BufTy).Contents (Elt F) → (⟨S128x64x128, .f32⟩ : BufTy).Contents (Elt F)),
    StableHlo.binary main_v10 main_v10 main_v11 ((fun l r => Host.dotGeneral dot_S128x64x128_S128x64x128_S128x64x128x64_2_2_01_01_n_n none l r) : (⟨S128x64x128, .f32⟩ : BufTy).Contents (Elt F) → (⟨S128x64x128, .f32⟩ : BufTy).Contents (Elt F) → (⟨S128x64x128x64, .f32⟩ : BufTy).Contents (Elt F)),
    StableHlo.unary main_v11 main_v12 (Host.exp : (⟨S128x64x128x64, .f32⟩ : BufTy).Contents (Elt F) → (⟨S128x64x128x64, .f32⟩ : BufTy).Contents (Elt F)),
    StableHlo.nullary main_cst_1 (constant S_ .f32 0x00000000#32),
    StableHlo.binary main_v12 main_cst_1 main_v13 ((fun x v => Host.reduceAdd x v reducesTo_S128x64x128x64_S128x64_d2_3 h_S_) : (⟨S128x64x128x64, .f32⟩ : BufTy).Contents (Elt F) → (⟨S_, .f32⟩ : BufTy).Contents (Elt F) → (⟨S128x64, .f32⟩ : BufTy).Contents (Elt F)) ]

/-- Stretch 4 of 8: 21 operations, the last writing `main_v29`. -/
abbrev ops_d : List (HloOp τ sig (Elt F)) :=
  [ StableHlo.nullary main_v14 (iotaInDim S128 32 0),
    StableHlo.nullary main_c (constantI S_ 32 0#32),
    StableHlo.unary main_c main_v15 (broadcastInDim S128 ![] bcast_S_S128 : (⟨S_, .i32⟩ : BufTy).Contents (Elt F) → (⟨S128, .i32⟩ : BufTy).Contents (Elt F)),
    StableHlo.binary main_v14 main_v15 main_v16 (cmpi .slt : (⟨S128, .i32⟩ : BufTy).Contents (Elt F) → (⟨S128, .i32⟩ : BufTy).Contents (Elt F) → (⟨S128, .i1⟩ : BufTy).Contents (Elt F)),
    StableHlo.nullary main_c_2 (constantI S_ 32 128#32),
    StableHlo.unary main_c_2 main_v17 (broadcastInDim S128 ![] bcast_S_S128 : (⟨S_, .i32⟩ : BufTy).Contents (Elt F) → (⟨S128, .i32⟩ : BufTy).Contents (Elt F)),
    StableHlo.binary main_v14 main_v17 main_v18 (addi : (⟨S128, .i32⟩ : BufTy).Contents (Elt F) → (⟨S128, .i32⟩ : BufTy).Contents (Elt F) → (⟨S128, .i32⟩ : BufTy).Contents (Elt F)),
    StableHlo.ternary main_v16 main_v18 main_v14 main_v19 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_c_3 (constantI S_ 32 0#32),
    StableHlo.unary main_c_3 main_v20 (broadcastInDim S128 ![] bcast_S_S128 : (⟨S_, .i32⟩ : BufTy).Contents (Elt F) → (⟨S128, .i32⟩ : BufTy).Contents (Elt F)),
    StableHlo.binary main_v14 main_v20 main_v21 (cmpi .slt : (⟨S128, .i32⟩ : BufTy).Contents (Elt F) → (⟨S128, .i32⟩ : BufTy).Contents (Elt F) → (⟨S128, .i1⟩ : BufTy).Contents (Elt F)),
    StableHlo.nullary main_c_4 (constantI S_ 32 128#32),
    StableHlo.unary main_c_4 main_v22 (broadcastInDim S128 ![] bcast_S_S128 : (⟨S_, .i32⟩ : BufTy).Contents (Elt F) → (⟨S128, .i32⟩ : BufTy).Contents (Elt F)),
    StableHlo.binary main_v14 main_v22 main_v23 (addi : (⟨S128, .i32⟩ : BufTy).Contents (Elt F) → (⟨S128, .i32⟩ : BufTy).Contents (Elt F) → (⟨S128, .i32⟩ : BufTy).Contents (Elt F)),
    StableHlo.ternary main_v21 main_v23 main_v14 main_v24 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v19 main_v25 (broadcastInDim S128x1 ![0] bcast_S128_S128x1_0 : (⟨S128, .i32⟩ : BufTy).Contents (Elt F) → (⟨S128x1, .i32⟩ : BufTy).Contents (Elt F)),
    StableHlo.unary main_v24 main_v26 (broadcastInDim S128x1 ![0] bcast_S128_S128x1_0 : (⟨S128, .i32⟩ : BufTy).Contents (Elt F) → (⟨S128x1, .i32⟩ : BufTy).Contents (Elt F)),
    StableHlo.binary main_v25 main_v26 main_v27 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    StableHlo.binary main_v12 main_v27 main_v28 ((fun x i => Host.gather gather_S128x64x128x64_S128x2_S128x64x64_12_02_n_n_02_1_164164 x i) : (⟨S128x64x128x64, .f32⟩ : BufTy).Contents (Elt F) → (⟨S128x2, .i32⟩ : BufTy).Contents (Elt F) → (⟨S128x64x64, .f32⟩ : BufTy).Contents (Elt F)),
    StableHlo.nullary main_cst_5 (constant S_ .f32 0x00000000#32),
    StableHlo.binary main_v28 main_cst_5 main_v29 ((fun x v => Host.reduceAdd x v reducesTo_S128x64x64_S128x64_d2 h_S_) : (⟨S128x64x64, .f32⟩ : BufTy).Contents (Elt F) → (⟨S_, .f32⟩ : BufTy).Contents (Elt F) → (⟨S128x64, .f32⟩ : BufTy).Contents (Elt F)) ]

/-- Stretch 5 of 8: 25 operations, the last writing `main_call2.v15`. -/
abbrev ops_e : List (HloOp τ sig (Elt F)) :=
  [ StableHlo.nullary main_c_6 (constantI S_ 32 64#32),
    StableHlo.unary main_c_6 main_v30 (broadcastInDim S128 ![] bcast_S_S128 : (⟨S_, .i32⟩ : BufTy).Contents (Elt F) → (⟨S128, .i32⟩ : BufTy).Contents (Elt F)),
    StableHlo.binary main_v30 main_v14 main_v31 (addi : (⟨S128, .i32⟩ : BufTy).Contents (Elt F) → (⟨S128, .i32⟩ : BufTy).Contents (Elt F) → (⟨S128, .i32⟩ : BufTy).Contents (Elt F)),
    StableHlo.nullary main_c_7 (constantI S_ 32 128#32),
    StableHlo.TRef.unary (.of main_c_7 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S128 ![] bcast_S_S128),
    StableHlo.TRef.binary (.of main_v31 : StableHlo.TRef sig ⟨S128, .i32⟩) main_call2.v3 main_call2.v4 Host.remsi,
    StableHlo.TRef.nullary main_call2.c_1 (constantI S_ 32 0#32),
    StableHlo.TRef.unary main_call2.c_1 main_call2.v5 (broadcastInDim S128 ![] bcast_S_S128),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S128 ![] bcast_S_S128),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S128 ![] bcast_S_S128),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S128 ![] bcast_S_S128),
    StableHlo.TRef.binary main_call2.v4 main_call2.v13 main_call2.v14 addi,
    StableHlo.TRef.ternary main_call2.v12 main_call2.v14 main_call2.v4 main_call2.v15 select ]

/-- Stretch 6 of 8: 17 operations, the last writing `main_v45`. -/
abbrev ops_f : List (HloOp τ sig (Elt F)) :=
  [ StableHlo.nullary main_c_8 (constantI S_ 32 0#32),
    StableHlo.unary main_c_8 main_v33 (broadcastInDim S128 ![] bcast_S_S128 : (⟨S_, .i32⟩ : BufTy).Contents (Elt F) → (⟨S128, .i32⟩ : BufTy).Contents (Elt F)),
    StableHlo.binary main_v14 main_v33 main_v34 (cmpi .slt : (⟨S128, .i32⟩ : BufTy).Contents (Elt F) → (⟨S128, .i32⟩ : BufTy).Contents (Elt F) → (⟨S128, .i1⟩ : BufTy).Contents (Elt F)),
    StableHlo.nullary main_c_9 (constantI S_ 32 128#32),
    StableHlo.unary main_c_9 main_v35 (broadcastInDim S128 ![] bcast_S_S128 : (⟨S_, .i32⟩ : BufTy).Contents (Elt F) → (⟨S128, .i32⟩ : BufTy).Contents (Elt F)),
    StableHlo.binary main_v14 main_v35 main_v36 (addi : (⟨S128, .i32⟩ : BufTy).Contents (Elt F) → (⟨S128, .i32⟩ : BufTy).Contents (Elt F) → (⟨S128, .i32⟩ : BufTy).Contents (Elt F)),
    StableHlo.ternary main_v34 main_v36 main_v14 main_v37 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_c_10 (constantI S_ 32 0#32),
    StableHlo.unary main_c_10 main_v38 (broadcastInDim S128 ![] bcast_S_S128 : (⟨S_, .i32⟩ : BufTy).Contents (Elt F) → (⟨S128, .i32⟩ : BufTy).Contents (Elt F)),
    StableHlo.binary main_v32 main_v38 main_v39 (cmpi .slt : (⟨S128, .i32⟩ : BufTy).Contents (Elt F) → (⟨S128, .i32⟩ : BufTy).Contents (Elt F) → (⟨S128, .i1⟩ : BufTy).Contents (Elt F)),
    StableHlo.nullary main_c_11 (constantI S_ 32 128#32),
    StableHlo.unary main_c_11 main_v40 (broadcastInDim S128 ![] bcast_S_S128 : (⟨S_, .i32⟩ : BufTy).Contents (Elt F) → (⟨S128, .i32⟩ : BufTy).Contents (Elt F)),
    StableHlo.binary main_v32 main_v40 main_v41 (addi : (⟨S128, .i32⟩ : BufTy).Contents (Elt F) → (⟨S128, .i32⟩ : BufTy).Contents (Elt F) → (⟨S128, .i32⟩ : BufTy).Contents (Elt F)),
    StableHlo.ternary main_v39 main_v41 main_v32 main_v42 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v37 main_v43 (broadcastInDim S128x1 ![0] bcast_S128_S128x1_0 : (⟨S128, .i32⟩ : BufTy).Contents (Elt F) → (⟨S128x1, .i32⟩ : BufTy).Contents (Elt F)),
    StableHlo.unary main_v42 main_v44 (broadcastInDim S128x1 ![0] bcast_S128_S128x1_0 : (⟨S128, .i32⟩ : BufTy).Contents (Elt F) → (⟨S128x1, .i32⟩ : BufTy).Contents (Elt F)),
    StableHlo.binary main_v43 main_v44 main_v45 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)) ]

/-- Stretch 7 of 8: 21 operations, the last writing `main_call3.v15`. -/
abbrev ops_g : List (HloOp τ sig (Elt F)) :=
  [ StableHlo.binary main_v12 main_v45 main_v46 ((fun x i => Host.gather gather_S128x64x128x64_S128x2_S128x64x64_12_02_n_n_02_1_164164 x i) : (⟨S128x64x128x64, .f32⟩ : BufTy).Contents (Elt F) → (⟨S128x2, .i32⟩ : BufTy).Contents (Elt F) → (⟨S128x64x64, .f32⟩ : BufTy).Contents (Elt F)),
    StableHlo.TRef.nullary main_call3.v0 (iotaInDim S64 32 0),
    StableHlo.TRef.nullary main_call3.v1 (iotaInDim S64 32 0),
    StableHlo.TRef.nullary main_call3.c (constantI S_ 32 0#32),
    StableHlo.TRef.unary main_call3.c main_call3.v2 (broadcastInDim S64 ![] bcast_S_S64),
    StableHlo.TRef.binary main_call3.v0 main_call3.v2 main_call3.v3 (cmpi .slt),
    StableHlo.TRef.nullary main_call3.c_0 (constantI S_ 32 64#32),
    StableHlo.TRef.unary main_call3.c_0 main_call3.v4 (broadcastInDim S64 ![] bcast_S_S64),
    StableHlo.TRef.binary main_call3.v0 main_call3.v4 main_call3.v5 addi,
    StableHlo.TRef.ternary main_call3.v3 main_call3.v5 main_call3.v0 main_call3.v6 select,
    StableHlo.TRef.nullary main_call3.c_1 (constantI S_ 32 0#32),
    StableHlo.TRef.unary main_call3.c_1 main_call3.v7 (broadcastInDim S64 ![] bcast_S_S64),
    StableHlo.TRef.binary main_call3.v1 main_call3.v7 main_call3.v8 (cmpi .slt),
    StableHlo.TRef.nullary main_call3.c_2 (constantI S_ 32 64#32),
    StableHlo.TRef.unary main_call3.c_2 main_call3.v9 (broadcastInDim S64 ![] bcast_S_S64),
    StableHlo.TRef.binary main_call3.v1 main_call3.v9 main_call3.v10 addi,
    StableHlo.TRef.ternary main_call3.v8 main_call3.v10 main_call3.v1 main_call3.v11 select,
    StableHlo.TRef.unary main_call3.v6 main_call3.v12 (broadcastInDim S64x1 ![0] bcast_S64_S64x1_0),
    StableHlo.TRef.unary main_call3.v11 main_call3.v13 (broadcastInDim S64x1 ![0] bcast_S64_S64x1_0),
    StableHlo.TRef.binary main_call3.v12 main_call3.v13 main_call3.v14 (fun a b => concatenate S64x2 1 [⟨S64x1, a⟩, ⟨S64x1, b⟩] concatenates_S64x1_S64x1_S64x2_d1),
    StableHlo.TRef.binary (.of main_v46 : StableHlo.TRef sig ⟨S128x64x64, .f32⟩) main_call3.v14 main_call3.v15 (fun x i => Host.gather gather_S128x64x64_S64x2_S128x64_0_12_n_n_12_1_12811 x i) ]

/-- Stretch 8 of 8: 8 operations, the last writing `main_v53`. -/
abbrev ops_h : List (HloOp τ sig (Elt F)) :=
  [ StableHlo.binary main_v29 main_v47 main_v48 (addf : (⟨S128x64, .f32⟩ : BufTy).Contents (Elt F) → (⟨S128x64, .f32⟩ : BufTy).Contents (Elt F) → (⟨S128x64, .f32⟩ : BufTy).Contents (Elt F)),
    StableHlo.binary main_v48 main_v13 main_v49 (Host.divf : (⟨S128x64, .f32⟩ : BufTy).Contents (Elt F) → (⟨S128x64, .f32⟩ : BufTy).Contents (Elt F) → (⟨S128x64, .f32⟩ : BufTy).Contents (Elt F)),
    StableHlo.unary main_v49 main_v50 (Host.log : (⟨S128x64, .f32⟩ : BufTy).Contents (Elt F) → (⟨S128x64, .f32⟩ : BufTy).Contents (Elt F)),
    StableHlo.unary main_v50 main_v51 (Host.negf : (⟨S128x64, .f32⟩ : BufTy).Contents (Elt F) → (⟨S128x64, .f32⟩ : BufTy).Contents (Elt F)),
    StableHlo.nullary main_cst_12 (constant S_ .f32 0x00000000#32),
    StableHlo.binary main_v51 main_cst_12 main_v52 ((fun x v => Host.reduceAdd x v reducesTo_S128x64_S_d0_1 h_S_) : (⟨S128x64, .f32⟩ : BufTy).Contents (Elt F) → (⟨S_, .f32⟩ : BufTy).Contents (Elt F) → (⟨S_, .f32⟩ : BufTy).Contents (Elt F)),
    StableHlo.nullary main_cst_13 (constant S_ .f32 0x46000000#32),
    StableHlo.binary main_v52 main_cst_13 main_v53 (Host.divf : (⟨S_, .f32⟩ : BufTy).Contents (Elt F) → (⟨S_, .f32⟩ : BufTy).Contents (Elt F) → (⟨S_, .f32⟩ : BufTy).Contents (Elt F)) ]

/-- The line is its stretches, in order. -/
theorem ops_split : (ops : List (HloOp τ sig (Elt F))) = ops_a ++ ops_b ++ ops_c ++ ops_d ++ ops_e ++ ops_f ++ ops_g ++ ops_h := rfl

/-- Every operation touches TensorCore buffers only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., binary_bufs_sub .., unary_bufs_sub .., nullary_bufs_sub ..,
    binary_bufs_sub .., nullary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., binary_bufs_sub .., nullary_bufs_sub .., unary_bufs_sub ..,
    binary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    nullary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    binary_bufs_sub .., binary_bufs_sub .., binary_bufs_sub .., unary_bufs_sub .., unary_bufs_sub .., nullary_bufs_sub ..,
    binary_bufs_sub .., nullary_bufs_sub .., binary_bufs_sub ..⟩

end Cert.ReferenceIdeal.RefRun

end
-- ==== Proof.RefMain.lean ====
import proofs.«161518_j12833362280505_1_alg».proof.Proof.RefOps

/-!
The reference program is the straight line of its operations: the functions' bodies unfolded at
their calls and the two windows run in order compute, as programs, to the same chain of steps.
-/

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

set_option maxHeartbeats 8000000 in
/-- Both sides evaluate to one chain of operation steps ending in the return. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefTerm.lean ====
import proofs.«161518_j12833362280505_1_alg».proof.Proof.Gen.ReferenceIdeal

/-!
The reference's result as one composed term of its two argument arrays, cut into named stages.
Each stage is the printed operation (or the short chain of printed operations) applied to the
stage's inputs, with the side conditions the program states; nothing is simplified here.
-/

noncomputable section

namespace Cert.ReferenceIdeal.RefTerm

open Idealize.ShloMosaic Idealize.SL.Sem
open Cert.ReferenceIdeal
open Cert.ReferenceIdeal.Facts₀

variable {F : FTy → Type} [FloatOps F]

/-- Row normalisation: x / broadcast (max (sqrt (keepdims (sum over the last axis of x * x))) 1e-12). -/
def nrm (x : FVec F S64x64x128 .f32) : FVec F S64x64x128 .f32 :=
  Host.divf x
    (broadcastInDim S64x64x128 ![0, 1, 2] bcast_S64x64x1_S64x64x128_0_1_2
      (maximumf
        (Host.sqrt
          (broadcastInDim S64x64x1 ![0, 1] bcast_S64x64_S64x64x1_0_1
            (Host.reduceAdd (mulf x x) (constant (F := F) S_ .f32 0x00000000#32)
              reducesTo_S64x64x128_S64x64_d2 h_S_)))
        (broadcastInDim S64x64x1 ![] bcast_S_S64x64x1 (constant (F := F) S_ .f32 0x2B8CBCCC#32))))

/-- The two normalised arrays stacked along the leading axis. -/
def cat (a b : FVec F S64x64x128 .f32) : FVec F S128x64x128 .f32 :=
  concatenate S128x64x128 0 [⟨S64x64x128, a⟩, ⟨S64x64x128, b⟩]
    concatenates_S64x64x128_S64x64x128_S128x64x128_d0

/-- Exponentials of all pairwise dot products of the rows. -/
def E (f : FVec F S128x64x128 .f32) : FVec F S128x64x128x64 .f32 :=
  Host.exp (Host.dotGeneral dot_S128x64x128_S128x64x128_S128x64x128x64_2_2_01_01_n_n none f f)

/-- Row totals: the sum over both trailing axes. -/
def tot (e : FVec F S128x64x128x64 .f32) : FVec F S128x64 .f32 :=
  Host.reduceAdd e (constant (F := F) S_ .f32 0x00000000#32) reducesTo_S128x64x128x64_S128x64_d2_3 h_S_

/-- The index pairs (k, k) with negative indices wrapped, as a closed integer term. -/
def idxA : IVec S128x2 32 :=
  concatenate S128x2 1
    [⟨S128x1, broadcastInDim S128x1 ![0] bcast_S128_S128x1_0
        (select (cmpi .slt (iotaInDim S128 32 0) (broadcastInDim S128 ![] bcast_S_S128 (constantI S_ 32 0#32)))
          (addi (iotaInDim S128 32 0) (broadcastInDim S128 ![] bcast_S_S128 (constantI S_ 32 128#32)))
          (iotaInDim S128 32 0))⟩,
     ⟨S128x1, broadcastInDim S128x1 ![0] bcast_S128_S128x1_0
        (select (cmpi .slt (iotaInDim S128 32 0) (broadcastInDim S128 ![] bcast_S_S128 (constantI S_ 32 0#32)))
          (addi (iotaInDim S128 32 0) (broadcastInDim S128 ![] bcast_S_S128 (constantI S_ 32 128#32)))
          (iotaInDim S128 32 0))⟩]
    concatenates_S128x1_S128x1_S128x2_d1

/-- The blocks on the block diagonal. -/
def gA (e : FVec F S128x64x128x64 .f32) : FVec F S128x64x64 .f32 :=
  Host.gather gather_S128x64x128x64_S128x2_S128x64x64_12_02_n_n_02_1_164164 e idxA

/-- Row sums inside the diagonal blocks. -/
def pos1 (e : FVec F S128x64x128x64 .f32) : FVec F S128x64 .f32 :=
  Host.reduceAdd (gA e) (constant (F := F) S_ .f32 0x00000000#32) reducesTo_S128x64x64_S128x64_d2 h_S_

/-- The divisor of the remainder: 128, or 1 were it zero. -/
def remQ : IVec S_ 32 :=
  select (cmpi .eq (id (constantI S_ 32 128#32)) (constantI S_ 32 0#32)) (constantI S_ 32 1#32)
    (id (constantI S_ 32 128#32))

/-- The truncated remainder of 64 + k by the divisor. -/
def remR : IVec S128 32 :=
  Host.remsi (addi (broadcastInDim S128 ![] bcast_S_S128 (constantI S_ 32 64#32)) (iotaInDim S128 32 0))
    (broadcastInDim S128 ![] bcast_S_S128 remQ)

/-- The floored remainder (64 + k) mod 128: the truncated one, moved by the divisor where the signs differ. -/
def remV : IVec S128 32 :=
  select
    (andi
      (cmpi .ne (cmpi .slt remR (broadcastInDim S128 ![] bcast_S_S128 (constantI S_ 32 0#32)))
        (broadcastInDim S128 ![] bcast_S_S128 (cmpi .slt remQ (constantI S_ 32 0#32))))
      (cmpi .ne remR (broadcastInDim S128 ![] bcast_S_S128 (constantI S_ 32 0#32))))
    (addi remR (broadcastInDim S128 ![] bcast_S_S128 remQ))
    remR

/-- The index pairs (k, (k + 64) mod 128) with negative indices wrapped, as a closed integer term. -/
def idxB : IVec S128x2 32 :=
  concatenate S128x2 1
    [⟨S128x1, broadcastInDim S128x1 ![0] bcast_S128_S128x1_0
        (select (cmpi .slt (iotaInDim S128 32 0) (broadcastInDim S128 ![] bcast_S_S128 (constantI S_ 32 0#32)))
          (addi (iotaInDim S128 32 0) (broadcastInDim S128 ![] bcast_S_S128 (constantI S_ 32 128#32)))
          (iotaInDim S128 32 0))⟩,
     ⟨S128x1, broadcastInDim S128x1 ![0] bcast_S128_S128x1_0
        (select (cmpi .slt remV (broadcastInDim S128 ![] bcast_S_S128 (constantI S_ 32 0#32)))
          (addi remV (broadcastInDim S128 ![] bcast_S_S128 (constantI S_ 32 128#32)))
          remV)⟩]
    concatenates_S128x1_S128x1_S128x2_d1

/-- The blocks pairing each row block with the one half-way round. -/
def gB (e : FVec F S128x64x128x64 .f32) : FVec F S128x64x64 .f32 :=
  Host.gather gather_S128x64x128x64_S128x2_S128x64x64_12_02_n_n_02_1_164164 e idxB

/-- The index pairs (j, j) with negative indices wrapped, as a closed integer term. -/
def idxD : IVec S64x2 32 :=
  concatenate S64x2 1
    [⟨S64x1, broadcastInDim S64x1 ![0] bcast_S64_S64x1_0
        (select (cmpi .slt (iotaInDim S64 32 0) (broadcastInDim S64 ![] bcast_S_S64 (constantI S_ 32 0#32)))
          (addi (iotaInDim S64 32 0) (broadcastInDim S64 ![] bcast_S_S64 (constantI S_ 32 64#32)))
          (iotaInDim S64 32 0))⟩,
     ⟨S64x1, broadcastInDim S64x1 ![0] bcast_S64_S64x1_0
        (select (cmpi .slt (iotaInDim S64 32 0) (broadcastInDim S64 ![] bcast_S_S64 (constantI S_ 32 0#32)))
          (addi (iotaInDim S64 32 0) (broadcastInDim S64 ![] bcast_S_S64 (constantI S_ 32 64#32)))
          (iotaInDim S64 32 0))⟩]
    concatenates_S64x1_S64x1_S64x2_d1

/-- The diagonal of each paired block. -/
def pos2 (e : FVec F S128x64x128x64 .f32) : FVec F S128x64 .f32 :=
  Host.gather gather_S128x64x64_S64x2_S128x64_0_12_n_n_12_1_12811 (gB e) idxD

/-- The mean over all 8192 rows of -log ((p1 + p2) / t). -/
def tail (p1 p2 t : FVec F S128x64 .f32) : FVec F S_ .f32 :=
  Host.divf
    (Host.reduceAdd (Host.negf (Host.log (Host.divf (addf p1 p2) t))) (constant (F := F) S_ .f32 0x00000000#32)
      reducesTo_S128x64_S_d0_1 h_S_)
    (constant (F := F) S_ .f32 0x46000000#32)

/-- The reference's result as a function of its two argument arrays. -/
def out (a0 a1 : FVec F S64x64x128 .f32) : FVec F S_ .f32 :=
  let e := E (cat (nrm a0) (nrm a1)); tail (pos1 e) (pos2 e) (tot e)

end Cert.ReferenceIdeal.RefTerm
-- ==== Proof.RefVal.lean ====
import proofs.«161518_j12833362280505_1_alg».proof.Proof.RefTerm
import proofs.«161518_j12833362280505_1_alg».proof.Proof.RefOps
import Idealize.ShloMosaic.Lib.Pipeline.Frame

/-!
What the result buffer holds after the line, stretch by stretch. For each stretch and ANY contents
`W` before it: the buffers later stretches read hold the named stage of `RefTerm` applied to what
`W` holds at the stretch's inputs, and the buffers that only pass through keep their contents.
Composed along the split of the line, the result buffer holds `RefTerm.out` of the two arguments.
-/

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

/-! ## Stretch 1: the first argument normalised -/

theorem a_v4 (W : Valuation τ sig (Elt F)) :
    after ops_a W (main_v4 : DevRef τ sig) = RefTerm.nrm (W (main_arg0 : DevRef τ sig)) := by
  simp only [ops_a]; after_results_simp; rfl
theorem a_arg1 (W : Valuation τ sig (Elt F)) :
    after ops_a W (main_arg1 : DevRef τ sig) = W (main_arg1 : DevRef τ sig) := by
  simp only [ops_a]; after_results_simp

/-! ## Stretch 2: the second argument normalised -/

theorem b_v9 (W : Valuation τ sig (Elt F)) :
    after ops_b W (main_v9 : DevRef τ sig) = RefTerm.nrm (W (main_arg1 : DevRef τ sig)) := by
  simp only [ops_b]; after_results_simp; rfl
theorem b_v4 (W : Valuation τ sig (Elt F)) :
    after ops_b W (main_v4 : DevRef τ sig) = W (main_v4 : DevRef τ sig) := by
  simp only [ops_b]; after_results_simp

/-! ## Stretch 3: the exponentials of the pairwise products, and the row totals -/

theorem c_v12 (W : Valuation τ sig (Elt F)) :
    after ops_c W (main_v12 : DevRef τ sig)
      = RefTerm.E (RefTerm.cat (W (main_v4 : DevRef τ sig)) (W (main_v9 : DevRef τ sig))) := by
  simp only [ops_c]; after_results_simp; rfl
theorem c_v13 (W : Valuation τ sig (Elt F)) :
    after ops_c W (main_v13 : DevRef τ sig)
      = RefTerm.tot (RefTerm.E (RefTerm.cat (W (main_v4 : DevRef τ sig)) (W (main_v9 : DevRef τ sig)))) := by
  simp only [ops_c]; after_results_simp; rfl

/-! ## Stretch 4: the row index, and the sums inside the diagonal blocks -/

theorem d_v14 (W : Valuation τ sig (Elt F)) :
    after ops_d W (main_v14 : DevRef τ sig) = (iotaInDim S128 32 0 : IVec S128 32) := by
  simp only [ops_d]; after_results_simp
theorem d_v29 (W : Valuation τ sig (Elt F)) :
    after ops_d W (main_v29 : DevRef τ sig) = RefTerm.pos1 (W (main_v12 : DevRef τ sig)) := by
  simp only [ops_d]; after_results_simp; rfl
theorem d_v12 (W : Valuation τ sig (Elt F)) :
    after ops_d W (main_v12 : DevRef τ sig) = W (main_v12 : DevRef τ sig) := by
  simp only [ops_d]; after_results_simp
theorem d_v13 (W : Valuation τ sig (Elt F)) :
    after ops_d W (main_v13 : DevRef τ sig) = W (main_v13 : DevRef τ sig) := by
  simp only [ops_d]; after_results_simp

/-! ## Stretch 5: (64 + k) mod 128 -/

theorem e_v32 (W : Valuation τ sig (Elt F))
    (h14 : W (main_v14 : DevRef τ sig) = (iotaInDim S128 32 0 : IVec S128 32)) :
    after ops_e W (main_v32 : DevRef τ sig) = (RefTerm.remV : IVec S128 32) := by
  simp only [ops_e]; after_results_simp; rw [h14]; rfl
theorem e_v14 (W : Valuation τ sig (Elt F)) :
    after ops_e W (main_v14 : DevRef τ sig) = W (main_v14 : DevRef τ sig) := by
  simp only [ops_e]; after_results_simp
theorem e_v12 (W : Valuation τ sig (Elt F)) :
    after ops_e W (main_v12 : DevRef τ sig) = W (main_v12 : DevRef τ sig) := by
  simp only [ops_e]; after_results_simp
theorem e_v13 (W : Valuation τ sig (Elt F)) :
    after ops_e W (main_v13 : DevRef τ sig) = W (main_v13 : DevRef τ sig) := by
  simp only [ops_e]; after_results_simp
theorem e_v29 (W : Valuation τ sig (Elt F)) :
    after ops_e W (main_v29 : DevRef τ sig) = W (main_v29 : DevRef τ sig) := by
  simp only [ops_e]; after_results_simp

/-! ## Stretch 6: the index pairs of the paired blocks -/

/-- The index pairs over an arbitrary row index `i` and second column `r`: `RefTerm.idxB` is this at the
    row index itself and `RefTerm.remV`. -/
def idxBof (i r : IVec S128 32) : IVec S128x2 32 :=
  concatenate S128x2 1
    [⟨S128x1, broadcastInDim S128x1 ![0] Facts₀.bcast_S128_S128x1_0
        (select (cmpi .slt i (broadcastInDim S128 ![] Facts₀.bcast_S_S128 (constantI S_ 32 0#32)))
          (addi i (broadcastInDim S128 ![] Facts₀.bcast_S_S128 (constantI S_ 32 128#32)))
          i)⟩,
     ⟨S128x1, broadcastInDim S128x1 ![0] Facts₀.bcast_S128_S128x1_0
        (select (cmpi .slt r (broadcastInDim S128 ![] Facts₀.bcast_S_S128 (constantI S_ 32 0#32)))
          (addi r (broadcastInDim S128 ![] Facts₀.bcast_S_S128 (constantI S_ 32 128#32)))
          r)⟩]
    Facts₀.concatenates_S128x1_S128x1_S128x2_d1

theorem idxBof_closed : idxBof (iotaInDim S128 32 0) RefTerm.remV = RefTerm.idxB := rfl

theorem f_v45 (W : Valuation τ sig (Elt F)) :
    after ops_f W (main_v45 : DevRef τ sig)
      = idxBof (W (main_v14 : DevRef τ sig)) (W (main_v32 : DevRef τ sig)) := by
  simp only [ops_f]; after_results_simp; rfl
theorem f_v12 (W : Valuation τ sig (Elt F)) :
    after ops_f W (main_v12 : DevRef τ sig) = W (main_v12 : DevRef τ sig) := by
  simp only [ops_f]; after_results_simp
theorem f_v13 (W : Valuation τ sig (Elt F)) :
    after ops_f W (main_v13 : DevRef τ sig) = W (main_v13 : DevRef τ sig) := by
  simp only [ops_f]; after_results_simp
theorem f_v29 (W : Valuation τ sig (Elt F)) :
    after ops_f W (main_v29 : DevRef τ sig) = W (main_v29 : DevRef τ sig) := by
  simp only [ops_f]; after_results_simp

/-! ## Stretch 7: the diagonals of the paired blocks

The stretch in three pieces: the gather of the paired blocks and the two index columns; their
concatenation into index pairs; the gather of the diagonal. -/

/-- Up to the two index columns. -/
abbrev g_1 : List (HloOp τ sig (Elt F)) := ops_g.take 19
/-- The concatenation of the columns. -/
abbrev g_2 : List (HloOp τ sig (Elt F)) := (ops_g.drop 19).take 1
/-- The gather of the diagonal. -/
abbrev g_3 : List (HloOp τ sig (Elt F)) := ops_g.drop 20

theorem g_split : (ops_g : List (HloOp τ sig (Elt F))) = g_1 ++ g_2 ++ g_3 := rfl

/-- One column of the diagonal's index pairs: j, with negative indices wrapped. -/
def colD : IVec S64x1 32 :=
  broadcastInDim S64x1 ![0] Facts₀.bcast_S64_S64x1_0
    (select (cmpi .slt (iotaInDim S64 32 0) (broadcastInDim S64 ![] Facts₀.bcast_S_S64 (constantI S_ 32 0#32)))
      (addi (iotaInDim S64 32 0) (broadcastInDim S64 ![] Facts₀.bcast_S_S64 (constantI S_ 32 64#32)))
      (iotaInDim S64 32 0))

theorem g1_v46 (W : Valuation τ sig (Elt F)) :
    after g_1 W (main_v46 : DevRef τ sig)
      = Host.gather gather_S128x64x128x64_S128x2_S128x64x64_12_02_n_n_02_1_164164
          (W (main_v12 : DevRef τ sig)) (W (main_v45 : DevRef τ sig) : IVec S128x2 32) := by
  simp only [g_1, ops_g, List.take_succ_cons, List.take_zero]; after_results_simp
theorem g1_c12 (W : Valuation τ sig (Elt F)) :
    after g_1 W (main_call3_v12 : DevRef τ sig) = (colD : IVec S64x1 32) := by
  simp only [g_1, ops_g, List.take_succ_cons, List.take_zero]; after_results_simp; rfl
theorem g1_c13 (W : Valuation τ sig (Elt F)) :
    after g_1 W (main_call3_v13 : DevRef τ sig) = (colD : IVec S64x1 32) := by
  simp only [g_1, ops_g, List.take_succ_cons, List.take_zero]; after_results_simp; rfl
theorem g2_c14 (W : Valuation τ sig (Elt F)) :
    after g_2 W (main_call3_v14 : DevRef τ sig)
      = (concatenate S64x2 1 [⟨S64x1, (W (main_call3_v12 : DevRef τ sig) : IVec S64x1 32)⟩,
          ⟨S64x1, (W (main_call3_v13 : DevRef τ sig) : IVec S64x1 32)⟩]
          Facts₀.concatenates_S64x1_S64x1_S64x2_d1 : IVec S64x2 32) := by
  simp only [g_2, ops_g, List.drop_succ_cons, List.drop_zero, List.take_succ_cons, List.take_zero]; after_results_simp; rfl
theorem g2_v46 (W : Valuation τ sig (Elt F)) :
    after g_2 W (main_v46 : DevRef τ sig) = W (main_v46 : DevRef τ sig) := by
  simp only [g_2, ops_g, List.drop_succ_cons, List.drop_zero, List.take_succ_cons, List.take_zero]; after_results_simp
theorem g3_v47 (W : Valuation τ sig (Elt F)) :
    after g_3 W (main_v47 : DevRef τ sig)
      = Host.gather gather_S128x64x64_S64x2_S128x64_0_12_n_n_12_1_12811
          (W (main_v46 : DevRef τ sig)) (W (main_call3_v14 : DevRef τ sig) : IVec S64x2 32) := by
  simp only [g_3, ops_g, List.drop_succ_cons, List.drop_zero]; after_results_simp; rfl

theorem g_v47 (W : Valuation τ sig (Elt F))
    (h45 : W (main_v45 : DevRef τ sig) = (RefTerm.idxB : IVec S128x2 32)) :
    after ops_g W (main_v47 : DevRef τ sig) = RefTerm.pos2 (W (main_v12 : DevRef τ sig)) := by
  rw [g_split, StableHlo.after_append, StableHlo.after_append, g3_v47, g2_c14, g2_v46, g1_v46, g1_c12, g1_c13, h45]
  rfl
theorem g_v13 (W : Valuation τ sig (Elt F)) :
    after ops_g W (main_v13 : DevRef τ sig) = W (main_v13 : DevRef τ sig) := by
  simp only [ops_g]; after_results_simp
theorem g_v29 (W : Valuation τ sig (Elt F)) :
    after ops_g W (main_v29 : DevRef τ sig) = W (main_v29 : DevRef τ sig) := by
  simp only [ops_g]; after_results_simp

/-! ## Stretch 8: the mean of the negated logarithms -/

theorem h_v53 (W : Valuation τ sig (Elt F)) :
    after ops_h W (main_v53 : DevRef τ sig)
      = RefTerm.tail (W (main_v29 : DevRef τ sig)) (W (main_v47 : DevRef τ sig)) (W (main_v13 : DevRef τ sig)) := by
  simp only [ops_h]; after_results_simp; rfl

/-! ## The whole line -/

/-- The result buffer after the line: the composed term of the argument arrays. -/
theorem out_eq (V : Valuation τ sig (Elt F)) :
    after ops V (main_v53 : DevRef τ sig)
      = RefTerm.out (V (main_arg0 : DevRef τ sig)) (V (main_arg1 : DevRef τ sig)) := by
  rw [ops_split]
  simp only [StableHlo.after_append]
  generalize h1 : after ops_a V = W1
  generalize h2 : after ops_b W1 = W2
  generalize h3 : after ops_c W2 = W3
  generalize h4 : after ops_d W3 = W4
  generalize h5 : after ops_e W4 = W5
  generalize h6 : after ops_f W5 = W6
  generalize h7 : after ops_g W6 = W7
  have e4 : W2 (main_v4 : DevRef τ sig) = RefTerm.nrm (V (main_arg0 : DevRef τ sig)) := by
    rw [← h2, b_v4, ← h1, a_v4]
  have e9 : W2 (main_v9 : DevRef τ sig) = RefTerm.nrm (V (main_arg1 : DevRef τ sig)) := by
    rw [← h2, b_v9, ← h1, a_arg1]
  have e12 : W3 (main_v12 : DevRef τ sig)
      = RefTerm.E (RefTerm.cat (RefTerm.nrm (V (main_arg0 : DevRef τ sig))) (RefTerm.nrm (V (main_arg1 : DevRef τ sig)))) := by
    rw [← h3, c_v12, e4, e9]
  have e13 : W3 (main_v13 : DevRef τ sig)
      = RefTerm.tot (RefTerm.E (RefTerm.cat (RefTerm.nrm (V (main_arg0 : DevRef τ sig))) (RefTerm.nrm (V (main_arg1 : DevRef τ sig))))) := by
    rw [← h3, c_v13, e4, e9]
  have i4 : W4 (main_v14 : DevRef τ sig) = (iotaInDim S128 32 0 : IVec S128 32) := by rw [← h4, d_v14]
  have i5 : W5 (main_v14 : DevRef τ sig) = (iotaInDim S128 32 0 : IVec S128 32) := by rw [← h5, e_v14, i4]
  have r5 : W5 (main_v32 : DevRef τ sig) = (RefTerm.remV : IVec S128 32) := by rw [← h5, e_v32 W4 i4]
  have x6 : W6 (main_v45 : DevRef τ sig) = (RefTerm.idxB : IVec S128x2 32) := by
    rw [← h6, f_v45, i5, r5]; exact idxBof_closed
  have q12 : W6 (main_v12 : DevRef τ sig) = W3 (main_v12 : DevRef τ sig) := by
    rw [← h6, f_v12, ← h5, e_v12, ← h4, d_v12]
  have q13 : W7 (main_v13 : DevRef τ sig) = W3 (main_v13 : DevRef τ sig) := by
    rw [← h7, g_v13, ← h6, f_v13, ← h5, e_v13, ← h4, d_v13]
  have q29 : W7 (main_v29 : DevRef τ sig) = RefTerm.pos1 (W3 (main_v12 : DevRef τ sig)) := by
    rw [← h7, g_v29, ← h6, f_v29, ← h5, e_v29, ← h4, d_v29]
  have q47 : W7 (main_v47 : DevRef τ sig) = RefTerm.pos2 (W3 (main_v12 : DevRef τ sig)) := by
    rw [← h7, g_v47 W6 x6, q12]
  rw [h_v53, q29, q47, q13, e12, e13]
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

end Cert.ReferenceIdeal.RefRun

end
-- ==== Proof.RefRun.lean ====
import proofs.«161518_j12833362280505_1_alg».proof.Proof.RefMain
import proofs.«161518_j12833362280505_1_alg».proof.Proof.RefVal
import Idealize.ShloMosaic.PureOps.Ideal

/-!
The reference's run: every weakly fair execution terminates, the result buffer holds the composed
term `RefTerm.out` of the two argument arrays' launch contents, and the arguments are unchanged.
-/

noncomputable section

namespace Cert.ReferenceIdeal.RefRun

open Cert.ReferenceIdeal Idealize.ShloMosaic Idealize.ShloMosaic.TcCoe Idealize.SL.Sem Idealize.ShloMosaic.StableHlo

/-- For any float values: the run of the straight line, read at the result and the argument buffers. -/
theorem run_gen {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v53)
        = RefTerm.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v53).trans (out_eq _),
      (h c main_arg0).trans (arg0_eq _),
      (h c main_arg1).trans (arg1_eq _)⟩)
    (run_seq scopedRefs_eq scopedSems_eq defs main (fun _ => ops) main_eq (fun _ => ops_sub) m ρ)

/-- At the ideal instance. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      (r.2.mem ((c.tc : Thread Cert.ReferenceIdeal.nD Cert.ReferenceIdeal.τ).loc Cert.ReferenceIdeal.main_v53) : FVec Ideal S_ .f32) = RefTerm.out (F := Ideal) (m ((c.tc : Thread Cert.ReferenceIdeal.nD Cert.ReferenceIdeal.τ).loc main_arg0)) (m ((c.tc : Thread Cert.ReferenceIdeal.nD Cert.ReferenceIdeal.τ).loc main_arg1))
      ∧ r.2.mem ((c.tc : Thread Cert.ReferenceIdeal.nD Cert.ReferenceIdeal.τ).loc main_arg0) = m ((c.tc : Thread Cert.ReferenceIdeal.nD Cert.ReferenceIdeal.τ).loc main_arg0)
      ∧ r.2.mem ((c.tc : Thread Cert.ReferenceIdeal.nD Cert.ReferenceIdeal.τ).loc main_arg1) = m ((c.tc : Thread Cert.ReferenceIdeal.nD Cert.ReferenceIdeal.τ).loc main_arg1)) :=
  run_gen m ρ

end Cert.ReferenceIdeal.RefRun

end
-- ==== Proof.KerRead.lean ====
/-
  The kernel program's host terms read at an index, at the exact values.

  * Flattening the stacked [128, 64, 128] array to an 8192 x 128 matrix is row-major and the rounding to bf16 is
    the identity on exact values: row R of the matrix is row (R / 64, R % 64) of the array.
  * Reshaping an 8192 x 1 column to [128, 64] puts row 64 i + j at (i, j).
  * The matching-pair term at (i, j) is exp of the dot product of row (i mod 64, j) of the first normalised input
    with the same row of the second: the [64, 64] array of those exponentials stacked with itself.
  * A sum over the 8192 rows is the double sum over (block, row within the block).
-/
import proofs.«161518_j12833362280505_1_alg».proof.Proof.KerTerm
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.KerRead

open Idealize.ShloMosaic Idealize.ShloMosaic.ValueIdx Cert.KernelIdeal Cert.KernelIdeal.Gen

/-- Row `R` of the flattened matrix is row `(R / 64, R % 64)` of the stacked array. -/
theorem flat_apply (f : FVec Ideal S128x64x128 .f32) (R : Fin 8192) (d : Fin 128) :
    KerTerm.flat f (ix2 R d)
      = f (ix3 (⟨R.val / 64, by have := R.isLt; omega⟩ : Fin 128) (⟨R.val % 64, Nat.mod_lt _ (by decide)⟩ : Fin 64) d) := by
  show shapeCast S8192x128 f shapeCasts_S128x64x128_S8192x128 (ix2 R d) = _
  refine shapeCast_apply _ _ _ _ ?_
  rw [Shape.rowMajor_val_three, Shape.rowMajor_val_two]
  show (R.val / 64 * 64 + R.val % 64) * 128 + d.val = R.val * 128 + d.val
  omega

/-- The [8192, 1] column reshaped to [128, 64] holds row `64 i + j` at `(i, j)`. -/
theorem unflat_apply (o : Vec Ideal S8192x1 .f32) (i : Fin 128) (j : Fin 64) :
    shapeCast S128x64 o shapeCasts_S8192x1_S128x64 (ix2 i j)
      = o (ix2 (⟨64 * i.val + j.val, by have := i.isLt; have := j.isLt; omega⟩ : Fin 8192) (0 : Fin 1)) := by
  refine shapeCast_apply _ _ _ _ ?_
  rw [Shape.rowMajor_val_two, Shape.rowMajor_val_two]
  show (64 * i.val + j.val) * 1 + 0 = i.val * 64 + j.val
  omega

/-- exp of the dot product of rows `(i, j)` of the two normalised inputs. -/
def pair (fk fs : FVec Ideal S64x64x128 .f32) (i j : Fin 64) : EReal :=
  Ideal.exp (∑ d : Fin 128, fk (ix3 i j d) * fs (ix3 i j d))

/-- The [64, 64] array of those exponentials, as the program computes it. -/
theorem expdot_apply (fk fs : FVec Ideal S64x64x128 .f32) (i j : Fin 64) :
    Host.exp (Host.reduceAdd (mulf fk fs) (constant (F := Ideal) S_ .f32 0x00000000#32) reducesTo_S64x64x128_S64x64_d2 h_S_)
        (ix2 i j) = pair fk fs i j := by
  have hR : S64x64x128.Reduces [2] S64x64 := by decide
  show Ideal.exp (Ideal.hostReduceAdd reducesTo_S64x64x128_S64x64_d2 (mulf fk fs) (Ideal.ofBits .f32 0x00000000#32) (ix2 i j)) = _
  rw [Ideal.hostReduceAdd_single reducesTo_S64x64x128_S64x64_d2 hR, Ideal.ofBits_zero_f32, zero_add]
  have hl : ∀ k : Fin 128, hR.lift (ix2 i j) k = ix3 i j k := fun k => funext fun c => Fin.ext (by
    match c with | ⟨0, _⟩ => rfl | ⟨1, _⟩ => rfl | ⟨2, _⟩ => rfl)
  show Ideal.exp (∑ k : Fin 128, mulf fk fs (hR.lift (ix2 i j) k)) = Ideal.exp (∑ d : Fin 128, fk (ix3 i j d) * fs (ix3 i j d))
  exact congrArg Ideal.exp (Finset.sum_congr rfl fun k _ => by rw [hl k]; rfl)

/-- Two indices of the stacked array with equal coordinates are equal. -/
theorem ix3_congr {a a' : Fin 128} {b b' : Fin 64} (d : Fin 128) (ha : a.val = a'.val) (hb : b.val = b'.val) :
    (ix3 a b d : S128x64x128.Idx) = ix3 a' b' d := by
  rw [Fin.ext ha, Fin.ext hb]

/-- Row `64 i + n` of the flattened matrix is row `(i, n)` of the stacked array. -/
theorem flat_at (f : FVec Ideal S128x64x128 .f32) (C : Fin 8192) (i : Fin 128) (n : Fin 64) (d : Fin 128)
    (h : C.val = 64 * i.val + n.val) : KerTerm.flat f (ix2 C d) = f (ix3 i n d) :=
  (flat_apply f C d).trans (congrArg f (ix3_congr d (by show C.val / 64 = i.val; omega) (by show C.val % 64 = n.val; omega)))

/-- The matching-pair term at `(i, j)`: both halves of the stack hold the [64, 64] array of exponentials. -/
theorem pos2_apply (fk fs : FVec Ideal S64x64x128 .f32) (i : Fin 128) (j : Fin 64) :
    KerTerm.pos2 fk fs (ix2 i j)
      = if h : i.val < 64 then pair fk fs ⟨i.val, h⟩ j else pair fk fs ⟨i.val - 64, by omega⟩ j := by
  unfold KerTerm.pos2
  split
  · next h =>
    refine (concatenate_pair_apply_left (t := S128x64) (s₁ := S64x64) (s₂ := S64x64) (0 : Fin 2) _ _ concatenates_S64x64_S64x64_S128x64_d0 (ix2 i j) rfl
      (ix2 (⟨i.val, h⟩ : Fin 64) j) (fun b => by match b with | ⟨0, _⟩ => rfl | ⟨1, _⟩ => rfl)).trans ?_
    exact expdot_apply fk fs _ j
  · next h =>
    refine (concatenate_pair_apply_right (t := S128x64) (s₁ := S64x64) (s₂ := S64x64) (0 : Fin 2) _ _ concatenates_S64x64_S64x64_S128x64_d0 (ix2 i j) rfl rfl
      (ix2 (⟨i.val - 64, by omega⟩ : Fin 64) j)
      (fun b hb => by match b with | ⟨0, _⟩ => exact absurd rfl hb | ⟨1, _⟩ => rfl)
      (by show i.val - 64 + 64 = i.val; omega)).trans ?_
    exact expdot_apply fk fs _ j

/-- A sum over the 8192 rows as the double sum over (block, row within the block). -/
def rowEquiv : Fin 128 × Fin 64 ≃ Fin 8192 where
  toFun p := ⟨64 * p.1.val + p.2.val, by omega⟩
  invFun C := (⟨C.val / 64, by omega⟩, ⟨C.val % 64, by omega⟩)
  left_inv p := Prod.ext (Fin.ext (by show (64 * p.1.val + p.2.val) / 64 = p.1.val; omega))
    (Fin.ext (by show (64 * p.1.val + p.2.val) % 64 = p.2.val; omega))
  right_inv C := Fin.ext (by show 64 * (C.val / 64) + C.val % 64 = C.val; omega)

theorem sum_rows (g : Fin 8192 → EReal) :
    ∑ C : Fin 8192, g C = ∑ p : Fin 128 × Fin 64, g ⟨64 * p.1.val + p.2.val, by omega⟩ :=
  (Fintype.sum_equiv rowEquiv _ _ fun _ => rfl).symm

end Cert.KernelIdeal.KerRead

end
-- ==== Proof.KerRefEq.lean ====
/-
  The operations the two programs share are the same terms: the row normalisation, the stacking of the two
  normalised arrays, and the closing chain (add, divide, log, negate, sum over both axes, divide by 8192), which the
  kernel's program applies to its two reshaped result columns where the reference applies it to its own sums.
-/
import proofs.«161518_j12833362280505_1_alg».proof.Proof.KerTerm
import proofs.«161518_j12833362280505_1_alg».proof.Proof.RefTerm

noncomputable section

namespace Cert.Bridge

open Idealize.ShloMosaic

variable {F : FTy → Type} [FloatOps F]

theorem nrm_eq (x : FVec F Cert.KernelIdeal.S64x64x128 .f32) :
    Cert.KernelIdeal.KerTerm.nrm x = Cert.ReferenceIdeal.RefTerm.nrm x := rfl

theorem cat_eq (a b : FVec F Cert.KernelIdeal.S64x64x128 .f32) :
    Cert.KernelIdeal.KerTerm.cat a b = Cert.ReferenceIdeal.RefTerm.cat a b := rfl

theorem tail_eq (o0 o1 : Vec F Cert.KernelIdeal.S8192x1 .f32) (p2 : FVec F Cert.KernelIdeal.S128x64 .f32) :
    Cert.KernelIdeal.KerTerm.tail o0 o1 p2
      = Cert.ReferenceIdeal.RefTerm.tail
          (shapeCast Cert.KernelIdeal.S128x64 o1 Cert.KernelIdeal.Gen.shapeCasts_S8192x1_S128x64) p2
          (shapeCast Cert.KernelIdeal.S128x64 o0 Cert.KernelIdeal.Gen.shapeCasts_S8192x1_S128x64) := rfl

end Cert.Bridge

end
-- ==== Proof.BridgeOf.lean ====
/-
  The kernel program's result equals the reference's, at the exact values.

  With f the two normalised inputs stacked ([128, 64, 128]) and A its 8192 x 128 flattening, the kernel region
  leaves in row R = 64 i + j of its first column the sum over all rows C of exp (A_R . A_C), and in its second
  column the sum over the 64 rows of R's own block. Read through the flattening these are the reference's row total
  (the sum over (m, n) of exp (f_ij . f_mn)) and its within-block sum (over n of exp (f_ij . f_in)). The
  matching-pair term exp (fk_ij . fs_ij), stacked with itself, is the reference's entry at the block half-way round:
  for i < 64 that block is 64 + i, in the second input; for i >= 64 it is i - 64, in the first, and the product is
  commuted. The closing chain of operations is the same term in both programs.
-/
import proofs.«161518_j12833362280505_1_alg».proof.Proof.KerRead
import proofs.«161518_j12833362280505_1_alg».proof.Proof.KerRefEq

noncomputable section

namespace Cert.Bridge

open Idealize.ShloMosaic Idealize.ShloMosaic.ValueIdx
open Cert.KernelIdeal Cert.KernelIdeal.Gen
open Cert.ReferenceIdeal.RefTerm renaming nrm → rnrm, cat → rcat, E → rE, tot → rtot, pos1 → rpos1, pos2 → rpos2,
  tail → rtail, out → rout

section Of

variable
  (cat_apply : ∀ (a b : FVec Ideal S64x64x128 .f32) (i : Fin 128) (j : Fin 64) (d : Fin 128),
    rcat a b (ix3 i j d)
      = if h : i.val < 64 then a (ix3 (⟨i.val, h⟩ : Fin 64) j d) else b (ix3 (⟨i.val - 64, by omega⟩ : Fin 64) j d))
  (E_apply : ∀ (f : FVec Ideal S128x64x128 .f32) (i : Fin 128) (j : Fin 64) (m : Fin 128) (n : Fin 64),
    rE f (ix4 i j m n) = Ideal.exp (∑ d : Fin 128, f (ix3 i j d) * f (ix3 m n d)))
  (tot_apply : ∀ (e : FVec Ideal Cert.ReferenceIdeal.S128x64x128x64 .f32) (i : Fin 128) (j : Fin 64),
    rtot e (ix2 i j) = ∑ p : Fin 128 × Fin 64, e (ix4 i j p.1 p.2))
  (pos1_apply : ∀ (e : FVec Ideal Cert.ReferenceIdeal.S128x64x128x64 .f32) (i : Fin 128) (j : Fin 64),
    rpos1 e (ix2 i j) = ∑ n : Fin 64, e (ix4 i j i n))
  (pos2_apply : ∀ (e : FVec Ideal Cert.ReferenceIdeal.S128x64x128x64 .f32) (i : Fin 128) (j : Fin 64),
    rpos2 e (ix2 i j) = e (ix4 i j (⟨(64 + i.val) % 128, Nat.mod_lt _ (by decide)⟩ : Fin 128) j))
  (out0_apply : ∀ (A : Vec Ideal S8192x128 .bf16) (R : Fin 8192),
    KerSpec.out0 A (ix2 R (0 : Fin 1)) = ∑ C : Fin 8192, Ideal.exp (∑ d : Fin 128, A (ix2 R d) * A (ix2 C d)))
  (out1_apply : ∀ (A : Vec Ideal S8192x128 .bf16) (R : Fin 8192),
    KerSpec.out1 A (ix2 R (0 : Fin 1))
      = ∑ n : Fin 64, Ideal.exp (∑ d : Fin 128, A (ix2 R d) * A (ix2 (⟨(R.val / 64) * 64 + n.val, by omega⟩ : Fin 8192) d)))

include cat_apply E_apply tot_apply out0_apply in
/-- The first result column, reshaped, is the reference's row totals. -/
theorem tot_side (fk fs : FVec Ideal S64x64x128 .f32) (i : Fin 128) (j : Fin 64) :
    shapeCast S128x64 (KerSpec.out0 (KerTerm.flat (rcat fk fs))) shapeCasts_S8192x1_S128x64 (ix2 i j)
      = rtot (rE (rcat fk fs)) (ix2 i j) := by
  refine (KerRead.unflat_apply _ i j).trans ?_
  refine (out0_apply _ _).trans ?_
  refine (KerRead.sum_rows _).trans ?_
  refine Eq.trans ?_ (tot_apply _ i j).symm
  refine Finset.sum_congr rfl fun p _ => ?_
  rw [E_apply]
  refine congrArg Ideal.exp (Finset.sum_congr rfl fun d _ => ?_)
  rw [KerRead.flat_at _ _ i j d rfl, KerRead.flat_at _ _ p.1 p.2 d rfl]

include cat_apply E_apply pos1_apply out1_apply in
/-- The second result column, reshaped, is the reference's within-block sums. -/
theorem pos1_side (fk fs : FVec Ideal S64x64x128 .f32) (i : Fin 128) (j : Fin 64) :
    shapeCast S128x64 (KerSpec.out1 (KerTerm.flat (rcat fk fs))) shapeCasts_S8192x1_S128x64 (ix2 i j)
      = rpos1 (rE (rcat fk fs)) (ix2 i j) := by
  refine (KerRead.unflat_apply _ i j).trans ?_
  refine (out1_apply _ _).trans ?_
  refine Eq.trans ?_ (pos1_apply _ i j).symm
  refine Finset.sum_congr rfl fun n _ => ?_
  rw [E_apply]
  refine congrArg Ideal.exp (Finset.sum_congr rfl fun d _ => ?_)
  rw [KerRead.flat_at _ _ i j d rfl,
    KerRead.flat_at _ _ i n d (by show (64 * i.val + j.val) / 64 * 64 + n.val = 64 * i.val + n.val; omega)]

/-- Two indices of a normalised input with equal leading coordinates are equal. -/
theorem ix3_row_congr {a a' : Fin 64} (b : Fin 64) (d : Fin 128) (ha : a.val = a'.val) :
    (ix3 a b d : S64x64x128.Idx) = ix3 a' b d := by
  rw [Fin.ext ha]

include cat_apply in
/-- The stacked array's first half is the first input … -/
theorem cat_lo (fk fs : FVec Ideal S64x64x128 .f32) (i : Fin 128) (h : i.val < 64) (j : Fin 64) (d : Fin 128) :
    rcat fk fs (ix3 i j d) = fk (ix3 (⟨i.val, h⟩ : Fin 64) j d) := by
  rw [cat_apply, dif_pos h]

include cat_apply in
/-- … and its second half the second. -/
theorem cat_hi (fk fs : FVec Ideal S64x64x128 .f32) (i : Fin 128) (h : 64 ≤ i.val) (j : Fin 64) (d : Fin 128) :
    rcat fk fs (ix3 i j d) = fs (ix3 (⟨i.val - 64, by omega⟩ : Fin 64) j d) := by
  rw [cat_apply, dif_neg (Nat.not_lt.2 h)]

include cat_apply E_apply pos2_apply in
/-- The matching-pair term is the reference's entry at the block half-way round. -/
theorem pos2_side (fk fs : FVec Ideal S64x64x128 .f32) (i : Fin 128) (j : Fin 64) :
    KerTerm.pos2 fk fs (ix2 i j) = rpos2 (rE (rcat fk fs)) (ix2 i j) := by
  refine (KerRead.pos2_apply fk fs i j).trans ?_
  refine Eq.trans ?_ (pos2_apply _ i j).symm
  rw [E_apply]
  by_cases h : i.val < 64
  · rw [dif_pos h]
    refine congrArg Ideal.exp (Finset.sum_congr rfl fun d _ => ?_)
    rw [cat_lo cat_apply fk fs i h j d,
      cat_hi cat_apply fk fs ⟨(64 + i.val) % 128, Nat.mod_lt _ (by decide)⟩ (by show 64 ≤ (64 + i.val) % 128; omega) j d]
    exact congrArg (fun x => fk (ix3 (⟨i.val, h⟩ : Fin 64) j d) * fs x)
      (ix3_row_congr j d (by show i.val = (64 + i.val) % 128 - 64; omega))
  · rw [dif_neg h]
    refine congrArg Ideal.exp (Finset.sum_congr rfl fun d _ => ?_)
    rw [cat_hi cat_apply fk fs i (Nat.le_of_not_lt h) j d,
      cat_lo cat_apply fk fs ⟨(64 + i.val) % 128, Nat.mod_lt _ (by decide)⟩ (by show (64 + i.val) % 128 < 64; omega) j d]
    rw [mul_comm]
    exact congrArg (fun x => fs (ix3 (⟨i.val - 64, by omega⟩ : Fin 64) j d) * fk x)
      (ix3_row_congr j d (by show i.val - 64 = (64 + i.val) % 128; omega))

include cat_apply E_apply tot_apply pos1_apply pos2_apply out0_apply out1_apply in
/-- The kernel program's result is the reference's, given the reads of the reference's stages and of the kernel
    region's two result columns. -/
theorem out_eq_of (a0 a1 : FVec Ideal S64x64x128 .f32) : KerTerm.out a0 a1 = rout a0 a1 := by
  show KerTerm.tail
      (KerSpec.out0 (KerTerm.flat (KerTerm.cat (KerTerm.nrm a0) (KerTerm.nrm a1))))
      (KerSpec.out1 (KerTerm.flat (KerTerm.cat (KerTerm.nrm a0) (KerTerm.nrm a1))))
      (KerTerm.pos2 (KerTerm.nrm a0) (KerTerm.nrm a1))
    = rtail (rpos1 (rE (rcat (rnrm a0) (rnrm a1)))) (rpos2 (rE (rcat (rnrm a0) (rnrm a1))))
        (rtot (rE (rcat (rnrm a0) (rnrm a1))))
  rw [nrm_eq a0, nrm_eq a1, cat_eq, tail_eq]
  generalize rnrm a0 = fk
  generalize rnrm a1 = fs
  have h1 : shapeCast S128x64 (KerSpec.out1 (KerTerm.flat (rcat fk fs))) shapeCasts_S8192x1_S128x64
      = rpos1 (rE (rcat fk fs)) := funext fun y => by
    obtain ⟨i, j, rfl⟩ : ∃ (i : Fin 128) (j : Fin 64), y = ix2 i j := ⟨y 0, y 1, eq_ix2 y⟩
    exact pos1_side cat_apply E_apply pos1_apply out1_apply fk fs i j
  have h2 : KerTerm.pos2 fk fs = rpos2 (rE (rcat fk fs)) := funext fun y => by
    obtain ⟨i, j, rfl⟩ : ∃ (i : Fin 128) (j : Fin 64), y = ix2 i j := ⟨y 0, y 1, eq_ix2 y⟩
    exact pos2_side cat_apply E_apply pos2_apply fk fs i j
  have h3 : shapeCast S128x64 (KerSpec.out0 (KerTerm.flat (rcat fk fs))) shapeCasts_S8192x1_S128x64
      = rtot (rE (rcat fk fs)) := funext fun y => by
    obtain ⟨i, j, rfl⟩ : ∃ (i : Fin 128) (j : Fin 64), y = ix2 i j := ⟨y 0, y 1, eq_ix2 y⟩
    exact tot_side cat_apply E_apply tot_apply out0_apply fk fs i j
  rw [h1, h2, h3]

end Of

end Cert.Bridge

end
-- ==== Proof.RefReadDot.lean ====
/-
  The reference's table of exponentials read at an index: the contraction of two rows of the stacked,
  normalised feature array over the feature axis, then the exponential.
-/
import proofs.«161518_j12833362280505_1_alg».proof.Proof.RefTerm
import Idealize.ShloMosaic.Lib.ValueIdx
import Idealize.ShloMosaic.PureOps.Ideal.Laws

noncomputable section

namespace Cert.ReferenceIdeal.RefRead

open Idealize.ShloMosaic Idealize.ShloMosaic.ValueIdx Cert.ReferenceIdeal
open scoped BigOperators

/-- The dimension numbers of the one contraction: axis 2 of each operand, no batch axis. -/
abbrev dotD : DotDims S128x64x128 S128x64x128 S128x64x128x64 :=
  dot_S128x64x128_S128x64x128_S128x64x128x64_2_2_01_01_n_n

/-- The contraction index is the feature coordinate. -/
abbrev dotE : dotD.contr.Idx ≃ Fin 128 := contrEquiv1 dotD 128 rfl rfl

/-- At result index (i, j, m, n) and feature d the left operand is read at (i, j, d) … -/
theorem dot_lhs (i : Fin 128) (j : Fin 64) (m : Fin 128) (n : Fin 64) (d : Fin 128) :
    dotD.lhsIdx (ix4 i j m n) (dotE.symm d) = ix3 i j d := by
  funext a
  refine Fin.ext ?_
  match a with
  | ⟨0, _⟩ => rfl
  | ⟨1, _⟩ => rfl
  | ⟨2, _⟩ =>
    exact (dotD.lhsIdx_val_of_single (cl := (2 : Fin 3)) rfl (ix4 i j m n) (dotE.symm d)).trans
      (contrEquiv1_symm_val dotD 128 rfl rfl d)

/-- … and the right operand at (m, n, d). -/
theorem dot_rhs (i : Fin 128) (j : Fin 64) (m : Fin 128) (n : Fin 64) (d : Fin 128) :
    dotD.rhsIdx (ix4 i j m n) (dotE.symm d) = ix3 m n d := by
  funext a
  refine Fin.ext ?_
  match a with
  | ⟨0, _⟩ => rfl
  | ⟨1, _⟩ => rfl
  | ⟨2, _⟩ =>
    exact (dotD.rhsIdx_val_of_single (cr := (2 : Fin 3)) rfl (ix4 i j m n) (dotE.symm d)).trans
      (contrEquiv1_symm_val dotD 128 rfl rfl d)

/-- Entry (i, j, m, n) of the table is the exponential of the dot product of rows (i, j) and (m, n). -/
theorem E_apply (f : FVec Ideal S128x64x128 .f32) (i : Fin 128) (j : Fin 64) (m : Fin 128) (n : Fin 64) :
    RefTerm.E f (ix4 i j m n) = Ideal.exp (∑ d : Fin 128, f (ix3 i j d) * f (ix3 m n d)) := by
  show Ideal.exp (FloatOps.dotGeneral dotD none .single f f (ix4 i j m n)) = _
  rw [Ideal.dotGeneral_apply, ← Equiv.sum_comp dotE.symm]
  simp only [dot_lhs, dot_rhs]

end Cert.ReferenceIdeal.RefRead

end
-- ==== Proof.RefReadSum.lean ====
/-
  The reference's two host sums read at an index, at the ideal values: the sum over both trailing axes of the
  rank-4 table, and the sum over the last axis of a rank-3 array. Each is the printed zero plus the sum over the
  source indices whose kept coordinates are the result's; those indices are named by the summed coordinates.
-/
import proofs.«161518_j12833362280505_1_alg».proof.Proof.RefTerm
import Idealize.ShloMosaic.Lib.ValueIdx
import Idealize.ShloMosaic.Lib.IdealHost
import Idealize.ShloMosaic.PureOps.Ideal.Laws

noncomputable section

namespace Cert.ReferenceIdeal.RefRead

open Idealize.ShloMosaic Idealize.ShloMosaic.ValueIdx Cert.ReferenceIdeal
open scoped BigOperators

/-- The source indices of the rank-4 table that keep (i, j) on the two leading axes are (i, j, m, n), one for each
    pair (m, n): the filtered sum is the sum over the pairs. -/
theorem sum_drop_trailing2 (h : S128x64x128x64.ReducesTo [2, 3] S128x64) (x : S128x64x128x64.Idx → EReal)
    (i : Fin 128) (j : Fin 64) :
    ∑ q ∈ Finset.univ.filter (fun q => h.drop q = ix2 i j), x q = ∑ p : Fin 128 × Fin 64, x (ix4 i j p.1 p.2) := by
  have back : ∀ q : S128x64x128x64.Idx, h.drop q = ix2 i j → ix4 i j (q 2) (q 3) = q := by
    intro q hq
    have h0 : (q 0).val = i.val := congrArg (fun z : S128x64.Idx => (z 0).val) hq
    have h1 : (q 1).val = j.val := congrArg (fun z : S128x64.Idx => (z 1).val) hq
    funext a
    refine Fin.ext ?_
    match a with
    | ⟨0, _⟩ => exact h0.symm
    | ⟨1, _⟩ => exact h1.symm
    | ⟨2, _⟩ => rfl
    | ⟨3, _⟩ => rfl
  refine Finset.sum_nbij' (fun q => ((q 2, q 3) : Fin 128 × Fin 64)) (fun p => ix4 i j p.1 p.2) ?_ ?_ ?_ ?_ ?_
  · intro q _; exact Finset.mem_univ _
  · intro p _
    refine Finset.mem_filter.2 ⟨Finset.mem_univ _, ?_⟩
    funext b
    refine Fin.ext ?_
    match b with
    | ⟨0, _⟩ => rfl
    | ⟨1, _⟩ => rfl
  · intro q hq; exact back q (Finset.mem_filter.1 hq).2
  · intro p _; rfl
  · intro q hq; exact congrArg x (back q (Finset.mem_filter.1 hq).2).symm

/-- The source indices of a [128, 64, 64] array that keep (i, j) on the two leading axes are (i, j, n): the filtered
    sum is the sum over n. -/
theorem sum_drop_last (h : S128x64x64.ReducesTo [2] S128x64) (x : S128x64x64.Idx → EReal) (i : Fin 128) (j : Fin 64) :
    ∑ q ∈ Finset.univ.filter (fun q => h.drop q = ix2 i j), x q = ∑ n : Fin 64, x (ix3 i j n) := by
  have back : ∀ q : S128x64x64.Idx, h.drop q = ix2 i j → ix3 i j (q 2) = q := by
    intro q hq
    have h0 : (q 0).val = i.val := congrArg (fun z : S128x64.Idx => (z 0).val) hq
    have h1 : (q 1).val = j.val := congrArg (fun z : S128x64.Idx => (z 1).val) hq
    funext a
    refine Fin.ext ?_
    match a with
    | ⟨0, _⟩ => exact h0.symm
    | ⟨1, _⟩ => exact h1.symm
    | ⟨2, _⟩ => rfl
  refine Finset.sum_nbij' (fun q => (q 2 : Fin 64)) (fun n => ix3 i j n) ?_ ?_ ?_ ?_ ?_
  · intro q _; exact Finset.mem_univ _
  · intro n _
    refine Finset.mem_filter.2 ⟨Finset.mem_univ _, ?_⟩
    funext b
    refine Fin.ext ?_
    match b with
    | ⟨0, _⟩ => rfl
    | ⟨1, _⟩ => rfl
  · intro q hq; exact back q (Finset.mem_filter.1 hq).2
  · intro n _; rfl
  · intro q hq; exact congrArg x (back q (Finset.mem_filter.1 hq).2).symm

/-- The row totals: entry (i, j) is the sum of the table's entries (i, j, m, n) over all (m, n). -/
theorem tot_apply (e : FVec Ideal S128x64x128x64 .f32) (i : Fin 128) (j : Fin 64) :
    RefTerm.tot e (ix2 i j) = ∑ p : Fin 128 × Fin 64, e (ix4 i j p.1 p.2) := by
  unfold RefTerm.tot
  rw [hostReduceAdd_apply]
  unfold Ideal.hostReduceAdd
  rw [sum_drop_trailing2, constant_apply, Ideal.ofBits_zero_f32, zero_add]

/-- The sum over the last axis of a [128, 64, 64] array from the printed zero: entry (i, j) is the sum over n of
    the entries (i, j, n). -/
theorem sumLast_apply (g : FVec Ideal S128x64x64 .f32) (i : Fin 128) (j : Fin 64) :
    Host.reduceAdd g (constant (F := Ideal) S_ .f32 0x00000000#32) Facts₀.reducesTo_S128x64x64_S128x64_d2 Facts₀.h_S_ (ix2 i j)
      = ∑ n : Fin 64, g (ix3 i j n) := by
  rw [hostReduceAdd_apply]
  unfold Ideal.hostReduceAdd
  rw [sum_drop_last, constant_apply, Ideal.ofBits_zero_f32, zero_add]

end Cert.ReferenceIdeal.RefRead

end
-- ==== Proof.RefReadCat.lean ====
/-
  The stacked feature array read at an index: rows 0 … 63 of the leading axis are the first array's, rows
  64 … 127 the second's.
-/
import proofs.«161518_j12833362280505_1_alg».proof.Proof.RefTerm
import Idealize.ShloMosaic.Lib.ValueIdx
import Idealize.ShloMosaic.Lib.Pipeline.Value

noncomputable section

namespace Cert.ReferenceIdeal.RefRead

open Idealize.ShloMosaic Idealize.ShloMosaic.ValueIdx Cert.ReferenceIdeal
open scoped BigOperators

/-- Entry (i, j, d) of the stack is the first array's at (i, j, d) for i below 64, else the second's at
    (i - 64, j, d). -/
theorem cat_apply (a b : FVec Ideal S64x64x128 .f32) (i : Fin 128) (j : Fin 64) (d : Fin 128) :
    RefTerm.cat a b (ix3 i j d) = if h : i.val < 64 then a (ix3 (⟨i.val, h⟩ : Fin 64) j d)
      else b (ix3 (⟨i.val - 64, by omega⟩ : Fin 64) j d) := by
  unfold RefTerm.cat
  split
  · next h =>
    refine concatenate_pair_apply_left _ a b _ (ix3 i j d) rfl (ix3 (⟨i.val, h⟩ : Fin 64) j d) ?_
    intro c
    match c with
    | ⟨0, _⟩ => rfl
    | ⟨1, _⟩ => rfl
    | ⟨2, _⟩ => rfl
  · next h =>
    refine concatenate_pair_apply_right _ a b _ (ix3 i j d) rfl rfl (ix3 (⟨i.val - 64, by omega⟩ : Fin 64) j d) ?_ ?_
    · intro c hc
      match c, hc with
      | ⟨0, _⟩, hc => exact absurd rfl hc
      | ⟨1, _⟩, _ => rfl
      | ⟨2, _⟩, _ => rfl
    · show (i.val - 64) + 64 = i.val
      omega

end Cert.ReferenceIdeal.RefRead

end
-- ==== Proof.RefReadIdx.lean ====
/-
  The reference's three integer index arrays read at a row. Each is a closed term: a counter along the rows,
  wrapped into range the way an array index that may be negative is wrapped (add the extent where the index is
  below zero), laid out as a column and paired with a second column. Row b of the first array is (b, b); row b of the
  second is (b, (64 + b) mod 128), the remainder being the floored one (the truncated
  remainder, moved by the divisor where it is not zero and its sign differs from the divisor's); row j of the
  third is (j, j). The words are decided row by row; the arrays are read down to the words by the layout
  operations' reading lemmas.
-/
import proofs.«161518_j12833362280505_1_alg».proof.Proof.RefTerm
import Idealize.ShloMosaic.Lib.ValueIdx
import Idealize.ShloMosaic.Lib.Pipeline.Value

noncomputable section

namespace Cert.ReferenceIdeal.RefRead

open Idealize.ShloMosaic Idealize.ShloMosaic.ValueIdx Cert.ReferenceIdeal
open scoped BigOperators

/-! ## The words -/

/-- An index that may be negative, wrapped into `[0, n)`: `x + n` where `x < 0`, else `x`. -/
def wrapW (n x : BitVec 32) : BitVec 32 := Scalar.select (IntOp.cmpi .slt x 0#32) (IntOp.addi x n) x

/-- The floored remainder of `x` by 128 as the reference computes it: the divisor is 128 (1 were it zero), the
    truncated remainder is moved by the divisor where it is not zero and its sign is not the divisor's. -/
def remW (x : BitVec 32) : BitVec 32 :=
  Scalar.select
    (IntOp.andi
      (IntOp.cmpi .ne
        (IntOp.cmpi .slt (IntOp.remsi .host x (Scalar.select (IntOp.cmpi .eq 128#32 0#32) 1#32 128#32)) 0#32)
        (IntOp.cmpi .slt (Scalar.select (IntOp.cmpi .eq 128#32 0#32) 1#32 128#32) 0#32))
      (IntOp.cmpi .ne (IntOp.remsi .host x (Scalar.select (IntOp.cmpi .eq 128#32 0#32) 1#32 128#32)) 0#32))
    (IntOp.addi (IntOp.remsi .host x (Scalar.select (IntOp.cmpi .eq 128#32 0#32) 1#32 128#32))
      (Scalar.select (IntOp.cmpi .eq 128#32 0#32) 1#32 128#32))
    (IntOp.remsi .host x (Scalar.select (IntOp.cmpi .eq 128#32 0#32) 1#32 128#32))

/-- A row number below 128 is not negative: wrapping leaves it. -/
theorem wrap128_row : ∀ b : Fin 128, wrapW 128#32 (BitVec.ofNat 32 b.val) = BitVec.ofNat 32 b.val := by decide

/-- A row number below 64 likewise. -/
theorem wrap64_row : ∀ j : Fin 64, wrapW 64#32 (BitVec.ofNat 32 j.val) = BitVec.ofNat 32 j.val := by decide

/-- The partner of row b: (64 + b) mod 128, already in range. -/
theorem pair_row : ∀ b : Fin 128,
    wrapW 128#32 (remW (IntOp.addi 64#32 (BitVec.ofNat 32 b.val))) = BitVec.ofNat 32 ((64 + b.val) % 128) := by decide

/-- A word holding a number below 128, read signed and clamped into [0, 127], is that number. -/
theorem clamp128 : ∀ b : Fin 128, min (BitVec.ofNat 32 b.val).toInt.toNat 127 = b.val := by decide

/-- A word holding a number below 64, read signed and clamped into [0, 63], is that number. -/
theorem clamp64 : ∀ j : Fin 64, min (BitVec.ofNat 32 j.val).toInt.toNat 63 = j.val := by decide

/-! ## The layout: a vector as a column, two columns side by side -/

/-- A vector of 128 words laid out as a [128, 1] column reads the vector at the row. -/
theorem col128_apply (v : IVec S128 32) (b : Fin 128) :
    broadcastInDim S128x1 ![0] Facts₀.bcast_S128_S128x1_0 v (ix2 b (0 : Fin 1)) = v (ix1 b) := by
  refine broadcastInDim_apply _ _ v _ (ix1 b) ?_
  intro a
  match a with
  | ⟨0, _⟩ => rfl

/-- Two [128, 1] columns side by side read the first at column 0 … -/
theorem cols128_apply0 (u v : IVec S128x1 32) (b : Fin 128) :
    concatenate S128x2 1 [⟨S128x1, u⟩, ⟨S128x1, v⟩] Facts₀.concatenates_S128x1_S128x1_S128x2_d1 (ix2 b (0 : Fin 2))
      = u (ix2 b (0 : Fin 1)) := by
  refine concatenate_pair_apply_left _ u v _ (ix2 b (0 : Fin 2)) rfl (ix2 b (0 : Fin 1)) ?_
  intro c
  match c with
  | ⟨0, _⟩ => rfl
  | ⟨1, _⟩ => rfl

/-- … and the second at column 1. -/
theorem cols128_apply1 (u v : IVec S128x1 32) (b : Fin 128) :
    concatenate S128x2 1 [⟨S128x1, u⟩, ⟨S128x1, v⟩] Facts₀.concatenates_S128x1_S128x1_S128x2_d1 (ix2 b (1 : Fin 2))
      = v (ix2 b (0 : Fin 1)) := by
  refine concatenate_pair_apply_right _ u v _ (ix2 b (1 : Fin 2)) rfl rfl (ix2 b (0 : Fin 1)) ?_ ?_
  · intro c hc
    match c, hc with
    | ⟨0, _⟩, _ => rfl
    | ⟨1, _⟩, hc => exact absurd rfl hc
  · rfl

/-- A vector of 64 words laid out as a [64, 1] column reads the vector at the row. -/
theorem col64_apply (v : IVec S64 32) (j : Fin 64) :
    broadcastInDim S64x1 ![0] Facts₀.bcast_S64_S64x1_0 v (ix2 j (0 : Fin 1)) = v (ix1 j) := by
  refine broadcastInDim_apply _ _ v _ (ix1 j) ?_
  intro a
  match a with
  | ⟨0, _⟩ => rfl

/-- Two [64, 1] columns side by side read the first at column 0 … -/
theorem cols64_apply0 (u v : IVec S64x1 32) (j : Fin 64) :
    concatenate S64x2 1 [⟨S64x1, u⟩, ⟨S64x1, v⟩] Facts₀.concatenates_S64x1_S64x1_S64x2_d1 (ix2 j (0 : Fin 2))
      = u (ix2 j (0 : Fin 1)) := by
  refine concatenate_pair_apply_left _ u v _ (ix2 j (0 : Fin 2)) rfl (ix2 j (0 : Fin 1)) ?_
  intro c
  match c with
  | ⟨0, _⟩ => rfl
  | ⟨1, _⟩ => rfl

/-- … and the second at column 1. -/
theorem cols64_apply1 (u v : IVec S64x1 32) (j : Fin 64) :
    concatenate S64x2 1 [⟨S64x1, u⟩, ⟨S64x1, v⟩] Facts₀.concatenates_S64x1_S64x1_S64x2_d1 (ix2 j (1 : Fin 2))
      = v (ix2 j (0 : Fin 1)) := by
  refine concatenate_pair_apply_right _ u v _ (ix2 j (1 : Fin 2)) rfl rfl (ix2 j (0 : Fin 1)) ?_ ?_
  · intro c hc
    match c, hc with
    | ⟨0, _⟩, _ => rfl
    | ⟨1, _⟩, hc => exact absurd rfl hc
  · rfl

/-! ## The three arrays at a row -/

/-- The floored remainder of 64 + b at row b, as a word. -/
theorem remV_apply (b : Fin 128) : RefTerm.remV (ix1 b) = remW (IntOp.addi 64#32 (BitVec.ofNat 32 b.val)) := rfl

/-- Row b of the first index array is (b, b): column 0 … -/
theorem idxA_row0 (b : Fin 128) : RefTerm.idxA (ix2 b (0 : Fin 2)) = BitVec.ofNat 32 b.val := by
  unfold RefTerm.idxA
  refine (cols128_apply0 _ _ b).trans ((col128_apply _ b).trans ?_)
  exact wrap128_row b

/-- … and column 1. -/
theorem idxA_row1 (b : Fin 128) : RefTerm.idxA (ix2 b (1 : Fin 2)) = BitVec.ofNat 32 b.val := by
  unfold RefTerm.idxA
  refine (cols128_apply1 _ _ b).trans ((col128_apply _ b).trans ?_)
  exact wrap128_row b

/-- Row b of the second index array is (b, (64 + b) mod 128): column 0 … -/
theorem idxB_row0 (b : Fin 128) : RefTerm.idxB (ix2 b (0 : Fin 2)) = BitVec.ofNat 32 b.val := by
  unfold RefTerm.idxB
  refine (cols128_apply0 _ _ b).trans ((col128_apply _ b).trans ?_)
  exact wrap128_row b

/-- … and column 1. -/
theorem idxB_row1 (b : Fin 128) : RefTerm.idxB (ix2 b (1 : Fin 2)) = BitVec.ofNat 32 ((64 + b.val) % 128) := by
  unfold RefTerm.idxB
  refine (cols128_apply1 _ _ b).trans ((col128_apply _ b).trans ?_)
  refine Eq.trans ?_ (pair_row b)
  show wrapW 128#32 (RefTerm.remV (ix1 b)) = _
  rw [remV_apply]

/-- Row j of the third index array is (j, j): column 0 … -/
theorem idxD_row0 (j : Fin 64) : RefTerm.idxD (ix2 j (0 : Fin 2)) = BitVec.ofNat 32 j.val := by
  unfold RefTerm.idxD
  refine (cols64_apply0 _ _ j).trans ((col64_apply _ j).trans ?_)
  exact wrap64_row j

/-- … and column 1. -/
theorem idxD_row1 (j : Fin 64) : RefTerm.idxD (ix2 j (1 : Fin 2)) = BitVec.ofNat 32 j.val := by
  unfold RefTerm.idxD
  refine (cols64_apply1 _ _ j).trans ((col64_apply _ j).trans ?_)
  exact wrap64_row j

end Cert.ReferenceIdeal.RefRead

end
-- ==== Proof.LibGather4.lean ====
/-
  Two `stablehlo.gather`s read at an index, for ANY array of start indices and any extents.

  (1) What `x[idx0, :, idx1, :]` of a rank-4 array `x : [N0, N1, N2, N3]` at two integer vectors of length K lowers
  to: start indices `[K, 2]` (row b holds the pair), offset_dims [1, 2], collapsed_slice_dims [0, 2],
  start_index_map [0, 2], index_vector_dim 1, slice_sizes [1, N1, 1, N3]. Result element (b, j, n) is the operand
  at (r0, j, r2, n), where r0 and r2 are row b's two start indices, each read as a SIGNED integer and clamped into
  its axis (StableHLO clamps every start index so that the slice fits).

  (2) What a diagonal over the two trailing axes of a rank-3 array `x : [M, N1, N2]` lowers to: start indices
  `[K, 2]`, offset_dims [0], collapsed_slice_dims [1, 2], start_index_map [1, 2], index_vector_dim 1,
  slice_sizes [M, 1, 1]. Result element (i, j) is the operand at (i, r1, r2), with r1 and r2 row j's two start
  indices, read signed and clamped.
-/
import Idealize.ShloMosaic.Lib.ValueIdx

noncomputable section

namespace Cert.LibGather4

open Idealize.ShloMosaic Idealize.ShloMosaic.ValueIdx

variable {α : Type}

/-! ## Two collapsed axes of a rank-4 operand -/

/-- The dimension numbers of (1); their conditions `wf` are decided on a program's literal shapes. -/
abbrev pairDims (N0 N1 N2 N3 K : Nat)
    (wf : GatherDims.WF ⟨4, ![N0, N1, N2, N3]⟩ ⟨2, ![K, 2]⟩ ⟨3, ![K, N1, N3]⟩ [1, 2] [0, 2] [] [0, 2] [] 1 ![1, N1, 1, N3]) :
    GatherDims ⟨4, ![N0, N1, N2, N3]⟩ ⟨2, ![K, 2]⟩ ⟨3, ![K, N1, N3]⟩ where
  offsetDims := [1, 2]
  collapsedSliceDims := [0, 2]
  operandBatchingDims := []
  startIndicesBatchingDims := []
  startIndexMap := [0, 2]
  indexVectorDim := 1
  sliceSizes := ![1, N1, 1, N3]
  wf := wf

/-- THE GATHER (1) READ AT (b, j, n): the operand at (r0, j, r2, n), the two start indices of row b read signed and
    clamped into `[0, N0 − 1]` and `[0, N2 − 1]`. -/
theorem gather_pair_apply {N0 N1 N2 N3 K w : Nat} (h0 : 0 < N0) (h2 : 0 < N2)
    (wf : GatherDims.WF ⟨4, ![N0, N1, N2, N3]⟩ ⟨2, ![K, 2]⟩ ⟨3, ![K, N1, N3]⟩ [1, 2] [0, 2] [] [0, 2] [] 1 ![1, N1, 1, N3])
    (x : (⟨4, ![N0, N1, N2, N3]⟩ : Shape).Idx → α) (idx : IVec ⟨2, ![K, 2]⟩ w) (b : Fin K) (j : Fin N1) (n : Fin N3) :
    Host.gather (pairDims N0 N1 N2 N3 K wf) x idx (ix3 b j n)
      = x (ix4 (⟨min (idx (ix2 b (0 : Fin 2))).toInt.toNat (N0 - 1), by omega⟩ : Fin N0) j
          (⟨min (idx (ix2 b (1 : Fin 2))).toInt.toNat (N2 - 1), by omega⟩ : Fin N2) n) := by
  have m0 : (0 : Fin 4) ∈ ([0, 2] : List (Fin 4)) := by decide
  have m2 : (2 : Fin 4) ∈ ([0, 2] : List (Fin 4)) := by decide
  have n1 : (1 : Fin 4) ∉ ([0, 2] : List (Fin 4)) := by decide
  have n3 : (3 : Fin 4) ∉ ([0, 2] : List (Fin 4)) := by decide
  unfold Host.gather
  congr 1
  funext a
  refine Fin.ext ?_
  match a with
  | ⟨0, _⟩ =>
    show (pairDims N0 N1 N2 N3 K wf).start (ix3 b j n) idx 0 + (pairDims N0 N1 N2 N3 K wf).batchCoord (ix3 b j n) 0 + (pairDims N0 N1 N2 N3 K wf).offCoord (ix3 b j n) 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 4) ∈ (pairDims N0 N1 N2 N3 K wf).startIndexMap from m0)]
    have hsi : (pairDims N0 N1 N2 N3 K wf).siIdx (ix3 b j n) ⟨List.idxOf (0 : Fin 4) (pairDims N0 N1 N2 N3 K wf).startIndexMap,
        List.idxOf_lt_length_iff.2 m0⟩ = ix2 b (0 : Fin 2) := by
      funext c
      refine Fin.ext ?_
      match c with
      | ⟨0, _⟩ => rfl
      | ⟨1, _⟩ => rfl
    rw [hsi]
    rfl
  | ⟨1, _⟩ =>
    show (pairDims N0 N1 N2 N3 K wf).start (ix3 b j n) idx 1 + (pairDims N0 N1 N2 N3 K wf).batchCoord (ix3 b j n) 1 + (pairDims N0 N1 N2 N3 K wf).offCoord (ix3 b j n) 1 = j.val
    rw [GatherDims.batchCoord_eq_zero _ _ _ List.not_mem_nil]
    unfold GatherDims.start
    rw [dif_neg (show (1 : Fin 4) ∉ (pairDims N0 N1 N2 N3 K wf).startIndexMap from n1)]
    simp only [Nat.add_zero, Nat.zero_add]
    unfold GatherDims.offCoord
    rw [dif_pos (show (1 : Fin 4) ∈ (pairDims N0 N1 N2 N3 K wf).sKept from (GatherDims.mem_sKept _ _).mpr ⟨n1, List.not_mem_nil⟩)]
    rfl
  | ⟨2, _⟩ =>
    show (pairDims N0 N1 N2 N3 K wf).start (ix3 b j n) idx 2 + (pairDims N0 N1 N2 N3 K wf).batchCoord (ix3 b j n) 2 + (pairDims N0 N1 N2 N3 K wf).offCoord (ix3 b j n) 2 = _
    rw [GatherDims.batchCoord_eq_zero _ _ _ List.not_mem_nil,
      GatherDims.offCoord_eq_zero _ _ _ (fun h => ((GatherDims.mem_sKept _ _).mp h).1 m2)]
    simp only [Nat.add_zero]
    unfold GatherDims.start
    rw [dif_pos (show (2 : Fin 4) ∈ (pairDims N0 N1 N2 N3 K wf).startIndexMap from m2)]
    have hsi : (pairDims N0 N1 N2 N3 K wf).siIdx (ix3 b j n) ⟨List.idxOf (2 : Fin 4) (pairDims N0 N1 N2 N3 K wf).startIndexMap,
        List.idxOf_lt_length_iff.2 m2⟩ = ix2 b (1 : Fin 2) := by
      funext c
      refine Fin.ext ?_
      match c with
      | ⟨0, _⟩ => rfl
      | ⟨1, _⟩ => rfl
    rw [hsi]
    rfl
  | ⟨3, _⟩ =>
    show (pairDims N0 N1 N2 N3 K wf).start (ix3 b j n) idx 3 + (pairDims N0 N1 N2 N3 K wf).batchCoord (ix3 b j n) 3 + (pairDims N0 N1 N2 N3 K wf).offCoord (ix3 b j n) 3 = n.val
    rw [GatherDims.batchCoord_eq_zero _ _ _ List.not_mem_nil]
    unfold GatherDims.start
    rw [dif_neg (show (3 : Fin 4) ∉ (pairDims N0 N1 N2 N3 K wf).startIndexMap from n3)]
    simp only [Nat.add_zero, Nat.zero_add]
    unfold GatherDims.offCoord
    rw [dif_pos (show (3 : Fin 4) ∈ (pairDims N0 N1 N2 N3 K wf).sKept from (GatherDims.mem_sKept _ _).mpr ⟨n3, List.not_mem_nil⟩)]
    rfl

/-! ## The two trailing axes of a rank-3 operand collapsed -/

/-- The dimension numbers of (2). -/
abbrev diagDims (M N1 N2 K : Nat)
    (wf : GatherDims.WF ⟨3, ![M, N1, N2]⟩ ⟨2, ![K, 2]⟩ ⟨2, ![M, K]⟩ [0] [1, 2] [] [1, 2] [] 1 ![M, 1, 1]) :
    GatherDims ⟨3, ![M, N1, N2]⟩ ⟨2, ![K, 2]⟩ ⟨2, ![M, K]⟩ where
  offsetDims := [0]
  collapsedSliceDims := [1, 2]
  operandBatchingDims := []
  startIndicesBatchingDims := []
  startIndexMap := [1, 2]
  indexVectorDim := 1
  sliceSizes := ![M, 1, 1]
  wf := wf

/-- THE GATHER (2) READ AT (i, j): the operand at (i, r1, r2), the two start indices of row j read signed and clamped
    into `[0, N1 − 1]` and `[0, N2 − 1]`. -/
theorem gather_diag_apply {M N1 N2 K w : Nat} (h1 : 0 < N1) (h2 : 0 < N2)
    (wf : GatherDims.WF ⟨3, ![M, N1, N2]⟩ ⟨2, ![K, 2]⟩ ⟨2, ![M, K]⟩ [0] [1, 2] [] [1, 2] [] 1 ![M, 1, 1])
    (x : (⟨3, ![M, N1, N2]⟩ : Shape).Idx → α) (idx : IVec ⟨2, ![K, 2]⟩ w) (i : Fin M) (j : Fin K) :
    Host.gather (diagDims M N1 N2 K wf) x idx (ix2 i j)
      = x (ix3 i (⟨min (idx (ix2 j (0 : Fin 2))).toInt.toNat (N1 - 1), by omega⟩ : Fin N1)
          (⟨min (idx (ix2 j (1 : Fin 2))).toInt.toNat (N2 - 1), by omega⟩ : Fin N2)) := by
  have m1 : (1 : Fin 3) ∈ ([1, 2] : List (Fin 3)) := by decide
  have m2 : (2 : Fin 3) ∈ ([1, 2] : List (Fin 3)) := by decide
  have n0 : (0 : Fin 3) ∉ ([1, 2] : List (Fin 3)) := by decide
  unfold Host.gather
  congr 1
  funext a
  refine Fin.ext ?_
  match a with
  | ⟨0, _⟩ =>
    show (diagDims M N1 N2 K wf).start (ix2 i j) idx 0 + (diagDims M N1 N2 K wf).batchCoord (ix2 i j) 0 + (diagDims M N1 N2 K wf).offCoord (ix2 i j) 0 = i.val
    rw [GatherDims.batchCoord_eq_zero _ _ _ List.not_mem_nil]
    unfold GatherDims.start
    rw [dif_neg (show (0 : Fin 3) ∉ (diagDims M N1 N2 K wf).startIndexMap from n0)]
    simp only [Nat.add_zero, Nat.zero_add]
    unfold GatherDims.offCoord
    rw [dif_pos (show (0 : Fin 3) ∈ (diagDims M N1 N2 K wf).sKept from (GatherDims.mem_sKept _ _).mpr ⟨n0, List.not_mem_nil⟩)]
    rfl
  | ⟨1, _⟩ =>
    show (diagDims M N1 N2 K wf).start (ix2 i j) idx 1 + (diagDims M N1 N2 K wf).batchCoord (ix2 i j) 1 + (diagDims M N1 N2 K wf).offCoord (ix2 i j) 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 3) ∈ (diagDims M N1 N2 K wf).startIndexMap from m1)]
    have hsi : (diagDims M N1 N2 K wf).siIdx (ix2 i j) ⟨List.idxOf (1 : Fin 3) (diagDims M N1 N2 K wf).startIndexMap,
        List.idxOf_lt_length_iff.2 m1⟩ = ix2 j (0 : Fin 2) := by
      funext c
      refine Fin.ext ?_
      match c with
      | ⟨0, _⟩ => rfl
      | ⟨1, _⟩ => rfl
    rw [hsi]
    rfl
  | ⟨2, _⟩ =>
    show (diagDims M N1 N2 K wf).start (ix2 i j) idx 2 + (diagDims M N1 N2 K wf).batchCoord (ix2 i j) 2 + (diagDims M N1 N2 K wf).offCoord (ix2 i j) 2 = _
    rw [GatherDims.batchCoord_eq_zero _ _ _ List.not_mem_nil,
      GatherDims.offCoord_eq_zero _ _ _ (fun h => ((GatherDims.mem_sKept _ _).mp h).1 m2)]
    simp only [Nat.add_zero]
    unfold GatherDims.start
    rw [dif_pos (show (2 : Fin 3) ∈ (diagDims M N1 N2 K wf).startIndexMap from m2)]
    have hsi : (diagDims M N1 N2 K wf).siIdx (ix2 i j) ⟨List.idxOf (2 : Fin 3) (diagDims M N1 N2 K wf).startIndexMap,
        List.idxOf_lt_length_iff.2 m2⟩ = ix2 j (1 : Fin 2) := by
      funext c
      refine Fin.ext ?_
      match c with
      | ⟨0, _⟩ => rfl
      | ⟨1, _⟩ => rfl
    rw [hsi]
    rfl

end Cert.LibGather4

end
-- ==== Proof.RefRead.lean ====
/-
  The reference's stages read at an index, at the ideal values: the stacked array, the table of exponentials of
  all pairwise dot products, its row totals, the sums inside the diagonal blocks, and the cross-view entries.

  The last two are gathers at closed integer index arrays. Row b of the first array is (b, b), so the first
  gather takes block (b, ·, b, ·) of the table and its last-axis sum at (i, j) is the sum over n of entries
  (i, j, i, n). Row b of the second array is (b, (64 + b) mod 128) and row j of the third is (j, j), so the
  diagonal of the second gather at (i, j) is entry (i, j, (64 + i) mod 128, j). Every start index is in range, so
  the clamping of the gathers changes nothing.
-/
import proofs.«161518_j12833362280505_1_alg».proof.Proof.RefTerm
import proofs.«161518_j12833362280505_1_alg».proof.Proof.RefReadDot
import proofs.«161518_j12833362280505_1_alg».proof.Proof.RefReadSum
import proofs.«161518_j12833362280505_1_alg».proof.Proof.RefReadCat
import proofs.«161518_j12833362280505_1_alg».proof.Proof.RefReadIdx
import proofs.«161518_j12833362280505_1_alg».proof.Proof.LibGather4
import Idealize.ShloMosaic.Lib.ValueIdx

noncomputable section

namespace Cert.ReferenceIdeal.RefRead

open Idealize.ShloMosaic Idealize.ShloMosaic.ValueIdx Cert.ReferenceIdeal
open scoped BigOperators

open Cert.LibGather4

/-- The first gather at (b, j, n): the table at (b, j, b, n). -/
theorem gA_apply (e : FVec Ideal S128x64x128x64 .f32) (b : Fin 128) (j n : Fin 64) :
    RefTerm.gA e (ix3 b j n) = e (ix4 b j b n) := by
  unfold RefTerm.gA
  refine (gather_pair_apply (N0 := 128) (N1 := 64) (N2 := 128) (N3 := 64) (K := 128) (by decide) (by decide)
    Facts₀.gather_S128x64x128x64_S128x2_S128x64x64_12_02_n_n_02_1_164164_wf e RefTerm.idxA b j n).trans ?_
  refine congrArg e (funext fun a => Fin.ext ?_)
  match a with
  | ⟨0, _⟩ =>
    show min (RefTerm.idxA (ix2 b (0 : Fin 2))).toInt.toNat (128 - 1) = b.val
    rw [idxA_row0]; exact clamp128 b
  | ⟨1, _⟩ => rfl
  | ⟨2, _⟩ =>
    show min (RefTerm.idxA (ix2 b (1 : Fin 2))).toInt.toNat (128 - 1) = b.val
    rw [idxA_row1]; exact clamp128 b
  | ⟨3, _⟩ => rfl

/-- The second gather at (b, j, n): the table at (b, j, (64 + b) mod 128, n). -/
theorem gB_apply (e : FVec Ideal S128x64x128x64 .f32) (b : Fin 128) (j n : Fin 64) :
    RefTerm.gB e (ix3 b j n) = e (ix4 b j (⟨(64 + b.val) % 128, Nat.mod_lt _ (by decide)⟩ : Fin 128) n) := by
  unfold RefTerm.gB
  refine (gather_pair_apply (N0 := 128) (N1 := 64) (N2 := 128) (N3 := 64) (K := 128) (by decide) (by decide)
    Facts₀.gather_S128x64x128x64_S128x2_S128x64x64_12_02_n_n_02_1_164164_wf e RefTerm.idxB b j n).trans ?_
  refine congrArg e (funext fun a => Fin.ext ?_)
  match a with
  | ⟨0, _⟩ =>
    show min (RefTerm.idxB (ix2 b (0 : Fin 2))).toInt.toNat (128 - 1) = b.val
    rw [idxB_row0]; exact clamp128 b
  | ⟨1, _⟩ => rfl
  | ⟨2, _⟩ =>
    show min (RefTerm.idxB (ix2 b (1 : Fin 2))).toInt.toNat (128 - 1) = (64 + b.val) % 128
    rw [idxB_row1]
    exact clamp128 (⟨(64 + b.val) % 128, Nat.mod_lt _ (by decide)⟩ : Fin 128)
  | ⟨3, _⟩ => rfl

/-- The sums inside the diagonal blocks: entry (i, j) is the sum over n of the table's entries (i, j, i, n). -/
theorem pos1_apply (e : FVec Ideal S128x64x128x64 .f32) (i : Fin 128) (j : Fin 64) :
    RefTerm.pos1 e (ix2 i j) = ∑ n : Fin 64, e (ix4 i j i n) := by
  unfold RefTerm.pos1
  rw [sumLast_apply]
  exact Finset.sum_congr rfl fun n _ => gA_apply e i j n

/-- The cross-view entries: entry (i, j) is the table's entry (i, j, (64 + i) mod 128, j). -/
theorem pos2_apply (e : FVec Ideal S128x64x128x64 .f32) (i : Fin 128) (j : Fin 64) :
    RefTerm.pos2 e (ix2 i j) = e (ix4 i j (⟨(64 + i.val) % 128, Nat.mod_lt _ (by decide)⟩ : Fin 128) j) := by
  unfold RefTerm.pos2
  refine (gather_diag_apply (M := 128) (N1 := 64) (N2 := 64) (K := 64) (by decide) (by decide)
    Facts₀.gather_S128x64x64_S64x2_S128x64_0_12_n_n_12_1_12811_wf (RefTerm.gB e) RefTerm.idxD i j).trans ?_
  refine Eq.trans (congrArg (RefTerm.gB e) (funext fun a => Fin.ext ?_)) (gB_apply e i j j)
  match a with
  | ⟨0, _⟩ => rfl
  | ⟨1, _⟩ =>
    show min (RefTerm.idxD (ix2 j (0 : Fin 2))).toInt.toNat (64 - 1) = j.val
    rw [idxD_row0]; exact clamp64 j
  | ⟨2, _⟩ =>
    show min (RefTerm.idxD (ix2 j (1 : Fin 2))).toInt.toNat (64 - 1) = j.val
    rw [idxD_row1]; exact clamp64 j

end Cert.ReferenceIdeal.RefRead

end
-- ==== Proof.LibRows.lean ====
/-
  Rows of a two-axis array read at an index, at the ideal values (floats as extended reals): general
  lemmas, none of them about a particular program.

  * Keepdims columns. A vector [a] viewed as a column [a, 1] reads, at (p, 0), entry p; a column [a, 1]
    spread along the rows of [a, b] reads, at (p, c), the column's entry (p, 0) — as a kernel's
    `vector.shape_cast` / `vector.broadcast` and as the host's `broadcast_in_dim`; likewise a vector [b]
    as one row [1, b], one row spread down [a, b], and a scalar spread over [a].
  * One-axis reductions over the LAST axis of [a, b]. The index that reduces to row p with coordinate k
    put back is (p, k); so a row maximum taken from −∞ is the fold of `max` over the row's b entries and a
    row sum is the sum over them — for a kernel's `vector.multi_reduction` and for the host's
    `stablehlo.reduce` alike.
  * A rows-by-columns product. For dimension numbers that contract the left operand's last axis with the
    right operand's first one, a `tpu.matmul` into a zero accumulator and the host's `dot_general` are, at
    (p, c), the sum over k of lhs (p, k) · rhs (k, c).
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibRows

open Idealize.ShloMosaic Idealize.ShloMosaic.ValueIdx

/-! ## −∞ and a row's maximum -/

/-- The f32 word of −∞, as an extended real. -/
abbrev negInf : EReal := Ideal.ofBits .f32 0xFF800000#32

/-- −∞ is neutral for the maximum. -/
theorem max_negInf (y : EReal) : max negInf y = y := by
  show max (Ideal.ofBits .f32 0xFF800000#32) y = y
  simp [Ideal.ofBits, Ideal.ieee]

/-- The maximum of n extended reals, taken from −∞. -/
def rowMax {n : Nat} (z : Fin n → EReal) : EReal := (Finset.univ : Finset (Fin n)).fold max negInf z

/-! ## Keepdims columns and rows -/

section Layout
variable {α : Type}

/-- A vector [a] cast to a column [a, 1] reads, at (p, u), entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast along the rows of [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: `broadcast_in_dim` of [a] to [a, 1] along axis 0. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's form of the second: `broadcast_in_dim` of [a, 1] to [a, b] along both axes. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A vector [b] as one row [1, b] (`broadcast_in_dim` along axis 1) reads, at (u, c), entry c. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- One row [1, b] spread down [a, b] (`broadcast_in_dim` along both axes) reads, at (p, c), the row at (0, c). -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A scalar spread over [a] reads the scalar everywhere. -/
theorem broadcastInDim_scalar_a_apply {a : ℕ} (x : (⟨0, ![]⟩ : Shape).Idx → α)
    (h : (⟨0, ![]⟩ : Shape).BroadcastsInDim ⟨1, ![a]⟩ ![]) (p : Fin a) :
    broadcastInDim ⟨1, ![a]⟩ ![] h x (ix1 p) = x ix0 :=
  broadcastInDim_apply _ h x (ix1 p) ix0 fun ax => ax.elim0

end Layout

/-! ## Reductions over the last axis of [a, b] -/

/-- Row p with coordinate k put back on the reduced (last) axis is the index (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A kernel's row maximum from −∞: the fold of `max` over the row's entries. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p) = rowMax fun k : Fin b => src (ix2 p k) := by
  refine (Ideal.multiReduction_maximumf_single src 0xFF800000#32 h hφ hacc (ix1 p)).trans ?_
  have hf : (src ∘ h.lift (ix1 p)) = fun k : Fin b => src (ix2 p k) := funext fun k => congrArg src (lift_row h p k)
  exact congrArg (fun f => Finset.fold max negInf f (Finset.univ : Finset (Fin b))) hf

/-- A kernel's row sum: the sum over the row's entries. -/
theorem multiReduction_add_row {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The host's row maximum from −∞ (`stablehlo.reduce` with a `maximum` body): the same fold. -/
theorem hostReduce_maximumf_row {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x (constant (F := Ideal) (⟨0, ![]⟩ : Shape) .f32 0xFF800000#32) h' hu (ix1 p)
      = rowMax fun k : Fin b => x (ix2 p k) := by
  rw [Host.reduce_eq_fold_single FloatOps.maximumf x _ h' h hu]
  have hf : (x ∘ h.lift (ix1 p)) = fun k : Fin b => x (ix2 p k) := funext fun k => congrArg x (lift_row h p k)
  exact congrArg (fun f => Finset.fold max negInf f (Finset.univ : Finset (Fin b))) hf

/-- The host's row sum from zero (`stablehlo.reduce` with an `add` body): the sum over the row's entries. -/
theorem hostReduceAdd_row {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x (constant (F := Ideal) (⟨0, ![]⟩ : Shape) .f32 0x00000000#32) h' hu (ix1 p)
      = ∑ k : Fin b, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (lift_row h p k)

/-! ## A rows-by-columns product -/

/-- For dimension numbers whose one contraction index runs over K, reading the left operand at (row, k) and the
    right one at (k, column) — stated as the four coordinate facts `hl0 … hr1`, which a program's own record of
    dimension numbers gives —, the sum over the contraction index at (p, c) is the sum over k of
    lhs (p, k) · rhs (k, c). -/
theorem dot_rows_sum {a K b : ℕ} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (l : (⟨2, ![a, K]⟩ : Shape).Idx → EReal) (r : (⟨2, ![K, b]⟩ : Shape).Idx → EReal) (p : Fin a) (c : Fin b) :
    ∑ q : d.contr.Idx, l (d.lhsIdx (ix2 p c) q) * r (d.rhsIdx (ix2 p c) q) = ∑ k : Fin K, l (ix2 p k) * r (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p c) ((contrEquiv1 d K hr hs).symm k) = ix2 k c := funext fun ax => Fin.ext (by
    match ax with
    | ⟨0, _⟩ => exact (hr0 _ _).trans hk
    | ⟨1, _⟩ => exact hr1 _ _)
  rw [el, er]

/-- So a `tpu.matmul` into the zero accumulator is that sum … -/
theorem matmul_zero_rows {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (prec : Option ContractPrecision) (lhs : FVec Ideal ⟨2, ![a, K]⟩ φ₁) (rhs : FVec Ideal ⟨2, ![K, b]⟩ φ₂) (p : Fin a) (c : Fin b) :
    FloatOps.matmul d prec lhs rhs (constant (⟨2, ![a, b]⟩ : Shape) .f32 0x00000000#32) (ix2 p c)
      = ∑ k : Fin K, lhs (ix2 p k) * rhs (ix2 k c) :=
  (Ideal.matmul_constant_zero_apply d prec lhs rhs (ix2 p c)).trans (dot_rows_sum d hr hs hl0 hl1 hr0 hr1 lhs rhs p c)

/-- … and so is the host's `dot_general`. -/
theorem dotGeneral_rows {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (prec : Option ContractPrecision) (sched : HostSchedule) (lhs : FVec Ideal ⟨2, ![a, K]⟩ φ₁) (rhs : FVec Ideal ⟨2, ![K, b]⟩ φ₂)
    (p : Fin a) (c : Fin b) :
    FloatOps.dotGeneral d prec sched lhs rhs (ix2 p c) = ∑ k : Fin K, lhs (ix2 p k) * rhs (ix2 k c) :=
  (Ideal.dotGeneral_apply d prec sched lhs rhs (ix2 p c)).trans (dot_rows_sum d hr hs hl0 hl1 hr0 hr1 lhs rhs p c)

end Cert.LibRows

end
-- ==== Proof.KerStep.lean ====
/-
  One grid point's arithmetic read at an index, at the ideal values: the exponentials of a row tile against a column
  tile are exp of the rows' dot products; the first accumulator gains each row's sum of them.
-/
import proofs.«161518_j12833362280505_1_alg».proof.Proof.KerSpec
import proofs.«161518_j12833362280505_1_alg».proof.Proof.LibRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KerVal

open Idealize.ShloMosaic Idealize.ShloMosaic.ValueIdx Cert.KernelIdeal Cert.KernelIdeal.Gen

/-! ## The body's one matrix product: its dimension numbers -/

/-- The dimension numbers of the body's matrix product: rows by columns, contracting the left operand's last axis with
    the right operand's first one. -/
abbrev D := dot_S512x128_S128x512_S512x512_1_0_0_1_n_n

theorem dot_rank : D.contr.rank = 1 := rfl
theorem dot_size : D.contr.size ⟨0, by rw [dot_rank]; exact Nat.one_pos⟩ = 128 := rfl
theorem dot_l0 (i : S512x512.Idx) (q : D.contr.Idx) : (D.lhsIdx i q 0).val = (i 0).val := rfl
theorem dot_l1 (i : S512x512.Idx) (q : D.contr.Idx) : (D.lhsIdx i q 1).val = (q ⟨0, by rw [dot_rank]; exact Nat.one_pos⟩).val := rfl
theorem dot_r0 (i : S512x512.Idx) (q : D.contr.Idx) : (D.rhsIdx i q 0).val = (q ⟨0, by rw [dot_rank]; exact Nat.one_pos⟩).val := rfl
theorem dot_r1 (i : S512x512.Idx) (q : D.contr.Idx) : (D.rhsIdx i q 1).val = (i 1).val := rfl

/-! ## One point's arithmetic at an index -/

/-- The exponentials of a row tile against a column tile: at (r, c), exp of the dot product of row r and row c. -/
theorem pay4_apply (q k : Vec Ideal S512x128 .bf16) (r c : Fin 512) :
    k0_pay4 q k (ix2 r c) = Ideal.exp (∑ d : Fin 128, q (ix2 r d) * k (ix2 c d)) := by
  unfold Gen.k0_pay4
  simp only [shapeCast_self]
  refine (congrArg Ideal.exp (Cert.LibRows.matmul_zero_rows D dot_rank dot_size dot_l0 dot_l1 dot_r0 dot_r1 none q
    (transpose S128x512 [1, 0] k transposes_S512x128_p1_0_S128x512) r c)).trans ?_
  exact congrArg Ideal.exp (Finset.sum_congr rfl fun d _ =>
    congrArg (q (ix2 r d) * ·) (transpose_ix2_apply k transposes_S512x128_p1_0_S128x512 d c))

/-- Both accumulators restart from zero. -/
theorem zeroTot_apply (j : S512x1.Idx) : KerSpec.zeroTot (F := Ideal) j = 0 := by
  unfold KerSpec.zeroTot Gen.k0_pay2
  simp only [shapeCast_self]
  exact Ideal.ofBits_zero_f32

theorem zeroPos_apply (j : S512x1.Idx) : KerSpec.zeroPos (F := Ideal) j = 0 := by
  unfold KerSpec.zeroPos Gen.k0_pay3
  simp only [shapeCast_self]
  exact Ideal.ofBits_zero_f32

/-- One point adds, to row r of the first accumulator, the sum over the column tile's 512 rows of the exponentials. -/
theorem stepTot_apply (q k : Vec Ideal S512x128 .bf16) (acc : Vec Ideal S512x1 .f32) (r : Fin 512) :
    KerSpec.stepTot q k acc (ix2 r (0 : Fin 1))
      = acc (ix2 r (0 : Fin 1)) + ∑ c : Fin 512, Ideal.exp (∑ d : Fin 128, q (ix2 r d) * k (ix2 c d)) := by
  unfold KerSpec.stepTot Gen.k0_pay7
  simp only [shapeCast_self]
  refine congrArg (acc (ix2 r (0 : Fin 1)) + ·) ?_
  refine (Cert.LibRows.shapeCast_a_a1_apply _ shapeCasts_S512_S512x1 r 0).trans ?_
  refine (Cert.LibRows.multiReduction_add_row (k0_pay4 q k) reduces_S512x512_S512 (.inl rfl) rfl r).trans ?_
  exact Finset.sum_congr rfl fun c _ => pay4_apply q k r c

end Cert.KernelIdeal.KerVal
end
-- ==== Proof.KerWords.lean ====
/-
  The 32-bit integer arithmetic the body does on row and column numbers, read on small non-negative numbers:
  a tile's first row (coordinate times 512), a row's number (that plus the row inside the tile), and jnp's floor
  division by 64 — the truncated quotient with a sign correction that never fires on a non-negative dividend — so that
  the words compared are the numbers' quotients by 64.
-/
import Idealize.ShloMosaic.PureOps
import Idealize.ShloMosaic.Lib.ValueIdx

namespace Cert.KernelIdeal.KerVal

open Idealize.ShloMosaic Idealize.ShloMosaic.ValueIdx

/-- The floor division by 64 of a 32-bit word as the body spells it: the truncated quotient, lowered by one when
    the operands' signs differ and the remainder is not zero. -/
def fdiv64 (X : BitVec 32) : BitVec 32 :=
  Scalar.select
    (IntOp.andi
      (IntOp.cmpi .ne
        (IntOp.subi ((IntOp.cmpi .sgt X 0#32).setWidth 32) ((IntOp.cmpi .slt X 0#32).setWidth 32))
        (Scalar.subi (Scalar.extui (Scalar.cmpi .sgt 64#32 0#32)) (Scalar.extui (Scalar.cmpi .slt 64#32 0#32))))
      (IntOp.cmpi .ne (IntOp.remsi .vector X 64#32) 0#32))
    (IntOp.subi (IntOp.divsi .vector X 64#32) 1#32)
    (IntOp.divsi .vector X 64#32)

theorem toNat_ofNat_small (x : Nat) (hx : x < 8192) : (BitVec.ofNat 32 x).toNat = x := by
  rw [BitVec.toNat_ofNat]; omega

theorem msb_ofNat_small (x : Nat) (hx : x < 8192) : (BitVec.ofNat 32 x).msb = false := by
  rw [BitVec.msb_eq_false_iff_two_mul_lt, toNat_ofNat_small x hx]; omega

theorem divsi64_small (x : Nat) (hx : x < 8192) :
    IntOp.divsi .vector (BitVec.ofNat 32 x) 64#32 = BitVec.ofNat 32 (x / 64) := by
  have hc : ¬ IntOp.SDivCorner (BitVec.ofNat 32 x) 64#32 := by
    rintro (h | ⟨-, h⟩) <;> exact absurd h (by decide)
  rw [IntOp.divsi, if_neg hc, BitVec.sdiv_eq, msb_ofNat_small x hx, show (64#32).msb = false by decide]
  dsimp only
  apply BitVec.eq_of_toNat_eq
  rw [BitVec.udiv_eq, BitVec.toNat_udiv, toNat_ofNat_small x hx, toNat_ofNat_small (x / 64) (by omega)]
  rfl

theorem remsi64_small (x : Nat) (hx : x < 8192) :
    IntOp.remsi .vector (BitVec.ofNat 32 x) 64#32 = BitVec.ofNat 32 (x % 64) := by
  have hc : ¬ IntOp.SDivCorner (BitVec.ofNat 32 x) 64#32 := by
    rintro (h | ⟨-, h⟩) <;> exact absurd h (by decide)
  rw [IntOp.remsi, if_neg hc, BitVec.srem_eq, msb_ofNat_small x hx, show (64#32).msb = false by decide]
  dsimp only
  apply BitVec.eq_of_toNat_eq
  rw [BitVec.toNat_umod, toNat_ofNat_small x hx, toNat_ofNat_small (x % 64) (by omega)]
  rfl

theorem fdiv64_small (x : Nat) (hx : x < 8192) : fdiv64 (BitVec.ofNat 32 x) = BitVec.ofNat 32 (x / 64) := by
  unfold fdiv64
  rw [divsi64_small x hx, remsi64_small x hx]
  have hcond : IntOp.andi
      (IntOp.cmpi .ne
        (IntOp.subi ((IntOp.cmpi .sgt (BitVec.ofNat 32 x) 0#32).setWidth 32) ((IntOp.cmpi .slt (BitVec.ofNat 32 x) 0#32).setWidth 32))
        (Scalar.subi (Scalar.extui (Scalar.cmpi .sgt 64#32 0#32)) (Scalar.extui (Scalar.cmpi .slt 64#32 0#32))))
      (IntOp.cmpi .ne (BitVec.ofNat 32 (x % 64)) 0#32) = 0#1 := by
    rcases Nat.eq_zero_or_pos x with rfl | hpos
    · decide
    · have h0 : (0#32).toInt = 0 := by decide
      have hs : (0#32).slt (BitVec.ofNat 32 x) = true := by
        rw [BitVec.slt_iff_toInt_lt, BitVec.toInt_eq_toNat_of_msb (msb_ofNat_small x hx), toNat_ofNat_small x hx, h0]
        omega
      have hl : (BitVec.ofNat 32 x).slt 0#32 = false := by
        rw [Bool.eq_false_iff]; intro h
        rw [BitVec.slt_iff_toInt_lt, BitVec.toInt_eq_toNat_of_msb (msb_ofNat_small x hx), toNat_ofNat_small x hx, h0] at h
        omega
      simp only [IntOp.cmpi, hs, hl]
      generalize BitVec.ofBool (BitVec.ofNat 32 (x % 64) != 0#32) = y
      rcases BitVec.eq_zero_or_eq_one y with rfl | rfl <;> decide
  rw [hcond, select_zero]

/-- Two small words are equal exactly when the numbers are. -/
theorem select_eq_small {α : Type} (m n : Nat) (hm : m < 8192) (hn : n < 8192) (a b : α) :
    Scalar.select (IntOp.cmpi .eq (BitVec.ofNat 32 m) (BitVec.ofNat 32 n)) a b = if m = n then a else b := by
  by_cases h : m = n
  · subst h
    rw [if_pos rfl]
    have : IntOp.cmpi .eq (BitVec.ofNat 32 m) (BitVec.ofNat 32 m) = 1#1 := by simp [IntOp.cmpi]
    rw [this, select_one]
  · rw [if_neg h]
    have hne : BitVec.ofNat 32 m ≠ BitVec.ofNat 32 n := fun e => h (by
      have := congrArg BitVec.toNat e
      rwa [toNat_ofNat_small m hm, toNat_ofNat_small n hn] at this)
    have hb : (BitVec.ofNat 32 m == BitVec.ofNat 32 n) = false := beq_eq_false_iff_ne.mpr hne
    have : IntOp.cmpi .eq (BitVec.ofNat 32 m) (BitVec.ofNat 32 n) = 0#1 := by simp [IntOp.cmpi, hb]
    rw [this, select_zero]

/-- A tile's first row or column as a word: coordinate times 512, no wrap. -/
theorem muli512_small (g : Nat) (hg : g < 16) : Scalar.muli (BitVec.ofNat 32 g) 512#32 = BitVec.ofNat 32 (g * 512) := by
  apply BitVec.eq_of_toNat_eq
  rw [Scalar.muli, IntOp.muli, BitVec.toNat_mul, toNat_ofNat_small g (by omega), toNat_ofNat_small 512 (by omega),
    toNat_ofNat_small (g * 512) (by omega)]
  exact Nat.mod_eq_of_lt (by omega)

theorem addi_small (a b : Nat) (h : a + b < 8192) : IntOp.addi (BitVec.ofNat 32 a) (BitVec.ofNat 32 b) = BitVec.ofNat 32 (a + b) := by
  apply BitVec.eq_of_toNat_eq
  rw [IntOp.addi, BitVec.toNat_add, toNat_ofNat_small a (by omega), toNat_ofNat_small b (by omega), toNat_ofNat_small (a + b) h]
  exact Nat.mod_eq_of_lt (by omega)

end Cert.KernelIdeal.KerVal
-- ==== Proof.KerMask.lean ====
/-
  The second accumulator's update read at an index: the body compares, on 32-bit words, the 64-row group of each
  row of the row tile with the group of each row of the column tile — a row's number is its tile's coordinate times
  512 plus its place in the tile, its group that number's floor quotient by 64 — and keeps an exponential where the
  two agree, zero elsewhere, before summing along the column tile.
-/
import proofs.«161518_j12833362280505_1_alg».proof.Proof.KerStep
import proofs.«161518_j12833362280505_1_alg».proof.Proof.KerWords

noncomputable section

namespace Cert.KernelIdeal.KerVal

open Idealize.ShloMosaic Idealize.ShloMosaic.ValueIdx Cert.KernelIdeal Cert.KernelIdeal.Gen

/-! ## The grid point's coordinates -/

/-- Point n of the 16 × 16 grid has row tile n / 16 … -/
theorem coordsN_0 (n : Nat) (hn : n < 256) : ((KerSpec.coordsN n) 0).val = n / 16 := by
  have hN : grid0.N = 256 := by decide
  have hs : grid0.stride 0 = 16 := by decide
  show (n % grid0.N) / grid0.stride 0 % 16 = n / 16
  rw [hN, hs]; omega

/-- … and column tile n % 16. -/
theorem coordsN_1 (n : Nat) (hn : n < 256) : ((KerSpec.coordsN n) 1).val = n % 16 := by
  have hN : grid0.N = 256 := by decide
  have hs : grid0.stride 1 = 1 := by decide
  show (n % grid0.N) / grid0.stride 1 % 16 = n % 16
  rw [hN, hs]; omega

/-! ## The same-group mask -/

/-- The group of row r of row tile (i 0): its number (i 0) · 512 + r divided by 64. -/
theorem pay5_apply (i : grid0.Coords) (r : Fin 512) (u : Fin 1) :
    k0_pay5 i (ix2 r u) = BitVec.ofNat 32 (((i 0).val * 512 + r.val) / 64) := by
  have h0 : (i 0).val < 16 := (i 0).isLt
  have hr := r.isLt
  have e : k0_pay5 i (ix2 r u) = fdiv64 (IntOp.addi (Scalar.muli (BitVec.ofNat 32 (i 0).val) 512#32)
      (iota .tc S512x1 32 [0] iota_S512x1_d0_w32 (ix2 r u))) := rfl
  rw [e, iota_single_apply, muli512_small _ h0]
  show fdiv64 (IntOp.addi (BitVec.ofNat 32 ((i 0).val * 512)) (BitVec.ofNat 32 r.val)) = _
  rw [addi_small _ _ (by omega), fdiv64_small _ (by omega)]

/-- An entry kept where the row's group word equals the column's, zero elsewhere, read at (r, c). -/
theorem masked_apply (v9 : FVec Ideal S512x512 .f32) (v37 : IVec S512x1 32) (W : IVec S1x512 32) (r c : Fin 512) :
    select (cmpi .eq (broadcastTo S512x512 v37 broadcasts_S512x1_S512x512) (broadcastTo S512x512 W broadcasts_S1x512_S512x512)) v9
        (broadcast S512x512 (Scalar.ofBits (F := Ideal) .f32 0x00000000#32)) (ix2 r c)
      = Scalar.select (IntOp.cmpi .eq (v37 (ix2 r (0 : Fin 1))) (W (ix2 (0 : Fin 1) c))) (v9 (ix2 r c)) 0 := by
  show Scalar.select (IntOp.cmpi .eq (broadcastTo S512x512 v37 broadcasts_S512x1_S512x512 (ix2 r c))
      (broadcastTo S512x512 W broadcasts_S1x512_S512x512 (ix2 r c))) (v9 (ix2 r c)) (Ideal.ofBits .f32 0x00000000#32) = _
  rw [Cert.LibRows.broadcastTo_a1_ab_apply, broadcastTo_1b_ab_apply, Ideal.ofBits_zero_f32]

/-- The second accumulator's update at row r, for a row whose number is a and columns whose numbers are b c. -/
theorem pay8_apply (v9 : FVec Ideal S512x512 .f32) (v37 : IVec S512x1 32) (v39 v40 : IVec S1x512 32) (v76 : Vec Ideal S512x1 .f32)
    (r : Fin 512) (a : Nat) (b : Fin 512 → Nat) (ha : a < 8192) (hb : ∀ c, b c < 8192)
    (h37 : v37 (ix2 r (0 : Fin 1)) = BitVec.ofNat 32 (a / 64))
    (h41 : ∀ c : Fin 512, IntOp.addi (v40 (ix2 (0 : Fin 1) c)) (v39 (ix2 (0 : Fin 1) c)) = BitVec.ofNat 32 (b c)) :
    k0_pay8 v9 v37 v39 v40 v76 (ix2 r (0 : Fin 1))
      = v76 (ix2 r (0 : Fin 1)) + ∑ c : Fin 512, if a / 64 = b c / 64 then v9 (ix2 r c) else 0 := by
  unfold Gen.k0_pay8
  refine congrArg (v76 (ix2 r (0 : Fin 1)) + ·) ?_
  refine (Cert.LibRows.shapeCast_a_a1_apply _ shapeCasts_S512_S512x1 r 0).trans ?_
  refine (Cert.LibRows.multiReduction_add_row _ reduces_S512x512_S512 (.inl rfl) rfl r).trans ?_
  refine Finset.sum_congr rfl fun c _ => ?_
  refine (masked_apply v9 v37 _ r c).trans ?_
  show Scalar.select (IntOp.cmpi .eq (v37 (ix2 r (0 : Fin 1)))
      (fdiv64 (IntOp.addi (v40 (ix2 (0 : Fin 1) c)) (v39 (ix2 (0 : Fin 1) c))))) (v9 (ix2 r c)) 0 = _
  rw [h37, h41 c, fdiv64_small _ (hb c), select_eq_small _ _ (by omega) (by have := hb c; omega)]

/-- One point adds, to row r of the second accumulator, the exponentials of the column tile's rows that lie in the
    same 64-row group as the row. -/
theorem stepPos_apply (i : grid0.Coords) (q k : Vec Ideal S512x128 .bf16) (acc : Vec Ideal S512x1 .f32) (r : Fin 512) :
    KerSpec.stepPos i q k acc (ix2 r (0 : Fin 1))
      = acc (ix2 r (0 : Fin 1)) + ∑ c : Fin 512,
          if ((i 0).val * 512 + r.val) / 64 = ((i 1).val * 512 + c.val) / 64
          then Ideal.exp (∑ d : Fin 128, q (ix2 r d) * k (ix2 c d)) else 0 := by
  have h0 : (i 0).val < 16 := (i 0).isLt
  have h1 : (i 1).val < 16 := (i 1).isLt
  have hr := r.isLt
  unfold KerSpec.stepPos Gen.k0_pay1
  simp only [shapeCast_self]
  refine (pay8_apply (k0_pay4 q k) (k0_pay5 i) _ (k0_pay6 i) acc r ((i 0).val * 512 + r.val) (fun c => (i 1).val * 512 + c.val)
    (by omega) (fun c => by have := c.isLt; omega) (pay5_apply i r 0) (fun c => ?_)).trans ?_
  · rw [iota_single_apply]
    show IntOp.addi (Scalar.muli (BitVec.ofNat 32 (i 1).val) 512#32) (BitVec.ofNat 32 c.val) = _
    rw [muli512_small _ h1, addi_small _ _ (by have := c.isLt; omega)]
  · refine congrArg (acc (ix2 r (0 : Fin 1)) + ·) (Finset.sum_congr rfl fun c _ => ?_)
    rw [pay4_apply]

end Cert.KernelIdeal.KerVal
end
-- ==== Proof.KerSum.lean ====
/-
  The two accumulators over the sixteen grid points of a row tile, as plain sums: each point adds one column tile's
  contribution and the accumulators restart from zero at the row tile's first point, so after column tile k they hold
  the contributions of column tiles 0 … k. Also the two ways of numbering the matrix's 8192 rows that the final sums are
  re-indexed through: 16 tiles of 512 rows, and 128 groups of 64 rows. The extended reals' addition is a commutative
  monoid with neutral zero; nothing here needs finiteness.
-/
import proofs.«161518_j12833362280505_1_alg».proof.Proof.KerStep
import proofs.«161518_j12833362280505_1_alg».proof.Proof.KerMask
import Mathlib.Algebra.BigOperators.Fin

noncomputable section

namespace Cert.KernelIdeal.KerVal

open Idealize.ShloMosaic Idealize.ShloMosaic.ValueIdx Cert.KernelIdeal Cert.KernelIdeal.Gen

/-! ## Tiles of the matrix, and the two ways of numbering its rows -/

/-- Row r of tile b is row b · 512 + r of the matrix. -/
theorem blk_apply (A : Vec Ideal S8192x128 .bf16) (b : Nat) (r : Fin 512) (d : Fin 128) (h : b * 512 + r.val < 8192) :
    KerSpec.blk A b (ix2 r d) = A (ix2 (⟨b * 512 + r.val, h⟩ : Fin 8192) d) := by
  have e : (⟨(b * 512 + r.val) % 8192, Nat.mod_lt _ (by decide)⟩ : Fin 8192) = ⟨b * 512 + r.val, h⟩ :=
    Fin.ext (Nat.mod_eq_of_lt h)
  show A (ix2 (⟨(b * 512 + r.val) % 8192, Nat.mod_lt _ (by decide)⟩ : Fin 8192) (⟨d.val, d.isLt⟩ : Fin 128)) = _
  rw [e]

/-- Row R of the matrix, found in its tile. -/
theorem blk_row (A : Vec Ideal S8192x128 .bf16) (R : Fin 8192) (d : Fin 128) :
    KerSpec.blk A (R.val / 512) (ix2 (⟨R.val % 512, Nat.mod_lt _ (by decide)⟩ : Fin 512) d) = A (ix2 R d) := by
  have hR := R.isLt
  rw [blk_apply A (R.val / 512) ⟨R.val % 512, Nat.mod_lt _ (by decide)⟩ d (by show R.val / 512 * 512 + R.val % 512 < 8192; omega)]
  exact congrArg (fun X : Fin 8192 => A (ix2 X d)) (Fin.ext (by show R.val / 512 * 512 + R.val % 512 = R.val; omega))

/-- The 8192 rows as 16 tiles of 512 … -/
def colEquiv : Fin 16 × Fin 512 ≃ Fin 8192 where
  toFun p := ⟨p.1.val * 512 + p.2.val, by have := p.1.isLt; have := p.2.isLt; omega⟩
  invFun C := (⟨C.val / 512, by have := C.isLt; omega⟩, ⟨C.val % 512, Nat.mod_lt _ (by decide)⟩)
  left_inv p := by
    have h1 := p.1.isLt; have h2 := p.2.isLt
    refine Prod.ext (Fin.ext ?_) (Fin.ext ?_)
    · show (p.1.val * 512 + p.2.val) / 512 = p.1.val; omega
    · show (p.1.val * 512 + p.2.val) % 512 = p.2.val; omega
  right_inv C := Fin.ext (by show C.val / 512 * 512 + C.val % 512 = C.val; omega)

/-- … and as 128 groups of 64. -/
def grpEquiv : Fin 128 × Fin 64 ≃ Fin 8192 where
  toFun p := ⟨p.1.val * 64 + p.2.val, by have := p.1.isLt; have := p.2.isLt; omega⟩
  invFun C := (⟨C.val / 64, by have := C.isLt; omega⟩, ⟨C.val % 64, Nat.mod_lt _ (by decide)⟩)
  left_inv p := by
    have h1 := p.1.isLt; have h2 := p.2.isLt
    refine Prod.ext (Fin.ext ?_) (Fin.ext ?_)
    · show (p.1.val * 64 + p.2.val) / 64 = p.1.val; omega
    · show (p.1.val * 64 + p.2.val) % 64 = p.2.val; omega
  right_inv C := Fin.ext (by show C.val / 64 * 64 + C.val % 64 = C.val; omega)

/-! ## The first accumulator over a row tile's sixteen points -/

/-- What one column tile contributes to row r of row tile i. -/
def tileTot (A : Vec Ideal S8192x128 .bf16) (i j : Nat) (r : Fin 512) : EReal :=
  ∑ c : Fin 512, Ideal.exp (∑ d : Fin 128, KerSpec.blk A i (ix2 r d) * KerSpec.blk A j (ix2 c d))

/-- The accumulator after point n, from the accumulator after point n − 1 (or from zero at a row tile's first point). -/
theorem accTot_rec (A : Vec Ideal S8192x128 .bf16) (n : Nat) :
    KerSpec.accTot A n = KerSpec.stepTot (KerSpec.blk A (n / 16)) (KerSpec.blk A (n % 16))
      (if n % 16 = 0 then KerSpec.zeroTot (F := Ideal) else KerSpec.accTot A (n - 1)) := by
  cases n with
  | zero => rfl
  | succ n => rfl

/-- After column tile k of row tile i the accumulator's row r holds the contributions of column tiles 0 … k. -/
theorem accTot_apply (A : Vec Ideal S8192x128 .bf16) (i : Nat) (r : Fin 512) :
    ∀ k : Nat, k < 16 → KerSpec.accTot A (i * 16 + k) (ix2 r (0 : Fin 1)) = ∑ j ∈ Finset.range (k + 1), tileTot A i j r := by
  intro k
  induction k with
  | zero =>
    intro _
    have h1 : (i * 16 + 0) % 16 = 0 := by omega
    have h2 : (i * 16 + 0) / 16 = i := by omega
    rw [accTot_rec, stepTot_apply, if_pos h1, h1, h2, zeroTot_apply, zero_add, Finset.sum_range_one]
    rfl
  | succ k ih =>
    intro hk
    have h1 : (i * 16 + (k + 1)) % 16 = k + 1 := by omega
    have h2 : (i * 16 + (k + 1)) / 16 = i := by omega
    have h3 : i * 16 + (k + 1) - 1 = i * 16 + k := by omega
    rw [accTot_rec, stepTot_apply, if_neg (by omega), h1, h2, h3, ih (by omega)]
    exact (Finset.sum_range_succ (fun j => tileTot A i j r) (k + 1)).symm

/-! ## The second accumulator over a row tile's sixteen points -/

/-- What one column tile contributes to row r of row tile i in the second accumulator: the exponentials of its rows in
    row i · 512 + r's own 64-row group. -/
def tilePos (A : Vec Ideal S8192x128 .bf16) (i j : Nat) (r : Fin 512) : EReal :=
  ∑ c : Fin 512, if (i * 512 + r.val) / 64 = (j * 512 + c.val) / 64
    then Ideal.exp (∑ d : Fin 128, KerSpec.blk A i (ix2 r d) * KerSpec.blk A j (ix2 c d)) else 0

/-- The accumulator after point n, from the accumulator after point n − 1 (or from zero at a row tile's first point). -/
theorem accPos_rec (A : Vec Ideal S8192x128 .bf16) (n : Nat) :
    KerSpec.accPos A n = KerSpec.stepPos (KerSpec.coordsN n) (KerSpec.blk A (n / 16)) (KerSpec.blk A (n % 16))
      (if n % 16 = 0 then KerSpec.zeroPos (F := Ideal) else KerSpec.accPos A (n - 1)) := by
  cases n with
  | zero => rfl
  | succ n => rfl

/-- After column tile k of row tile i the accumulator's row r holds the contributions of column tiles 0 … k. -/
theorem accPos_apply (A : Vec Ideal S8192x128 .bf16) (i : Nat) (hi : i < 16) (r : Fin 512) :
    ∀ k : Nat, k < 16 → KerSpec.accPos A (i * 16 + k) (ix2 r (0 : Fin 1)) = ∑ j ∈ Finset.range (k + 1), tilePos A i j r := by
  intro k
  induction k with
  | zero =>
    intro _
    have h1 : (i * 16 + 0) % 16 = 0 := by omega
    have h2 : (i * 16 + 0) / 16 = i := by omega
    rw [accPos_rec, stepPos_apply, coordsN_0 (i * 16 + 0) (by omega), coordsN_1 (i * 16 + 0) (by omega), if_pos h1, h1, h2,
      zeroPos_apply, zero_add, Finset.sum_range_one]
    rfl
  | succ k ih =>
    intro hk
    have h1 : (i * 16 + (k + 1)) % 16 = k + 1 := by omega
    have h2 : (i * 16 + (k + 1)) / 16 = i := by omega
    have h3 : i * 16 + (k + 1) - 1 = i * 16 + k := by omega
    rw [accPos_rec, stepPos_apply, coordsN_0 (i * 16 + (k + 1)) (by omega), coordsN_1 (i * 16 + (k + 1)) (by omega),
      if_neg (by omega), h1, h2, h3, ih (by omega)]
    exact (Finset.sum_range_succ (fun j => tilePos A i j r) (k + 1)).symm

end Cert.KernelIdeal.KerVal
end
-- ==== Proof.KerVal.lean ====
/-
  What the kernel's two result arrays hold, at the ideal values, as plain sums over rows of the matrix A:
  row R of the first is the sum over all 8192 rows C of exp (A[R] · A[C]); row R of the second is the same sum over the 64
  rows of R's own group. The sixteen column tiles' contributions are gathered into one sum over the rows (16 tiles of 512),
  and for the second result the rows are regrouped as 128 groups of 64, only R's group contributing.
-/
import proofs.«161518_j12833362280505_1_alg».proof.Proof.KerSum

noncomputable section

namespace Cert.KernelIdeal.KerVal

open Idealize.ShloMosaic Idealize.ShloMosaic.ValueIdx Cert.KernelIdeal Cert.KernelIdeal.Gen

/-- THE FIRST RESULT: row R holds the sum, over all 8192 rows C, of exp of the dot product of rows R and C. -/
theorem out0_apply (A : Vec Ideal S8192x128 .bf16) (R : Fin 8192) :
    KerSpec.out0 A (ix2 R (0 : Fin 1)) = ∑ C : Fin 8192, Ideal.exp (∑ d : Fin 128, A (ix2 R d) * A (ix2 C d)) := by
  have hR := R.isLt
  show KerSpec.accTot A ((R.val / 512) * 16 + 15) (ix2 (⟨R.val % 512, Nat.mod_lt _ (by decide)⟩ : Fin 512) (0 : Fin 1)) = _
  rw [accTot_apply A (R.val / 512) ⟨R.val % 512, Nat.mod_lt _ (by decide)⟩ 15 (by decide), Finset.sum_range,
    ← Equiv.sum_comp colEquiv, Fintype.sum_prod_type]
  refine Finset.sum_congr rfl fun j _ => Finset.sum_congr rfl fun c _ => ?_
  refine congrArg Ideal.exp (Finset.sum_congr rfl fun d _ => ?_)
  rw [blk_row A R d, blk_apply A j.val c d (by have := j.isLt; have := c.isLt; omega)]
  rfl

/-- THE SECOND RESULT: row R holds the sum, over the 64 rows of its own group, of exp of the dot product with R. -/
theorem out1_apply (A : Vec Ideal S8192x128 .bf16) (R : Fin 8192) :
    KerSpec.out1 A (ix2 R (0 : Fin 1))
      = ∑ n : Fin 64, Ideal.exp (∑ d : Fin 128, A (ix2 R d) * A (ix2 (⟨(R.val / 64) * 64 + n.val, by omega⟩ : Fin 8192) d)) := by
  have hR := R.isLt
  have e1 : R.val / 512 * 512 + R.val % 512 = R.val := by omega
  show KerSpec.accPos A ((R.val / 512) * 16 + 15) (ix2 (⟨R.val % 512, Nat.mod_lt _ (by decide)⟩ : Fin 512) (0 : Fin 1)) = _
  rw [accPos_apply A (R.val / 512) (by omega) ⟨R.val % 512, Nat.mod_lt _ (by decide)⟩ 15 (by decide), Finset.sum_range]
  -- as a sum over all rows C, kept where C lies in R's group
  have step1 : ∑ j : Fin 16, tilePos A (R.val / 512) j.val ⟨R.val % 512, Nat.mod_lt _ (by decide)⟩
      = ∑ C : Fin 8192, if R.val / 64 = C.val / 64 then Ideal.exp (∑ d : Fin 128, A (ix2 R d) * A (ix2 C d)) else 0 := by
    rw [← Equiv.sum_comp colEquiv, Fintype.sum_prod_type]
    refine Finset.sum_congr rfl fun j _ => Finset.sum_congr rfl fun c _ => ?_
    show (if (R.val / 512 * 512 + R.val % 512) / 64 = (j.val * 512 + c.val) / 64 then _ else 0)
      = if R.val / 64 = (j.val * 512 + c.val) / 64 then _ else 0
    rw [e1]
    refine if_congr Iff.rfl ?_ rfl
    refine congrArg Ideal.exp (Finset.sum_congr rfl fun d _ => ?_)
    rw [blk_row A R d, blk_apply A j.val c d (by have := j.isLt; have := c.isLt; omega)]
    rfl
  rw [step1, ← Equiv.sum_comp grpEquiv, Fintype.sum_prod_type,
    Finset.sum_eq_single (⟨R.val / 64, by omega⟩ : Fin 128)]
  · refine Finset.sum_congr rfl fun n _ => ?_
    have hn : R.val / 64 = (R.val / 64 * 64 + n.val) / 64 := by have := n.isLt; omega
    show (if R.val / 64 = (R.val / 64 * 64 + n.val) / 64 then _ else 0) = _
    rw [if_pos hn]
    rfl
  · intro g _ hg
    refine Finset.sum_eq_zero fun n _ => ?_
    have hn : ¬ R.val / 64 = (g.val * 64 + n.val) / 64 := by
      have := n.isLt
      intro h
      exact hg (Fin.ext (by show g.val = R.val / 64; omega))
    show (if R.val / 64 = (g.val * 64 + n.val) / 64 then _ else 0) = 0
    rw [if_neg hn]
  · intro h
    exact absurd (Finset.mem_univ _) h

end Cert.KernelIdeal.KerVal
end
-- ==== Proof.Bridge.lean ====
/-
  The kernel program's result equals the reference's, at the exact values: the bridge of the previous module with
  its hypotheses discharged: the reads of the reference's stages at an index, and the two columns the kernel region
  writes read at a row.
-/
import proofs.«161518_j12833362280505_1_alg».proof.Proof.BridgeOf
import proofs.«161518_j12833362280505_1_alg».proof.Proof.RefRead
import proofs.«161518_j12833362280505_1_alg».proof.Proof.KerVal

noncomputable section

namespace Cert.Bridge

open Idealize.ShloMosaic Idealize.ShloMosaic.ValueIdx
open Cert.KernelIdeal

theorem out_eq_of_ker
    (out0_apply : ∀ (A : Vec Ideal S8192x128 .bf16) (R : Fin 8192),
      KerSpec.out0 A (ix2 R (0 : Fin 1)) = ∑ C : Fin 8192, Ideal.exp (∑ d : Fin 128, A (ix2 R d) * A (ix2 C d)))
    (out1_apply : ∀ (A : Vec Ideal S8192x128 .bf16) (R : Fin 8192),
      KerSpec.out1 A (ix2 R (0 : Fin 1))
        = ∑ n : Fin 64, Ideal.exp (∑ d : Fin 128, A (ix2 R d) * A (ix2 (⟨(R.val / 64) * 64 + n.val, by omega⟩ : Fin 8192) d)))
    (a0 a1 : FVec Ideal S64x64x128 .f32) :
    KerTerm.out a0 a1 = Cert.ReferenceIdeal.RefTerm.out a0 a1 :=
  out_eq_of Cert.ReferenceIdeal.RefRead.cat_apply Cert.ReferenceIdeal.RefRead.E_apply
    Cert.ReferenceIdeal.RefRead.tot_apply Cert.ReferenceIdeal.RefRead.pos1_apply Cert.ReferenceIdeal.RefRead.pos2_apply
    out0_apply out1_apply a0 a1

/-- The kernel program's result is the reference's. -/
theorem out_eq (a0 a1 : FVec Ideal S64x64x128 .f32) :
    KerTerm.out a0 a1 = Cert.ReferenceIdeal.RefTerm.out a0 a1 :=
  out_eq_of_ker KerVal.out0_apply KerVal.out1_apply a0 a1

end Cert.Bridge

end
-- ==== Proof.lean ====
/-
  The kernel computes an L2-normalised, flattened 8192 × 128 feature matrix `A` on the host, then in one tiled pass
  over a 16 × 16 grid of 512-row tiles accumulates, for every row `R`, the sum over all rows `C` of
  `exp (A[R] · A[C])` and the same sum over the rows `C` of `R`'s own 64-row group; a short host tail adds the
  cross-view term `exp (fk · fs)`, divides, takes `-log` and averages. The reference forms the whole
  [128, 64, 128, 64] array of `exp` of dot products, reduces it over its last two axes, gathers its diagonal blocks
  and the cross-view diagonal, and applies the same tail. Over the extended reals the two agree index by index:
  sums over the tiles re-associate to the sum over all rows, the masked sums to the sum over a group, and the
  cross-view product commutes. Both programs' runs end with their argument arrays unchanged.
-/
import proofs.«161518_j12833362280505_1_alg».proof.Defs
import proofs.«161518_j12833362280505_1_alg».proof.Proof.Gen.Kernel
import proofs.«161518_j12833362280505_1_alg».proof.Proof.Gen.KernelIdeal
import proofs.«161518_j12833362280505_1_alg».proof.Proof.Gen.ReferenceIdeal
import proofs.«161518_j12833362280505_1_alg».proof.Proof.Gen.Pre_finite_inputs
import proofs.«161518_j12833362280505_1_alg».proof.Proof.Kernel.Frame
import proofs.«161518_j12833362280505_1_alg».proof.Proof.KernelIdeal.Value
import proofs.«161518_j12833362280505_1_alg».proof.Proof.RefRun
import proofs.«161518_j12833362280505_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves both arguments as launched. -/
theorem frame_k : Cert.frame_Kernel := fun m ρ _ => Cert.Kernel.KF.frame m ρ
/-- So does its idealization. -/
theorem frame_ki : Cert.frame_KernelIdeal := fun m ρ _ => Cert.KernelIdeal.KF.frame m ρ
/-- The reference is host operations only: its run with the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the arguments both idealized programs end with the same result: the kernel's result
    term and the reference's are one function of the argument arrays. -/
theorem algebraic : Cert.algebraic_KernelIdeal_ReferenceIdeal := by
  intro m ρ m' ρ' _ hagree
  refine ⟨_, Cert.KernelIdeal.KF.run_value (F := Ideal) m ρ, ?_⟩
  refine (θ_run Cert.ReferenceIdeal.defs _ _).mono (fun _ h c => ⟨(h c).1.trans ?_, (h c).2⟩)
    (Cert.ReferenceIdeal.RefRun.run m' ρ')
  rw [(hagree c).1, (hagree c).2]
  exact (Cert.Bridge.out_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
